-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000x128 : Shape := ⟨2, ![600000, 128]⟩
abbrev S128x128 : Shape := ⟨2, ![128, 128]⟩
abbrev S128 : Shape := ⟨1, ![128]⟩
abbrev S384x128 : Shape := ⟨2, ![384, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_

variable [Facts]

def fn_part4 {F : FTy → Type} [FloatOps F] (main_arg15 : FVec F S384x128 .f32) (main_arg16 : FVec F S128 .f32) (main_v63 : IVec S_ 1) (main_v67 : IVec S_ 1) : IVec S_ 1 :=
  let main_v68 : IVec S_ 1 := andi main_v63 main_v67
  let main_v69 : FVec F S384x128 .f32 := Host.absf main_arg15
  let main_cst_26 : FVec F S_ .f32 := constant S_ .f32 0x7F800000#32
  let main_v70 : FVec F S384x128 .f32 := broadcastInDim S384x128 ![] bcast_S_S384x128 main_cst_26
  let main_v71 : IVec S384x128 1 := cmpf .olt main_v69 main_v70
  let main_c_27 : IVec S_ 1 := constantI S_ 1 1#1
  let main_v72 : IVec S_ 1 := (fun x v => Host.reduce IntOp.andi x v reducesTo_S384x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg12 : FVec F S128 .f32) (main_arg13 : FVec F S128x128 .f32) (main_arg14 : FVec F S128 .f32) (main_arg15 : FVec F S384x128 .f32) (main_arg16 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_v63 main_v67

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S384x128 .f32) (main_arg16 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S384x128 .f32) (main_arg16 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x128 .f32) (main_arg1 : IVec S2x600000 32) (main_arg2 : FVec F S600000x128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S384x128 .f32) (main_arg16 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg2
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x600000 : Shape := ⟨2, ![2, 600000]⟩
abbrev S600000x128 : Shape := ⟨2, ![600000, 128]⟩
abbrev S128x128 : Shape := ⟨2, ![128, 128]⟩
abbrev S128 : Shape := ⟨1, ![128]⟩
abbrev S384x128 : Shape := ⟨2, ![384, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1x128 : Shape := ⟨2, ![1, 128]⟩
abbrev S5000x128 : Shape := ⟨2, ![5000, 128]⟩
abbrev S2000x128 : Shape := ⟨2, ![2000, 128]⟩

abbrev nBuf : Space → Nat
  | .hbm => 85
  | .vmem => 38
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S384x128, .f32⟩
  | .hbm, ⟨16, _⟩ => ⟨S128, .f32⟩
  | .hbm, ⟨17, _⟩ => ⟨S1x600000, .i32⟩
  | .hbm, ⟨18, _⟩ => ⟨S600000, .i32⟩
  | .hbm, ⟨19, _⟩ => ⟨S1x600000, .i32⟩
  | .hbm, ⟨20, _⟩ => ⟨S600000, .i32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S600000x128, .f32⟩
  | .hbm, ⟨31, _⟩ => ⟨S_, .f32⟩
  | .hbm, ⟨32, _⟩ => ⟨S600000x128, .f32⟩
  | .hbm, ⟨33, _⟩ => ⟨S600000x128, .f32⟩
  | .hbm, ⟨34, _⟩ => ⟨S_, .f32⟩
  | .hbm, ⟨35, _⟩ => ⟨S50000x128, .f32⟩
  | .hbm, ⟨36, _⟩ => ⟨S600000x1, .i32⟩
  | .hbm, ⟨37, _⟩ => ⟨S50000x128, .f32⟩
  | .hbm, ⟨38, _⟩ => ⟨S1x128, .f32⟩
  | .hbm, ⟨39, _⟩ => ⟨S1x128, .f32⟩
  | .hbm, ⟨40, _⟩ => ⟨S50000x128, .f32⟩
  | .hbm, ⟨41, _⟩ => ⟨S_, .i32⟩
  | .hbm, ⟨42, _⟩ => ⟨S600000, .i32⟩
  | .hbm, ⟨43, _⟩ => ⟨S600000, .i1⟩
  | .hbm, ⟨44, _⟩ => ⟨S_, .i32⟩
  | .hbm, ⟨45, _⟩ => ⟨S600000, .i32⟩
  | .hbm, ⟨46, _⟩ => ⟨S600000, .i32⟩
  | .hbm, ⟨47, _⟩ => ⟨S600000, .i32⟩
  | .hbm, ⟨48, _⟩ => ⟨S600000x1, .i32⟩
  | .hbm, ⟨49, _⟩ => ⟨S600000x128, .f32⟩
  | .hbm, ⟨50, _⟩ => ⟨S600000x128, .f32⟩
  | .hbm, ⟨51, _⟩ => ⟨S_, .f32⟩
  | .hbm, ⟨52, _⟩ => ⟨S600000x128, .f32⟩
  | .hbm, ⟨53, _⟩ => ⟨S600000x128, .f32⟩
  | .hbm, ⟨54, _⟩ => ⟨S_, .f32⟩
  | .hbm, ⟨55, _⟩ => ⟨S50000x128, .f32⟩
  | .hbm, ⟨56, _⟩ => ⟨S600000x1, .i32⟩
  | .hbm, ⟨57, _⟩ => ⟨S50000x128, .f32⟩
  | .hbm, ⟨58, _⟩ => ⟨S1x128, .f32⟩
  | .hbm, ⟨59, _⟩ => ⟨S1x128, .f32⟩
  | .hbm, ⟨60, _⟩ => ⟨S50000x128, .f32⟩
  | .hbm, ⟨61, _⟩ => ⟨S_, .i32⟩
  | .hbm, ⟨62, _⟩ => ⟨S600000, .i32⟩
  | .hbm, ⟨63, _⟩ => ⟨S600000, .i1⟩
  | .hbm, ⟨64, _⟩ => ⟨S_, .i32⟩
  | .hbm, ⟨65, _⟩ => ⟨S600000, .i32⟩
  | .hbm, ⟨66, _⟩ => ⟨S600000, .i32⟩
  | .hbm, ⟨67, _⟩ => ⟨S600000, .i32⟩
  | .hbm, ⟨68, _⟩ => ⟨S600000x1, .i32⟩
  | .hbm, ⟨69, _⟩ => ⟨S600000x128, .f32⟩
  | .hbm, ⟨70, _⟩ => ⟨S600000x128, .f32⟩
  | .hbm, ⟨71, _⟩ => ⟨S_, .f32⟩
  | .hbm, ⟨72, _⟩ => ⟨S600000x128, .f32⟩
  | .hbm, ⟨73, _⟩ => ⟨S600000x128, .f32⟩
  | .hbm, ⟨74, _⟩ => ⟨S_, .f32⟩
  | .hbm, ⟨75, _⟩ => ⟨S50000x128, .f32⟩
  | .hbm, ⟨76, _⟩ => ⟨S600000x1, .i32⟩
  | .hbm, ⟨77, _⟩ => ⟨S50000x128, .f32⟩
  | .hbm, ⟨78, _⟩ => ⟨S128x128, .f32⟩
  | .hbm, ⟨79, _⟩ => ⟨S128x128, .f32⟩
  | .hbm, ⟨80, _⟩ => ⟨S128x128, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S128x128, .f32⟩
  | .local _ .vmem, ⟨34, _⟩ => ⟨S128x128, .f32⟩
  | .local _ .vmem, ⟨35, _⟩ => ⟨S1x128, .f32⟩
  | .local _ .vmem, ⟨36, _⟩ => ⟨S2000x128, .f32⟩
  | .local _ .vmem, ⟨37, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call0_cst : Ref sig .tc := ⟨.hbm, 31, rfl⟩
abbrev main_call0_v0 : Ref sig .tc := ⟨.hbm, 32, rfl⟩
abbrev main_v12 : Ref sig .tc := ⟨.hbm, 33, rfl⟩
abbrev main_cst : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_1 : Ref sig .tc := ⟨.hbm, 41, rfl⟩
abbrev main_v19 : Ref sig .tc := ⟨.hbm, 42, rfl⟩
abbrev main_v20 : Ref sig .tc := ⟨.hbm, 43, rfl⟩
abbrev main_c_2 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_call1_cst : Ref sig .tc := ⟨.hbm, 51, rfl⟩
abbrev main_call1_v0 : Ref sig .tc := ⟨.hbm, 52, rfl⟩
abbrev main_v27 : Ref sig .tc := ⟨.hbm, 53, rfl⟩
abbrev main_cst_3 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_4 : Ref sig .tc := ⟨.hbm, 61, rfl⟩
abbrev main_v34 : Ref sig .tc := ⟨.hbm, 62, rfl⟩
abbrev main_v35 : Ref sig .tc := ⟨.hbm, 63, rfl⟩
abbrev main_c_5 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_call2_cst : Ref sig .tc := ⟨.hbm, 71, rfl⟩
abbrev main_call2_v0 : Ref sig .tc := ⟨.hbm, 72, rfl⟩
abbrev main_v42 : Ref sig .tc := ⟨.hbm, 73, rfl⟩
abbrev main_cst_6 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg9_0 : Ref sig .tc := ⟨.vmem, 33, rfl⟩
abbrev cc2_stg10_0 : Ref sig .tc := ⟨.vmem, 34, rfl⟩
abbrev cc2_stg11_0 : Ref sig .tc := ⟨.vmem, 35, rfl⟩
abbrev cc2_stg12_0 : Ref sig .tc := ⟨.vmem, 36, rfl⟩
abbrev cc2_stg12_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem9_0 : DmaSem sig := 33
abbrev cc2_sem10_0 : DmaSem sig := 34
abbrev cc2_sem11_0 : DmaSem sig := 35
abbrev cc2_sem12_0 : DmaSem sig := 36
abbrev cc2_sem12_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S2000x128 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S384x128_S128x128_0_0 : S384x128.Slices ![0, 0] S128x128
  slices_S384x128_S128x128_128_0 : S384x128.Slices ![128, 0] S128x128
  slices_S384x128_S128x128_256_0 : S384x128.Slices ![256, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  shapeCasts_S128x128_S128x128 : S128x128.ShapeCasts S128x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x128.size a ≤ S128x128.size a
  hwx2_9 : ∀ i : grid2.Coords, EltTy.bits .f32 = 32 ∨ (Rect.block (s := S128x128) S128x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128x128.size a ≤ S128x128.size a
  hwx2_10 : ∀ i : grid2.Coords, EltTy.bits .f32 = 32 ∨ (Rect.block (s := S128x128) S128x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x128.size a ≤ S1x128.size a
  hwx2_11 : ∀ i : grid2.Coords, EltTy.bits .f32 = 32 ∨ (Rect.block (s := S1x128) S1x128.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S2000x128.size a ≤ S50000x128.size a
  hwx2_12 : ∀ i : grid2.Coords, EltTy.bits .f32 = 32 ∨ (Rect.block (s := S50000x128) S2000x128.size (cc2_transform_12 i) (hinb2_12 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v18) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v33) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v33) S2000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg13) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v50) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v46) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v47) S128x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v48) S128x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v51) S1x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v52) S2000x128.size cc2_transform_12 reads2_12 true false 2 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000x128 : Shape := ⟨2, ![600000, 128]⟩
abbrev S128x128 : Shape := ⟨2, ![128, 128]⟩
abbrev S128 : Shape := ⟨1, ![128]⟩
abbrev S384x128 : Shape := ⟨2, ![384, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1x128 : Shape := ⟨2, ![1, 128]⟩
abbrev S50000x384 : Shape := ⟨2, ![50000, 384]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S384x128, .f32⟩
  | .hbm, ⟨16, _⟩ => ⟨S128, .f32⟩
  | .hbm, ⟨17, _⟩ => ⟨S1x600000, .i32⟩
  | .hbm, ⟨18, _⟩ => ⟨S600000, .i32⟩
  | .hbm, ⟨19, _⟩ => ⟨S1x600000, .i32⟩
  | .hbm, ⟨20, _⟩ => ⟨S600000, .i32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S600000x128, .f32⟩
  | .hbm, ⟨31, _⟩ => ⟨S_, .f32⟩
  | .hbm, ⟨32, _⟩ => ⟨S600000x128, .f32⟩
  | .hbm, ⟨33, _⟩ => ⟨S600000x128, .f32⟩
  | .hbm, ⟨34, _⟩ => ⟨S_, .f32⟩
  | .hbm, ⟨35, _⟩ => ⟨S50000x128, .f32⟩
  | .hbm, ⟨36, _⟩ => ⟨S600000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000x128, .f32⟩
  | .hbm, ⟨52, _⟩ => ⟨S50000x128, .f32⟩
  | .hbm, ⟨53, _⟩ => ⟨S_, .i32⟩
  | .hbm, ⟨54, _⟩ => ⟨S600000, .i32⟩
  | .hbm, ⟨55, _⟩ => ⟨S600000, .i1⟩
  | .hbm, ⟨56, _⟩ => ⟨S_, .i32⟩
  | .hbm, ⟨57, _⟩ => ⟨S600000, .i32⟩
  | .hbm, ⟨58, _⟩ => ⟨S600000, .i32⟩
  | .hbm, ⟨59, _⟩ => ⟨S600000, .i32⟩
  | .hbm, ⟨60, _⟩ => ⟨S600000x1, .i32⟩
  | .hbm, ⟨61, _⟩ => ⟨S600000x128, .f32⟩
  | .hbm, ⟨62, _⟩ => ⟨S600000x128, .f32⟩
  | .hbm, ⟨63, _⟩ => ⟨S_, .f32⟩
  | .hbm, ⟨64, _⟩ => ⟨S600000x128, .f32⟩
  | .hbm, ⟨65, _⟩ => ⟨S600000x128, .f32⟩
  | .hbm, ⟨66, _⟩ => ⟨S_, .f32⟩
  | .hbm, ⟨67, _⟩ => ⟨S50000x128, .f32⟩
  | .hbm, ⟨68, _⟩ => ⟨S600000x1, .i32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S50000x128, .f32⟩
  | .hbm, ⟨84, _⟩ => ⟨S50000x128, .f32⟩
  | .hbm, ⟨85, _⟩ => ⟨S_, .i32⟩
  | .hbm, ⟨86, _⟩ => ⟨S600000, .i32⟩
  | .hbm, ⟨87, _⟩ => ⟨S600000, .i1⟩
  | .hbm, ⟨88, _⟩ => ⟨S_, .i32⟩
  | .hbm, ⟨89, _⟩ => ⟨S600000, .i32⟩
  | .hbm, ⟨90, _⟩ => ⟨S600000, .i32⟩
  | .hbm, ⟨91, _⟩ => ⟨S600000, .i32⟩
  | .hbm, ⟨92, _⟩ => ⟨S600000x1, .i32⟩
  | .hbm, ⟨93, _⟩ => ⟨S600000x128, .f32⟩
  | .hbm, ⟨94, _⟩ => ⟨S600000x128, .f32⟩
  | .hbm, ⟨95, _⟩ => ⟨S_, .f32⟩
  | .hbm, ⟨96, _⟩ => ⟨S600000x128, .f32⟩
  | .hbm, ⟨97, _⟩ => ⟨S600000x128, .f32⟩
  | .hbm, ⟨98, _⟩ => ⟨S_, .f32⟩
  | .hbm, ⟨99, _⟩ => ⟨S50000x128, .f32⟩
  | .hbm, ⟨100, _⟩ => ⟨S600000x1, .i32⟩
  | .hbm, ⟨101, _⟩ => ⟨S50000x128, .f32⟩
  | .hbm, ⟨102, _⟩ => ⟨S50000x128, .f32⟩
  | .hbm, ⟨103, _⟩ => ⟨S50000x128, .f32⟩
  | .hbm, ⟨104, _⟩ => ⟨S1x128, .f32⟩
  | .hbm, ⟨105, _⟩ => ⟨S50000x128, .f32⟩
  | .hbm, ⟨106, _⟩ => ⟨S50000x128, .f32⟩
  | .hbm, ⟨107, _⟩ => ⟨S_, .f32⟩
  | .hbm, ⟨108, _⟩ => ⟨S50000x128, .f32⟩
  | .hbm, ⟨109, _⟩ => ⟨S50000x128, .f32⟩
  | .hbm, ⟨110, _⟩ => ⟨S50000x128, .f32⟩
  | .hbm, ⟨111, _⟩ => ⟨S1x128, .f32⟩
  | .hbm, ⟨112, _⟩ => ⟨S50000x128, .f32⟩
  | .hbm, ⟨113, _⟩ => ⟨S50000x128, .f32⟩
  | .hbm, ⟨114, _⟩ => ⟨S_, .f32⟩
  | .hbm, ⟨115, _⟩ => ⟨S50000x128, .f32⟩
  | .hbm, ⟨116, _⟩ => ⟨S50000x128, .f32⟩
  | .hbm, ⟨117, _⟩ => ⟨S50000x384, .f32⟩
  | .hbm, ⟨118, _⟩ => ⟨S50000x128, .f32⟩
  | .hbm, ⟨119, _⟩ => ⟨S1x128, .f32⟩
  | .hbm, ⟨120, _⟩ => ⟨S50000x128, .f32⟩
  | .hbm, ⟨121, _⟩ => ⟨S50000x128, .f32⟩
  | .hbm, ⟨122, _⟩ => ⟨S_, .f32⟩
  | .hbm, ⟨123, _⟩ => ⟨S50000x128, .f32⟩
  | .hbm, ⟨124, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call0_cst : Ref sig .tc := ⟨.hbm, 31, rfl⟩
abbrev main_call0_v0 : Ref sig .tc := ⟨.hbm, 32, rfl⟩
abbrev main_v12 : Ref sig .tc := ⟨.hbm, 33, rfl⟩
abbrev main_cst : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_call1_cst : Ref sig .tc := ⟨.hbm, 43, rfl⟩
abbrev main_call1_v0 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_call2_cst : Ref sig .tc := ⟨.hbm, 50, rfl⟩
abbrev main_call2_v0 : Ref sig .tc := ⟨.hbm, 51, rfl⟩
abbrev main_v26 : Ref sig .tc := ⟨.hbm, 52, rfl⟩
abbrev main_c_1 : Ref sig .tc := ⟨.hbm, 53, rfl⟩
abbrev main_v27 : Ref sig .tc := ⟨.hbm, 54, rfl⟩
abbrev main_v28 : Ref sig .tc := ⟨.hbm, 55, rfl⟩
abbrev main_c_2 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_call3_cst : Ref sig .tc := ⟨.hbm, 63, rfl⟩
abbrev main_call3_v0 : Ref sig .tc := ⟨.hbm, 64, rfl⟩
abbrev main_v35 : Ref sig .tc := ⟨.hbm, 65, rfl⟩
abbrev main_cst_3 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_call4_cst : Ref sig .tc := ⟨.hbm, 75, rfl⟩
abbrev main_call4_v0 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_call5_cst : Ref sig .tc := ⟨.hbm, 82, rfl⟩
abbrev main_call5_v0 : Ref sig .tc := ⟨.hbm, 83, rfl⟩
abbrev main_v49 : Ref sig .tc := ⟨.hbm, 84, rfl⟩
abbrev main_c_4 : Ref sig .tc := ⟨.hbm, 85, rfl⟩
abbrev main_v50 : Ref sig .tc := ⟨.hbm, 86, rfl⟩
abbrev main_v51 : Ref sig .tc := ⟨.hbm, 87, rfl⟩
abbrev main_c_5 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_call6_cst : Ref sig .tc := ⟨.hbm, 95, rfl⟩
abbrev main_call6_v0 : Ref sig .tc := ⟨.hbm, 96, rfl⟩
abbrev main_v58 : Ref sig .tc := ⟨.hbm, 97, rfl⟩
abbrev main_cst_6 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_call7_cst : Ref sig .tc := ⟨.hbm, 107, rfl⟩
abbrev main_call7_v0 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_call8_cst : Ref sig .tc := ⟨.hbm, 114, rfl⟩
abbrev main_call8_v0 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_call9_cst : Ref sig .tc := ⟨.hbm, 122, rfl⟩
abbrev main_call9_v0 : Ref sig .tc := ⟨.hbm, 123, rfl⟩
abbrev main_v78 : Ref sig .tc := ⟨.hbm, 124, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x128_S50000x384_d1 : Shape.Concatenates [S50000x128, S50000x128, S50000x128] S50000x384 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x384_S384x128_S50000x128_1_0_0_1_n_n_wf : DotDims.WF S50000x384 S384x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf

class Facts : Prop extends Facts₀ where

variable [Facts]
-- ==== Proof.BitsReg0.lean ====
/-
  The first region of the network's word-level program: the two-layer perceptron of layer 0, one block of 5000 rows at
  a grid point. The body loads six whole blocks — the node features, their edge aggregation, two 128 × 128 weight matrices,
  two one-row biases —, and stores one whole block: the perceptron of what it loaded. Stated for any contents of the arrays
  the region finds and any float instance: what each window's buffer holds before and after the body at every grid point,
  the body's triple, and the obligation the pipeline asks of the body at every point.
-/
import proofs.«113067_j58007828300389_2_alg».proof.Proof.Gen.Kernel.Launch
import proofs.«113067_j58007828300389_2_alg».proof.Proof.Gen.Kernel.Skeleton
import proofs.«113067_j58007828300389_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the two-layer perceptron on one block of 5000 rows (first layer) -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the point fetches it or not (an unfetched
    window's index has not moved since the fetch). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the point fetches it or not (an unfetched
    window's index has not moved since the fetch). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether the point fetches it or not (an unfetched
    window's index has not moved since the fetch). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whether the point fetches it or not (an unfetched
    window's index has not moved since the fetch). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, whether the point fetches it or not (an unfetched
    window's index has not moved since the fetch). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, whether the point fetches it or not (an unfetched
    window's index has not moved since the fetch). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The whole of each staging buffer: the rectangles the body loads and stores through. -/
abbrev r5000x128_0 : Rect S5000x128 := Rect.unit (s := S5000x128) ![0, 0] S5000x128.size inb_S5000x128_S5000x128_0_0
abbrev r128x128_0 : Rect S128x128 := Rect.unit (s := S128x128) ![0, 0] S128x128.size inb_S128x128_S128x128_0_0
abbrev r1x128_0 : Rect S1x128 := Rect.unit (s := S1x128) ![0, 0] S1x128.size inb_S1x128_S1x128_0_0

/-- What the body leaves in the output window's buffer: its one store, as a function of the loaded input blocks. -/
def out0 (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 :=
  View.canon [⟨r5000x128_0, k0_pay1 (View.ld x0 r5000x128_0) (View.ld x1 r5000x128_0) (View.ld x2 r128x128_0) (View.ld x3 r1x128_0) (View.ld x4 r128x128_0) (View.ld x5 r1x128_0)⟩]

/-- The one store covers the whole buffer. -/
theorem cover0 (p0 : Vec F S5000x128 .f32) (y : S5000x128.Idx) :
    ∃ pc ∈ ([⟨r5000x128_0, p0⟩] : List (View.Piece (Elt F) S5000x128 .f32)), y ∈ pc.1.set :=
  View.cover_of_tiled [⟨r5000x128_0, p0⟩] S5000x128.size (by rfl) y

set_option maxHeartbeats 4000000 in
/-- The body on whole staging buffers, the inputs at known contents and the output at anything, runs to its return with the
    inputs as they were and the output at `out0` of them. -/
theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S5000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0 x0 x1 x2 x3 x4 x5)) -∗ K ⟨⟩))
      ⊢ wp frame (wpE (defs₀ (F := F)) Variants.none c none) E (cc0__mlp_kernel i arg1 harg1 arg2 harg2 arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0 _)

/-- The proof data of this region on core `c`: the arrays as the region finds them; after the body at point `t` each input's
    buffer still at its block and the output's at `out0` of the input blocks; nothing owed; each window's share of its
    array given by `q`. -/
def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0 (iblk0 V c 0 t) (iblk0 V c 1 t) (iblk0 V c 2 t) (iblk0 V c 3 t) (iblk0 V c 4 t) (iblk0 V c 5 t)
  Φ _ := Pipeline.ΦA spec0 c
  q := q
  owed _ := 0

variable (q : Fin cfg0.W → PosShare TreeShare)

theorem A_eq0 (c : Dev nD) (w : Fin cfg0.W) : (dat0 V q c).A w = V c (Pipeline.arrRef spec0 w) := by
  dsimp only [dat0]

theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = iblk0 V c 2 t := by dsimp only [dat0]
theorem after0_3 (c : Dev nD) (t : Fin cfg0.N) : (dat0 V q c).after 3 t = iblk0 V c 3 t := by dsimp only [dat0]
theorem after0_4 (c : Dev nD) (t : Fin cfg0.N) : (dat0 V q c).after 4 t = iblk0 V c 4 t := by dsimp only [dat0]
theorem after0_5 (c : Dev nD) (t : Fin cfg0.N) : (dat0 V q c).after 5 t = iblk0 V c 5 t := by dsimp only [dat0]
theorem after0_6 (c : Dev nD) (t : Fin cfg0.N) : (dat0 V q c).after 6 t = out0 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V q c).before 0 t d = iblk0 V c 0 t :=
  before0_0_of V (dat0 V q c) (A_eq0 V q c 0) (after0_0 V q c) t d
theorem before0_1 (c : Dev nD) (t : Fin cfg0.N) (d) : (dat0 V q c).before 1 t d = iblk0 V c 1 t :=
  before0_1_of V (dat0 V q c) (A_eq0 V q c 1) (after0_1 V q c) t d
theorem before0_2 (c : Dev nD) (t : Fin cfg0.N) (d) : (dat0 V q c).before 2 t d = iblk0 V c 2 t :=
  before0_2_of V (dat0 V q c) (A_eq0 V q c 2) (after0_2 V q c) t d
theorem before0_3 (c : Dev nD) (t : Fin cfg0.N) (d) : (dat0 V q c).before 3 t d = iblk0 V c 3 t :=
  before0_3_of V (dat0 V q c) (A_eq0 V q c 3) (after0_3 V q c) t d
theorem before0_4 (c : Dev nD) (t : Fin cfg0.N) (d) : (dat0 V q c).before 4 t d = iblk0 V c 4 t :=
  before0_4_of V (dat0 V q c) (A_eq0 V q c 4) (after0_4 V q c) t d
theorem before0_5 (c : Dev nD) (t : Fin cfg0.N) (d) : (dat0 V q c).before 5 t d = iblk0 V c 5 t :=
  before0_5_of V (dat0 V q c) (A_eq0 V q c 5) (after0_5 V q c) t d

/-- What the body is called with at point `t`, window by window, -/
def bodyPre0 (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d))
    ∗ (∃ d, owns (c : Thread nD τ) (st0_3 t) fullShare ((dat0 V q c).before 3 t d))
    ∗ (∃ d, owns (c : Thread nD τ) (st0_4 t) fullShare ((dat0 V q c).before 4 t d))
    ∗ (∃ d, owns (c : Thread nD τ) (st0_5 t) fullShare ((dat0 V q c).before 5 t d))
    ∗ (∃ d, owns (c : Thread nD τ) (st0_6 t) fullShare ((dat0 V q c).before 6 t d)))

/-- and what it returns. -/
def bodyPost0 (c : Dev nD) (t : Fin cfg0.N) : sProp 𝕄 :=
  iprop((dat0 V q c).Φ t.succ ∗ (dat0 V q c).owesAt () t.succ
    ∗ owns (c : Thread nD τ) (st0_0 t) fullShare ((dat0 V q c).after 0 t)
    ∗ owns (c : Thread nD τ) (st0_1 t) fullShare ((dat0 V q c).after 1 t)
    ∗ owns (c : Thread nD τ) (st0_2 t) fullShare ((dat0 V q c).after 2 t)
    ∗ owns (c : Thread nD τ) (st0_3 t) fullShare ((dat0 V q c).after 3 t)
    ∗ owns (c : Thread nD τ) (st0_4 t) fullShare ((dat0 V q c).after 4 t)
    ∗ owns (c : Thread nD τ) (st0_5 t) fullShare ((dat0 V q c).after 5 t)
    ∗ owns (c : Thread nD τ) (st0_6 t) fullShare ((dat0 V q c).after 6 t))

/-- The body at any point: the inputs' buffers hold their blocks, so the body's triple applies; the invariant and what the
    core owes pass through unread. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1, before0_2, before0_3, before0_4, before0_5]
  rw [show (dat0 V q c).Φ t.succ = (dat0 V q c).Φ t.castSucc from rfl,
    show (dat0 V q c).owesAt () t.succ = (dat0 V q c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point. -/
theorem body_obligation0 (c : Dev nD) : BodyObligation (dat0 (F := F) V q c) (defs₀ (F := F)) Variants.none () Set.univ := fun t => by
  rw [bigSep_W0, bigSep_W0]
  exact sound_body0 V q c t

end Cert.Kernel.Reg0

end
-- ==== Proof.BitsReg1.lean ====
/-
  The second region: the two-layer perceptron of layer 1, one block of 5000 rows at a grid point, its operands the first
  layer's result, that result's edge aggregation, and this layer's weights and one-row biases. Same shape as the first
  region: six whole blocks loaded, one whole block stored; stated for any contents of the arrays and any float instance.
-/
import proofs.«113067_j58007828300389_2_alg».proof.Proof.Gen.Kernel.Launch
import proofs.«113067_j58007828300389_2_alg».proof.Proof.Gen.Kernel.Skeleton
import proofs.«113067_j58007828300389_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the two-layer perceptron on one block of 5000 rows (second layer) -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the point fetches it or not (an unfetched
    window's index has not moved since the fetch). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the point fetches it or not (an unfetched
    window's index has not moved since the fetch). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether the point fetches it or not (an unfetched
    window's index has not moved since the fetch). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, whether the point fetches it or not (an unfetched
    window's index has not moved since the fetch). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, whether the point fetches it or not (an unfetched
    window's index has not moved since the fetch). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, whether the point fetches it or not (an unfetched
    window's index has not moved since the fetch). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole of each staging buffer: the rectangles the body loads and stores through. -/
abbrev r5000x128_1 : Rect S5000x128 := Rect.unit (s := S5000x128) ![0, 0] S5000x128.size inb_S5000x128_S5000x128_0_0
abbrev r128x128_1 : Rect S128x128 := Rect.unit (s := S128x128) ![0, 0] S128x128.size inb_S128x128_S128x128_0_0
abbrev r1x128_1 : Rect S1x128 := Rect.unit (s := S1x128) ![0, 0] S1x128.size inb_S1x128_S1x128_0_0

/-- What the body leaves in the output window's buffer: its one store, as a function of the loaded input blocks. -/
def out1 (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 :=
  View.canon [⟨r5000x128_1, k1_pay1 (View.ld x0 r5000x128_1) (View.ld x1 r5000x128_1) (View.ld x2 r128x128_1) (View.ld x3 r1x128_1) (View.ld x4 r128x128_1) (View.ld x5 r1x128_1)⟩]

/-- The one store covers the whole buffer. -/
theorem cover1 (p0 : Vec F S5000x128 .f32) (y : S5000x128.Idx) :
    ∃ pc ∈ ([⟨r5000x128_1, p0⟩] : List (View.Piece (Elt F) S5000x128 .f32)), y ∈ pc.1.set :=
  View.cover_of_tiled [⟨r5000x128_1, p0⟩] S5000x128.size (by rfl) y

set_option maxHeartbeats 4000000 in
/-- The body on whole staging buffers, the inputs at known contents and the output at anything, runs to its return with the
    inputs as they were and the output at `out1` of them. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S5000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1 x0 x1 x2 x3 x4 x5)) -∗ K ⟨⟩))
      ⊢ wp frame (wpE (defs₀ (F := F)) Variants.none c none) E (cc1__mlp_kernel i arg1 harg1 arg2 harg2 arg3 harg3 arg4 harg4 arg5 harg5 arg6 harg6 arg7 harg7) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1 _)

/-- The proof data of this region on core `c`: the arrays as the region finds them; after the body at point `t` each input's
    buffer still at its block and the output's at `out1` of the input blocks; nothing owed; each window's share of its
    array given by `q`. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 (iblk1 V c 0 t) (iblk1 V c 1 t) (iblk1 V c 2 t) (iblk1 V c 3 t) (iblk1 V c 4 t) (iblk1 V c 5 t)
  Φ _ := Pipeline.ΦA spec1 c
  q := q
  owed _ := 0

variable (q : Fin cfg1.W → PosShare TreeShare)

theorem A_eq1 (c : Dev nD) (w : Fin cfg1.W) : (dat1 V q c).A w = V c (Pipeline.arrRef spec1 w) := by
  dsimp only [dat1]

theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = iblk1 V c 2 t := by dsimp only [dat1]
theorem after1_3 (c : Dev nD) (t : Fin cfg1.N) : (dat1 V q c).after 3 t = iblk1 V c 3 t := by dsimp only [dat1]
theorem after1_4 (c : Dev nD) (t : Fin cfg1.N) : (dat1 V q c).after 4 t = iblk1 V c 4 t := by dsimp only [dat1]
theorem after1_5 (c : Dev nD) (t : Fin cfg1.N) : (dat1 V q c).after 5 t = iblk1 V c 5 t := by dsimp only [dat1]
theorem after1_6 (c : Dev nD) (t : Fin cfg1.N) : (dat1 V q c).after 6 t = out1 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d
theorem before1_2 (c : Dev nD) (t : Fin cfg1.N) (d) : (dat1 V q c).before 2 t d = iblk1 V c 2 t :=
  before1_2_of V (dat1 V q c) (A_eq1 V q c 2) (after1_2 V q c) t d
theorem before1_3 (c : Dev nD) (t : Fin cfg1.N) (d) : (dat1 V q c).before 3 t d = iblk1 V c 3 t :=
  before1_3_of V (dat1 V q c) (A_eq1 V q c 3) (after1_3 V q c) t d
theorem before1_4 (c : Dev nD) (t : Fin cfg1.N) (d) : (dat1 V q c).before 4 t d = iblk1 V c 4 t :=
  before1_4_of V (dat1 V q c) (A_eq1 V q c 4) (after1_4 V q c) t d
theorem before1_5 (c : Dev nD) (t : Fin cfg1.N) (d) : (dat1 V q c).before 5 t d = iblk1 V c 5 t :=
  before1_5_of V (dat1 V q c) (A_eq1 V q c 5) (after1_5 V q c) t d

/-- What the body is called with at point `t`, window by window, -/
def bodyPre1 (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d))
    ∗ (∃ d, owns (c : Thread nD τ) (st1_3 t) fullShare ((dat1 V q c).before 3 t d))
    ∗ (∃ d, owns (c : Thread nD τ) (st1_4 t) fullShare ((dat1 V q c).before 4 t d))
    ∗ (∃ d, owns (c : Thread nD τ) (st1_5 t) fullShare ((dat1 V q c).before 5 t d))
    ∗ (∃ d, owns (c : Thread nD τ) (st1_6 t) fullShare ((dat1 V q c).before 6 t d)))

/-- and what it returns. -/
def bodyPost1 (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t)
    ∗ owns (c : Thread nD τ) (st1_3 t) fullShare ((dat1 V q c).after 3 t)
    ∗ owns (c : Thread nD τ) (st1_4 t) fullShare ((dat1 V q c).after 4 t)
    ∗ owns (c : Thread nD τ) (st1_5 t) fullShare ((dat1 V q c).after 5 t)
    ∗ owns (c : Thread nD τ) (st1_6 t) fullShare ((dat1 V q c).after 6 t))

/-- The body at any point: the inputs' buffers hold their blocks, so the body's triple applies; the invariant and what the
    core owes pass through unread. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2, before1_3, before1_4, before1_5]
  rw [show (dat1 V q c).Φ t.succ = (dat1 V q c).Φ t.castSucc from rfl,
    show (dat1 V q c).owesAt () t.succ = (dat1 V q c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point. -/
theorem body_obligation1 (c : Dev nD) : BodyObligation (dat1 (F := F) V q c) (defs₀ (F := F)) Variants.none () Set.univ := fun t => by
  rw [bigSep_W1, bigSep_W1]
  exact sound_body1 V q c t

end Cert.Kernel.Reg1

end
-- ==== Proof.BitsReg2.lean ====
/-
  The third region: the perceptron of layer 2 fused with the final linear layer over the three layers' results, one block of
  2000 rows at a grid point. The body loads twelve whole blocks — the second layer's result (through two windows: as the
  perceptron's input and as the middle operand of the final layer), its edge aggregation, the first layer's result, this
  layer's weights and one-row biases, the three 128-row blocks of the final weight matrix and the final one-row bias —, and
  stores one whole block. Stated for any contents of the arrays, any float instance and any shares of the arrays.
-/
import proofs.«113067_j58007828300389_2_alg».proof.Proof.Gen.Kernel.Launch
import proofs.«113067_j58007828300389_2_alg».proof.Proof.Gen.Kernel.Skeleton
import proofs.«113067_j58007828300389_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the third perceptron fused with the three-block final linear layer, on one block of 2000 rows -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the point fetches it or not (an unfetched
    window's index has not moved since the fetch). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether the point fetches it or not (an unfetched
    window's index has not moved since the fetch). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether the point fetches it or not (an unfetched
    window's index has not moved since the fetch). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, whether the point fetches it or not (an unfetched
    window's index has not moved since the fetch). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, whether the point fetches it or not (an unfetched
    window's index has not moved since the fetch). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block at every point, whether the point fetches it or not (an unfetched
    window's index has not moved since the fetch). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's staging buffer holds its block at every point, whether the point fetches it or not (an unfetched
    window's index has not moved since the fetch). -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's staging buffer holds its block at every point, whether the point fetches it or not (an unfetched
    window's index has not moved since the fetch). -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's staging buffer holds its block at every point, whether the point fetches it or not (an unfetched
    window's index has not moved since the fetch). -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Input window 9's staging buffer holds its block at every point, whether the point fetches it or not (an unfetched
    window's index has not moved since the fetch). -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-- Input window 10's staging buffer holds its block at every point, whether the point fetches it or not (an unfetched
    window's index has not moved since the fetch). -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

/-- Input window 11's staging buffer holds its block at every point, whether the point fetches it or not (an unfetched
    window's index has not moved since the fetch). -/
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

/-- The whole of each staging buffer: the rectangles the body loads and stores through. -/
abbrev r2000x128_2 : Rect S2000x128 := Rect.unit (s := S2000x128) ![0, 0] S2000x128.size inb_S2000x128_S2000x128_0_0
abbrev r128x128_2 : Rect S128x128 := Rect.unit (s := S128x128) ![0, 0] S128x128.size inb_S128x128_S128x128_0_0
abbrev r1x128_2 : Rect S1x128 := Rect.unit (s := S1x128) ![0, 0] S1x128.size inb_S1x128_S1x128_0_0

/-- What the body leaves in the output window's buffer: its one store, as a function of the loaded input blocks. -/
def out2 (x0 : Vec F S2000x128 .f32) (x1 : Vec F S2000x128 .f32) (x2 : Vec F S2000x128 .f32) (x3 : Vec F S2000x128 .f32) (x4 : Vec F S128x128 .f32) (x5 : Vec F S1x128 .f32) (x6 : Vec F S128x128 .f32) (x7 : Vec F S1x128 .f32) (x8 : Vec F S128x128 .f32) (x9 : Vec F S128x128 .f32) (x10 : Vec F S128x128 .f32) (x11 : Vec F S1x128 .f32) : Vec F S2000x128 .f32 :=
  View.canon [⟨r2000x128_2, k2_pay1 (k2_pay2 (View.ld x2 r2000x128_2)) (k2_pay3 (View.ld x3 r2000x128_2)) (k2_pay4 (View.ld x0 r2000x128_2) (View.ld x1 r2000x128_2) (View.ld x4 r128x128_2) (View.ld x5 r1x128_2) (View.ld x6 r128x128_2) (View.ld x7 r1x128_2)) (k2_pay5 (View.ld x8 r128x128_2)) (View.ld x9 r128x128_2) (View.ld x10 r128x128_2) (View.ld x11 r1x128_2)⟩]

/-- The one store covers the whole buffer. -/
theorem cover2 (p0 : Vec F S2000x128 .f32) (y : S2000x128.Idx) :
    ∃ pc ∈ ([⟨r2000x128_2, p0⟩] : List (View.Piece (Elt F) S2000x128 .f32)), y ∈ pc.1.set :=
  View.cover_of_tiled [⟨r2000x128_2, p0⟩] S2000x128.size (by rfl) y

set_option maxHeartbeats 4000000 in
/-- The body on whole staging buffers, the inputs at known contents and the output at anything, runs to its return with the
    inputs as they were and the output at `out2` of them. -/
theorem sound_kernel2 (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S2000x128 .f32) (harg13 : arg13.IsWhole)
    (x0 : Vec F S2000x128 .f32) (x1 : Vec F S2000x128 .f32) (x2 : Vec F S2000x128 .f32) (x3 : Vec F S2000x128 .f32) (x4 : Vec F S128x128 .f32) (x5 : Vec F S1x128 .f32) (x6 : Vec F S128x128 .f32) (x7 : Vec F S1x128 .f32) (x8 : Vec F S128x128 .f32) (x9 : Vec F S128x128 .f32) (x10 : Vec F S128x128 .f32) (x11 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out2 x0 x1 x2 x3 x4 x5 x6 x7 x8 x9 x10 x11)) -∗ K ⟨⟩))
      ⊢ wp frame (wpE (defs₀ (F := F)) Variants.none c none) E (cc2__mlp_jk_kernel i arg1 harg1 arg2 harg2 arg3 harg3 arg4 harg4 arg5 harg5 arg6 harg6 arg7 harg7 arg8 harg8 arg9 harg9 arg10 harg10 arg11 harg11 arg12 harg12 arg13 harg13) K := by
  simp only [cc2__mlp_jk_kernel_eq_skeleton]; unfold cc2__mlp_jk_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0; subst hf1; subst hf2; subst hf3; subst hf4; subst hf5; subst hf6; subst hf7; subst hf8; subst hf9; subst hf10; subst hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover2 _)

/-- The proof data of this region on core `c`: the arrays as the region finds them; after the body at point `t` each input's
    buffer still at its block and the output's at `out2` of the input blocks; nothing owed; each window's share of its
    array given by `q`. -/
def dat2 (q : Fin cfg2.W → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => out2 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t)
  Φ _ := Pipeline.ΦA spec2 c
  q := q
  owed _ := 0

variable (q : Fin cfg2.W → PosShare TreeShare)

theorem A_eq2 (c : Dev nD) (w : Fin cfg2.W) : (dat2 V q c).A w = V c (Pipeline.arrRef spec2 w) := by
  dsimp only [dat2]

theorem after2_0 (c : Dev nD) (t : Fin cfg2.N) : (dat2 V q c).after 0 t = iblk2 V c 0 t := by dsimp only [dat2]
theorem after2_1 (c : Dev nD) (t : Fin cfg2.N) : (dat2 V q c).after 1 t = iblk2 V c 1 t := by dsimp only [dat2]
theorem after2_2 (c : Dev nD) (t : Fin cfg2.N) : (dat2 V q c).after 2 t = iblk2 V c 2 t := by dsimp only [dat2]
theorem after2_3 (c : Dev nD) (t : Fin cfg2.N) : (dat2 V q c).after 3 t = iblk2 V c 3 t := by dsimp only [dat2]
theorem after2_4 (c : Dev nD) (t : Fin cfg2.N) : (dat2 V q c).after 4 t = iblk2 V c 4 t := by dsimp only [dat2]
theorem after2_5 (c : Dev nD) (t : Fin cfg2.N) : (dat2 V q c).after 5 t = iblk2 V c 5 t := by dsimp only [dat2]
theorem after2_6 (c : Dev nD) (t : Fin cfg2.N) : (dat2 V q c).after 6 t = iblk2 V c 6 t := by dsimp only [dat2]
theorem after2_7 (c : Dev nD) (t : Fin cfg2.N) : (dat2 V q c).after 7 t = iblk2 V c 7 t := by dsimp only [dat2]
theorem after2_8 (c : Dev nD) (t : Fin cfg2.N) : (dat2 V q c).after 8 t = iblk2 V c 8 t := by dsimp only [dat2]
theorem after2_9 (c : Dev nD) (t : Fin cfg2.N) : (dat2 V q c).after 9 t = iblk2 V c 9 t := by dsimp only [dat2]
theorem after2_10 (c : Dev nD) (t : Fin cfg2.N) : (dat2 V q c).after 10 t = iblk2 V c 10 t := by dsimp only [dat2]
theorem after2_11 (c : Dev nD) (t : Fin cfg2.N) : (dat2 V q c).after 11 t = iblk2 V c 11 t := by dsimp only [dat2]
theorem after2_12 (c : Dev nD) (t : Fin cfg2.N) : (dat2 V q c).after 12 t = out2 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) := by dsimp only [dat2]

theorem before2_0 (c : Dev nD) (t : Fin cfg2.N) (d) : (dat2 V q c).before 0 t d = iblk2 V c 0 t :=
  before2_0_of V (dat2 V q c) (A_eq2 V q c 0) (after2_0 V q c) t d
theorem before2_1 (c : Dev nD) (t : Fin cfg2.N) (d) : (dat2 V q c).before 1 t d = iblk2 V c 1 t :=
  before2_1_of V (dat2 V q c) (A_eq2 V q c 1) (after2_1 V q c) t d
theorem before2_2 (c : Dev nD) (t : Fin cfg2.N) (d) : (dat2 V q c).before 2 t d = iblk2 V c 2 t :=
  before2_2_of V (dat2 V q c) (A_eq2 V q c 2) (after2_2 V q c) t d
theorem before2_3 (c : Dev nD) (t : Fin cfg2.N) (d) : (dat2 V q c).before 3 t d = iblk2 V c 3 t :=
  before2_3_of V (dat2 V q c) (A_eq2 V q c 3) (after2_3 V q c) t d
theorem before2_4 (c : Dev nD) (t : Fin cfg2.N) (d) : (dat2 V q c).before 4 t d = iblk2 V c 4 t :=
  before2_4_of V (dat2 V q c) (A_eq2 V q c 4) (after2_4 V q c) t d
theorem before2_5 (c : Dev nD) (t : Fin cfg2.N) (d) : (dat2 V q c).before 5 t d = iblk2 V c 5 t :=
  before2_5_of V (dat2 V q c) (A_eq2 V q c 5) (after2_5 V q c) t d
theorem before2_6 (c : Dev nD) (t : Fin cfg2.N) (d) : (dat2 V q c).before 6 t d = iblk2 V c 6 t :=
  before2_6_of V (dat2 V q c) (A_eq2 V q c 6) (after2_6 V q c) t d
theorem before2_7 (c : Dev nD) (t : Fin cfg2.N) (d) : (dat2 V q c).before 7 t d = iblk2 V c 7 t :=
  before2_7_of V (dat2 V q c) (A_eq2 V q c 7) (after2_7 V q c) t d
theorem before2_8 (c : Dev nD) (t : Fin cfg2.N) (d) : (dat2 V q c).before 8 t d = iblk2 V c 8 t :=
  before2_8_of V (dat2 V q c) (A_eq2 V q c 8) (after2_8 V q c) t d
theorem before2_9 (c : Dev nD) (t : Fin cfg2.N) (d) : (dat2 V q c).before 9 t d = iblk2 V c 9 t :=
  before2_9_of V (dat2 V q c) (A_eq2 V q c 9) (after2_9 V q c) t d
theorem before2_10 (c : Dev nD) (t : Fin cfg2.N) (d) : (dat2 V q c).before 10 t d = iblk2 V c 10 t :=
  before2_10_of V (dat2 V q c) (A_eq2 V q c 10) (after2_10 V q c) t d
theorem before2_11 (c : Dev nD) (t : Fin cfg2.N) (d) : (dat2 V q c).before 11 t d = iblk2 V c 11 t :=
  before2_11_of V (dat2 V q c) (A_eq2 V q c 11) (after2_11 V q c) t d

/-- What the body is called with at point `t`, window by window, -/
def bodyPre2 (c : Dev nD) (t : Fin cfg2.N) : sProp 𝕄 :=
  iprop((dat2 V q c).Φ t.castSucc ∗ (dat2 V q c).owesAt () t.castSucc
    ∗ (∃ d, owns (c : Thread nD τ) (st2_0 t) fullShare ((dat2 V q c).before 0 t d))
    ∗ (∃ d, owns (c : Thread nD τ) (st2_1 t) fullShare ((dat2 V q c).before 1 t d))
    ∗ (∃ d, owns (c : Thread nD τ) (st2_2 t) fullShare ((dat2 V q c).before 2 t d))
    ∗ (∃ d, owns (c : Thread nD τ) (st2_3 t) fullShare ((dat2 V q c).before 3 t d))
    ∗ (∃ d, owns (c : Thread nD τ) (st2_4 t) fullShare ((dat2 V q c).before 4 t d))
    ∗ (∃ d, owns (c : Thread nD τ) (st2_5 t) fullShare ((dat2 V q c).before 5 t d))
    ∗ (∃ d, owns (c : Thread nD τ) (st2_6 t) fullShare ((dat2 V q c).before 6 t d))
    ∗ (∃ d, owns (c : Thread nD τ) (st2_7 t) fullShare ((dat2 V q c).before 7 t d))
    ∗ (∃ d, owns (c : Thread nD τ) (st2_8 t) fullShare ((dat2 V q c).before 8 t d))
    ∗ (∃ d, owns (c : Thread nD τ) (st2_9 t) fullShare ((dat2 V q c).before 9 t d))
    ∗ (∃ d, owns (c : Thread nD τ) (st2_10 t) fullShare ((dat2 V q c).before 10 t d))
    ∗ (∃ d, owns (c : Thread nD τ) (st2_11 t) fullShare ((dat2 V q c).before 11 t d))
    ∗ (∃ d, owns (c : Thread nD τ) (st2_12 t) fullShare ((dat2 V q c).before 12 t d)))

/-- and what it returns. -/
def bodyPost2 (c : Dev nD) (t : Fin cfg2.N) : sProp 𝕄 :=
  iprop((dat2 V q c).Φ t.succ ∗ (dat2 V q c).owesAt () t.succ
    ∗ owns (c : Thread nD τ) (st2_0 t) fullShare ((dat2 V q c).after 0 t)
    ∗ owns (c : Thread nD τ) (st2_1 t) fullShare ((dat2 V q c).after 1 t)
    ∗ owns (c : Thread nD τ) (st2_2 t) fullShare ((dat2 V q c).after 2 t)
    ∗ owns (c : Thread nD τ) (st2_3 t) fullShare ((dat2 V q c).after 3 t)
    ∗ owns (c : Thread nD τ) (st2_4 t) fullShare ((dat2 V q c).after 4 t)
    ∗ owns (c : Thread nD τ) (st2_5 t) fullShare ((dat2 V q c).after 5 t)
    ∗ owns (c : Thread nD τ) (st2_6 t) fullShare ((dat2 V q c).after 6 t)
    ∗ owns (c : Thread nD τ) (st2_7 t) fullShare ((dat2 V q c).after 7 t)
    ∗ owns (c : Thread nD τ) (st2_8 t) fullShare ((dat2 V q c).after 8 t)
    ∗ owns (c : Thread nD τ) (st2_9 t) fullShare ((dat2 V q c).after 9 t)
    ∗ owns (c : Thread nD τ) (st2_10 t) fullShare ((dat2 V q c).after 10 t)
    ∗ owns (c : Thread nD τ) (st2_11 t) fullShare ((dat2 V q c).after 11 t)
    ∗ owns (c : Thread nD τ) (st2_12 t) fullShare ((dat2 V q c).after 12 t))

/-- The body at any point: the inputs' buffers hold their blocks, so the body's triple applies; the invariant and what the
    core owes pass through unread. -/
theorem sound_body2 (c : Dev nD) (t : Fin cfg2.N) :
    bodyPre2 V q c t ⊢ wp frame (wpE (defs₀ (F := F)) Variants.none c none) Set.univ (bodyAt2 t) (fun _ => bodyPost2 V q c t) := by
  unfold bodyPre2 bodyPost2 bodyAt2
  simp only [before2_0, before2_1, before2_2, before2_3, before2_4, before2_5, before2_6, before2_7, before2_8, before2_9, before2_10, before2_11]
  rw [show (dat2 V q c).Φ t.succ = (dat2 V q c).Φ t.castSucc from rfl,
    show (dat2 V q c).owesAt () t.succ = (dat2 V q c).owesAt () t.castSucc from rfl,
    after2_0, after2_1, after2_2, after2_3, after2_4, after2_5, after2_6, after2_7, after2_8, after2_9, after2_10, after2_11, after2_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel2 c Set.univ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body obligation at every point. -/
theorem body_obligation2 (c : Dev nD) : BodyObligation (dat2 (F := F) V q c) (defs₀ (F := F)) Variants.none () Set.univ := fun t => by
  rw [bigSep_W2, bigSep_W2]
  exact sound_body2 V q c t

end Cert.Kernel.Reg2

end
-- ==== Proof.BitsSegs.lean ====
/-
  The three regions as segments of the program's main function, between the host stretches.

  The contents of every buffer between two items are a fold from the launch memory: a host stretch applies its operations,
  a region replaces its result buffer by what the write-backs of all its grid points leave. Each region is entered from the
  contents before it and left at the contents after it; its windows' arrays are taken out of the core's buffers at entry and
  put back at exit. In the first two regions every window has an array of its own. In the third, two windows read one array:
  that buffer goes in as two halves of its full share, one per window, and the halves are joined again at exit — both
  windows only read it, so both halves come back at the contents they went in with.
-/
import proofs.«113067_j58007828300389_2_alg».proof.Proof.BitsReg0
import proofs.«113067_j58007828300389_2_alg».proof.Proof.BitsReg1
import proofs.«113067_j58007828300389_2_alg».proof.Proof.BitsReg2
import proofs.«113067_j58007828300389_2_alg».proof.Proof.Gen.Kernel.Regions

set_option maxRecDepth 16384

noncomputable section

namespace Cert.Kernel.Whole

open Cert.Kernel Cert.Kernel.Gen Cert.Kernel.Reg0 Cert.Kernel.Reg1 Cert.Kernel.Reg2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each region leaves, stage by stage

The three regions write three different buffers, and each later region's entry contents depend on what the earlier ones
left. So the contents the regions leave are named in order: the first layer's result from the launch contents, the
second layer's from the contents that hold the first, the final result from the contents that hold both. -/

/-- In the two perceptron regions every window holds its array whole. -/
abbrev q0 : Fin cfg0.W → PosShare TreeShare := fun _ => fullShare
abbrev q1 : Fin cfg1.W → PosShare TreeShare := fun _ => fullShare
/-- In the last region windows 0 and 3 read one array (the second layer's result, once as the perceptron's input and
    once as the middle block of the final linear layer): each holds one half of it. -/
def q2 : Fin cfg2.W → PosShare TreeShare := fun w => if w = 0 then fullShare.left else if w = 3 then fullShare.right else fullShare

/-- Region 0's entry contents, at the TensorCore's references. -/
abbrev ent0 (c : Dev nD) (b : Ref sig .tc) : Buf (Elt F) ((c : Thread nD τ).loc b) := V3 m c b
/-- What region 0 leaves in its result buffer: the write-backs of all its points. -/
def o4 (c : Dev nD) : Buf (Elt F) ((c : Thread nD τ).loc main_v18) := (dat0 (ent0 m) q0 c).arrAt 6 cfg0.N
def outsA : Outs (F := F) := fun _ r c => if h : r = main_v18 then h ▸ o4 m c else V3 m c r

/-- Region 1's entry contents. -/
abbrev ent1 (c : Dev nD) (b : Ref sig .tc) : Buf (Elt F) ((c : Thread nD τ).loc b) := V7 m (outsA m) c b
def o8 (c : Dev nD) : Buf (Elt F) ((c : Thread nD τ).loc main_v33) := (dat1 (ent1 m) q1 c).arrAt 6 cfg1.N
def outsB : Outs (F := F) := fun _ r c =>
  if h : r = main_v18 then h ▸ o4 m c else if h : r = main_v33 then h ▸ o8 m c else V3 m c r

/-- Region 2's entry contents. -/
abbrev ent2 (c : Dev nD) (b : Ref sig .tc) : Buf (Elt F) ((c : Thread nD τ).loc b) := V11 m (outsB m) c b
def o12 (c : Dev nD) : Buf (Elt F) ((c : Thread nD τ).loc main_v52) := (dat2 (ent2 m) q2 c).arrAt 12 cfg2.N
/-- What the three regions leave, as one table. -/
def outs : Outs (F := F) := fun _ r c =>
  if h : r = main_v18 then h ▸ o4 m c else if h : r = main_v33 then h ▸ o8 m c
  else if h : r = main_v52 then h ▸ o12 m c else V3 m c r

theorem outsA_v18 (J : ℕ) (c : Dev nD) : outsA m J main_v18 c = o4 m c := by unfold outsA; rw [dif_pos rfl]
theorem outsB_v18 (J : ℕ) (c : Dev nD) : outsB m J main_v18 c = o4 m c := by unfold outsB; rw [dif_pos rfl]
theorem outsB_v33 (J : ℕ) (c : Dev nD) : outsB m J main_v33 c = o8 m c := by
  unfold outsB; rw [dif_neg (by decide), dif_pos rfl]
theorem outs_v18 (J : ℕ) (c : Dev nD) : outs m J main_v18 c = o4 m c := by unfold outs; rw [dif_pos rfl]
theorem outs_v33 (J : ℕ) (c : Dev nD) : outs m J main_v33 c = o8 m c := by
  unfold outs; rw [dif_neg (by decide), dif_pos rfl]
theorem outs_v52 (J : ℕ) (c : Dev nD) : outs m J main_v52 c = o12 m c := by
  unfold outs; rw [dif_neg (by decide), dif_neg (by decide), dif_pos rfl]

/-- The contents between items do not depend on which of the tables is read, as far as each has been filled. -/
theorem V4_outs (c : Dev nD) : V4 m (outs m) c = V4 m (outsA m) c := by
  unfold V4; rw [outs_v18, outsA_v18]
theorem V7_outs (c : Dev nD) : V7 m (outs m) c = V7 m (outsA m) c := by
  unfold V7 V6 V5; rw [V4_outs]
theorem V4_outsB (c : Dev nD) : V4 m (outsB m) c = V4 m (outsA m) c := by
  unfold V4; rw [outsB_v18, outsA_v18]
theorem V7_outsB (c : Dev nD) : V7 m (outsB m) c = V7 m (outsA m) c := by
  unfold V7 V6 V5; rw [V4_outsB]
theorem V8_outs (c : Dev nD) : V8 m (outs m) c = V8 m (outsB m) c := by
  unfold V8; rw [V7_outs, V7_outsB, outs_v33, outsB_v33]
theorem V11_outs (c : Dev nD) : V11 m (outs m) c = V11 m (outsB m) c := by
  unfold V11 V10 V9; rw [V8_outs]

/-! ## The proof data family and what rides beside the buffers -/

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (ent0 m) q0 c
  | ⟨1, _⟩ => fun c => dat1 (ent1 m) q1 c
  | ⟨2, _⟩ => fun c => dat2 (ent2 m) q2 c

abbrev 𝒱n : Variants := Variants.none
/-- No core owes another anything: no level is assigned. -/
abbrev Ln : GSem nD τ sig → Finset Unit := fun _ => ∅
abbrev lvn : GSem nD τ sig → Unit → ℕ := fun _ _ => 0
/-- What rides beside the buffers through every item: the core's generator register at some state and the core owing
    nothing. -/
abbrev Ride (c : Dev nD) : sProp 𝕄 :=
  iprop((∃ r, prngReg c r) ∗ ∃ W, owes (c : Thread nD τ) (0 : CellTallies nD τ sig Unit) W)

/-! ## Regions 0 and 1: every window on an array of its own -/

/-- At region 0's exit each of its arrays holds what the write-backs leave: the inputs as entered, the result buffer the
    named contents. -/
theorem hF0 (c : Dev nD) (w : Fin cfg0.W) :
    (dat0 (ent0 m) q0 c).arrAt w cfg0.N = V4 m (outs m) c (Pipeline.arrRef spec0 w) := by
  match w with
  | ⟨0, _⟩ => exact ((dat0 (ent0 m) q0 c).arrAt_in 0 rfl _).trans ((A_eq0 (ent0 m) q0 c 0).trans (V4_of m (outs m) c _ (by decide)).symm)
  | ⟨1, _⟩ => exact ((dat0 (ent0 m) q0 c).arrAt_in 1 rfl _).trans ((A_eq0 (ent0 m) q0 c 1).trans (V4_of m (outs m) c _ (by decide)).symm)
  | ⟨2, _⟩ => exact ((dat0 (ent0 m) q0 c).arrAt_in 2 rfl _).trans ((A_eq0 (ent0 m) q0 c 2).trans (V4_of m (outs m) c _ (by decide)).symm)
  | ⟨3, _⟩ => exact ((dat0 (ent0 m) q0 c).arrAt_in 3 rfl _).trans ((A_eq0 (ent0 m) q0 c 3).trans (V4_of m (outs m) c _ (by decide)).symm)
  | ⟨4, _⟩ => exact ((dat0 (ent0 m) q0 c).arrAt_in 4 rfl _).trans ((A_eq0 (ent0 m) q0 c 4).trans (V4_of m (outs m) c _ (by decide)).symm)
  | ⟨5, _⟩ => exact ((dat0 (ent0 m) q0 c).arrAt_in 5 rfl _).trans ((A_eq0 (ent0 m) q0 c 5).trans (V4_of m (outs m) c _ (by decide)).symm)
  | ⟨6, _⟩ =>
    rw [show V4 m (outs m) c (Pipeline.arrRef spec0 6) = outs m 4 main_v18 c from Function.update_self ..]
    rw [outs_v18]; rfl
theorem hrest0 (c : Dev nD) (b : Ref sig .tc) (hb : b ∉ Finset.univ.image (Pipeline.arrRef spec0)) :
    V4 m (outs m) c b = V3 m c b :=
  V4_of m (outs m) c b fun h => hb (by
    rw [List.mem_singleton] at h; subst h
    exact Finset.mem_image.mpr ⟨6, Finset.mem_univ _, rfl⟩)

set_option backward.isDefEq.respectTransparency.types false in
/-- Region 0 over the thread state: entered from every unscoped buffer at the contents before it, left at the contents
    after it. Its arrays are split out of the unscoped buffers and put back at the exit contents; the generator register
    goes into the invariant and comes out; nothing is owed; the kernel has no semaphore of its own. -/
def reg0 : Pipeline.RegionSeg (pcfgs (F := F)) adm (pdats m) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (ent0 m) q0 c).loose
  hwaits := Pipeline.hwaits_of_owed_zero _ _ _ _ Ln lvn 0 fun _ _ => rfl
  pre c := iprop(StableHlo.held (c : Thread nD τ) (Pipeline.ucRefs τ sig) (V3 m c) ∗ Ride c)
  post c := iprop(StableHlo.held (c : Thread nD τ) (Pipeline.ucRefs τ sig) (V4 m (outs m) c) ∗ Ride c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (ent0 m c) (fun b => V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Off region 1's result buffer, the contents after it are its entry contents. -/
theorem V8_ent1 (c : Dev nD) (r : Ref sig .tc) (h : r ∉ ([main_v33] : List (Ref sig .tc))) : V8 m (outs m) c r = ent1 m c r :=
  (V8_of m (outs m) c r h).trans (congrFun (V7_outs m c) _)

set_option maxHeartbeats 4000000 in
theorem hF1 (c : Dev nD) (w : Fin cfg1.W) :
    (dat1 (ent1 m) q1 c).arrAt w cfg1.N = V8 m (outs m) c (Pipeline.arrRef spec1 w) := by
  match w with
  | ⟨0, _⟩ => exact ((dat1 (ent1 m) q1 c).arrAt_in 0 rfl _).trans ((A_eq1 (ent1 m) q1 c 0).trans (V8_ent1 m c _ (by decide)).symm)
  | ⟨1, _⟩ => exact ((dat1 (ent1 m) q1 c).arrAt_in 1 rfl _).trans ((A_eq1 (ent1 m) q1 c 1).trans (V8_ent1 m c _ (by decide)).symm)
  | ⟨2, _⟩ => exact ((dat1 (ent1 m) q1 c).arrAt_in 2 rfl _).trans ((A_eq1 (ent1 m) q1 c 2).trans (V8_ent1 m c _ (by decide)).symm)
  | ⟨3, _⟩ => exact ((dat1 (ent1 m) q1 c).arrAt_in 3 rfl _).trans ((A_eq1 (ent1 m) q1 c 3).trans (V8_ent1 m c _ (by decide)).symm)
  | ⟨4, _⟩ => exact ((dat1 (ent1 m) q1 c).arrAt_in 4 rfl _).trans ((A_eq1 (ent1 m) q1 c 4).trans (V8_ent1 m c _ (by decide)).symm)
  | ⟨5, _⟩ => exact ((dat1 (ent1 m) q1 c).arrAt_in 5 rfl _).trans ((A_eq1 (ent1 m) q1 c 5).trans (V8_ent1 m c _ (by decide)).symm)
  | ⟨6, _⟩ =>
    rw [show V8 m (outs m) c (Pipeline.arrRef spec1 6) = outs m 8 main_v33 c from Function.update_self ..]
    rw [outs_v33]; rfl
theorem hrest1 (c : Dev nD) (b : Ref sig .tc) (hb : b ∉ Finset.univ.image (Pipeline.arrRef spec1)) :
    V8 m (outs m) c b = ent1 m c b :=
  V8_ent1 m c b fun h => hb (by
    rw [List.mem_singleton] at h; subst h
    exact Finset.mem_image.mpr ⟨6, Finset.mem_univ _, rfl⟩)

set_option backward.isDefEq.respectTransparency.types false in
/-- Region 1 over the thread state, as region 0. -/
def reg1 : Pipeline.RegionSeg (pcfgs (F := F)) adm (pdats m) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (ent1 m) q1 c).loose
  hwaits := Pipeline.hwaits_of_owed_zero _ _ _ _ Ln lvn 1 fun _ _ => rfl
  pre c := iprop(StableHlo.held (c : Thread nD τ) (Pipeline.ucRefs τ sig) (V7 m (outsA m) c) ∗ Ride c)
  post c := iprop(StableHlo.held (c : Thread nD τ) (Pipeline.ucRefs τ sig) (V8 m (outs m) c) ∗ Ride c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (ent1 m c) (fun b => V8 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2: two windows on one array -/

/-- The share each window of region 2 holds its array at: the two windows on the second layer's result a half each, every
    other window (the result's included) the whole. -/
theorem share2 (c : Dev nD) (w : Fin cfg2.W) : (dat2 (ent2 m) q2 c).share w = q2 w := by
  unfold Pipeline.Dat.share
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl

/-- Region 2's windowed arrays, each a whole buffer held at its window's share. -/
theorem arrays2_eq (c : Dev nD) (Fa : (w : Fin cfg2.W) → Buf (Elt F) ((cfg2.win w).arr.view.loc (c : Thread nD τ))) :
    (dat2 (ent2 m) q2 c).arrays Fa = bigSep Finset.univ fun w : Fin cfg2.W =>
      ((((c : Thread nD τ).loc (Pipeline.arrRef spec2 w)) ↦{q2 w} Fa w : sProp 𝕄)) := by
  unfold Pipeline.Dat.arrays
  exact bigSep_congr fun w _ => by rw [(arr_whole2 w).set_eq_univ, share2]

/-- The twelve buffers behind region 2's thirteen windows. -/
theorem arrRefs2 : Finset.univ.image (Pipeline.arrRef spec2) = ({main_v33, main_v45, main_v18, main_arg11, main_v49, main_arg13, main_v50, main_v46, main_v47, main_v48, main_v51, main_v52} : Finset (Ref sig .tc)) := by decide

/-- A product over those twelve buffers, written out. -/
theorem bigSep_refs2 {M : Type} [URA M] (Φ : Ref sig .tc → sProp M) :
    bigSep ({main_v33, main_v45, main_v18, main_arg11, main_v49, main_arg13, main_v50, main_v46, main_v47, main_v48, main_v51, main_v52} : Finset (Ref sig .tc)) Φ = iprop(Φ main_v33 ∗ Φ main_v45 ∗ Φ main_v18 ∗ Φ main_arg11 ∗ Φ main_v49 ∗ Φ main_arg13 ∗ Φ main_v50 ∗ Φ main_v46 ∗ Φ main_v47 ∗ Φ main_v48 ∗ Φ main_v51 ∗ Φ main_v52) := by
  rw [bigSep_insert (by decide : main_v33 ∉ ({main_v45, main_v18, main_arg11, main_v49, main_arg13, main_v50, main_v46, main_v47, main_v48, main_v51, main_v52} : Finset (Ref sig .tc))),
    bigSep_insert (by decide : main_v45 ∉ ({main_v18, main_arg11, main_v49, main_arg13, main_v50, main_v46, main_v47, main_v48, main_v51, main_v52} : Finset (Ref sig .tc))),
    bigSep_insert (by decide : main_v18 ∉ ({main_arg11, main_v49, main_arg13, main_v50, main_v46, main_v47, main_v48, main_v51, main_v52} : Finset (Ref sig .tc))),
    bigSep_insert (by decide : main_arg11 ∉ ({main_v49, main_arg13, main_v50, main_v46, main_v47, main_v48, main_v51, main_v52} : Finset (Ref sig .tc))),
    bigSep_insert (by decide : main_v49 ∉ ({main_arg13, main_v50, main_v46, main_v47, main_v48, main_v51, main_v52} : Finset (Ref sig .tc))),
    bigSep_insert (by decide : main_arg13 ∉ ({main_v50, main_v46, main_v47, main_v48, main_v51, main_v52} : Finset (Ref sig .tc))),
    bigSep_insert (by decide : main_v50 ∉ ({main_v46, main_v47, main_v48, main_v51, main_v52} : Finset (Ref sig .tc))),
    bigSep_insert (by decide : main_v46 ∉ ({main_v47, main_v48, main_v51, main_v52} : Finset (Ref sig .tc))),
    bigSep_insert (by decide : main_v47 ∉ ({main_v48, main_v51, main_v52} : Finset (Ref sig .tc))),
    bigSep_insert (by decide : main_v48 ∉ ({main_v51, main_v52} : Finset (Ref sig .tc))),
    bigSep_insert (by decide : main_v51 ∉ ({main_v52} : Finset (Ref sig .tc))),
    bigSep_singleton]
  rfl

/-- Twelve resources against thirteen: when the first of the twelve is worth the first and the fourth of the thirteen
    together and every other one is its counterpart, the two products are worth the same. -/
theorem refs_windows {M : Type} [URA M] (Φ : Ref sig .tc → sProp M) (Ψ : Fin 13 → sProp M)
    (h0 : Φ main_v33 ⊣⊢ iprop(Ψ 0 ∗ Ψ 3))
    (h1 : Φ main_v45 = Ψ 1) (h2 : Φ main_v18 = Ψ 2) (h4 : Φ main_arg11 = Ψ 4) (h5 : Φ main_v49 = Ψ 5) (h6 : Φ main_arg13 = Ψ 6) (h7 : Φ main_v50 = Ψ 7) (h8 : Φ main_v46 = Ψ 8) (h9 : Φ main_v47 = Ψ 9) (h10 : Φ main_v48 = Ψ 10) (h11 : Φ main_v51 = Ψ 11) (h12 : Φ main_v52 = Ψ 12) :
    bigSep ({main_v33, main_v45, main_v18, main_arg11, main_v49, main_arg13, main_v50, main_v46, main_v47, main_v48, main_v51, main_v52} : Finset (Ref sig .tc)) Φ ⊣⊢ bigSep Finset.univ Ψ := by
  rw [bigSep_refs2, bigSep_W2, h1, h2, h4, h5, h6, h7, h8, h9, h10, h11, h12]
  refine ⟨?_, ?_⟩
  · iintro ⟨H0, H1, H2, H4, H5, H6, H7, H8, H9, H10, H11, H12⟩
    ihave Hs := h0.mp $$ H0
    icases Hs with ⟨Hl, Hr⟩
    isplitl [Hl]; · iexact Hl
    isplitl [H1]; · iexact H1
    isplitl [H2]; · iexact H2
    isplitl [Hr]; · iexact Hr
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iintro ⟨Hl, H1, H2, Hr, H4, H5, H6, H7, H8, H9, H10, H11, H12⟩
    isplitl [Hl Hr]
    · iapply h0.mpr; isplitl [Hl]; · iexact Hl
      iexact Hr
    isplitl [H1]; · iexact H1
    isplitl [H2]; · iexact H2
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

set_option maxHeartbeats 4000000 in
/-- The buffers behind region 2's arrays, each whole at the full share, ARE its windowed arrays at the same contents: the
    buffer two windows read is split into its two halves (and joined again, read the other way). -/
theorem arrays2_split (c : Dev nD) (V : (b : Ref sig .tc) → Buf (Elt F) ((c : Thread nD τ).loc b))
    (Fa : (w : Fin cfg2.W) → Buf (Elt F) ((cfg2.win w).arr.view.loc (c : Thread nD τ))) (hFa : ∀ w, Fa w = V (Pipeline.arrRef spec2 w)) :
    (Pipeline.arrBufs spec2 c V : sProp 𝕄) ⊣⊢ (dat2 (ent2 m) q2 c).arrays Fa := by
  rw [arrays2_eq]; unfold Pipeline.arrBufs; rw [arrRefs2]
  have h0 : ((((c : Thread nD τ).loc main_v33) ↦{fullShare} V main_v33 : sProp 𝕄))
      ⊣⊢ iprop((((c : Thread nD τ).loc (Pipeline.arrRef spec2 0)) ↦{q2 0} Fa 0) ∗ (((c : Thread nD τ).loc (Pipeline.arrRef spec2 3)) ↦{q2 3} Fa 3)) := by
    rw [hFa 0, hFa 3]
    exact pointsTo_share (PosShare.mem_left_op_right fullShare)
  have h1 : ((((c : Thread nD τ).loc main_v45) ↦{fullShare} V main_v45 : sProp 𝕄))
      = (((c : Thread nD τ).loc (Pipeline.arrRef spec2 1)) ↦{q2 1} Fa 1) := by rw [hFa 1]; rfl
  have h2 : ((((c : Thread nD τ).loc main_v18) ↦{fullShare} V main_v18 : sProp 𝕄))
      = (((c : Thread nD τ).loc (Pipeline.arrRef spec2 2)) ↦{q2 2} Fa 2) := by rw [hFa 2]; rfl
  have h4 : ((((c : Thread nD τ).loc main_arg11) ↦{fullShare} V main_arg11 : sProp 𝕄))
      = (((c : Thread nD τ).loc (Pipeline.arrRef spec2 4)) ↦{q2 4} Fa 4) := by rw [hFa 4]; rfl
  have h5 : ((((c : Thread nD τ).loc main_v49) ↦{fullShare} V main_v49 : sProp 𝕄))
      = (((c : Thread nD τ).loc (Pipeline.arrRef spec2 5)) ↦{q2 5} Fa 5) := by rw [hFa 5]; rfl
  have h6 : ((((c : Thread nD τ).loc main_arg13) ↦{fullShare} V main_arg13 : sProp 𝕄))
      = (((c : Thread nD τ).loc (Pipeline.arrRef spec2 6)) ↦{q2 6} Fa 6) := by rw [hFa 6]; rfl
  have h7 : ((((c : Thread nD τ).loc main_v50) ↦{fullShare} V main_v50 : sProp 𝕄))
      = (((c : Thread nD τ).loc (Pipeline.arrRef spec2 7)) ↦{q2 7} Fa 7) := by rw [hFa 7]; rfl
  have h8 : ((((c : Thread nD τ).loc main_v46) ↦{fullShare} V main_v46 : sProp 𝕄))
      = (((c : Thread nD τ).loc (Pipeline.arrRef spec2 8)) ↦{q2 8} Fa 8) := by rw [hFa 8]; rfl
  have h9 : ((((c : Thread nD τ).loc main_v47) ↦{fullShare} V main_v47 : sProp 𝕄))
      = (((c : Thread nD τ).loc (Pipeline.arrRef spec2 9)) ↦{q2 9} Fa 9) := by rw [hFa 9]; rfl
  have h10 : ((((c : Thread nD τ).loc main_v48) ↦{fullShare} V main_v48 : sProp 𝕄))
      = (((c : Thread nD τ).loc (Pipeline.arrRef spec2 10)) ↦{q2 10} Fa 10) := by rw [hFa 10]; rfl
  have h11 : ((((c : Thread nD τ).loc main_v51) ↦{fullShare} V main_v51 : sProp 𝕄))
      = (((c : Thread nD τ).loc (Pipeline.arrRef spec2 11)) ↦{q2 11} Fa 11) := by rw [hFa 11]; rfl
  have h12 : ((((c : Thread nD τ).loc main_v52) ↦{fullShare} V main_v52 : sProp 𝕄))
      = (((c : Thread nD τ).loc (Pipeline.arrRef spec2 12)) ↦{q2 12} Fa 12) := by rw [hFa 12]; rfl
  exact refs_windows (fun b => (((c : Thread nD τ).loc b) ↦{fullShare} V b : sProp 𝕄))
    (fun w : Fin 13 => ((((c : Thread nD τ).loc (Pipeline.arrRef spec2 w)) ↦{q2 w} Fa w : sProp 𝕄))) h0 h1 h2 h4 h5 h6 h7 h8 h9 h10 h11 h12

/-- Off region 2's result buffer the contents after it are its entry contents. -/
theorem V12_ent2 (c : Dev nD) (r : Ref sig .tc) (h : r ∉ ([main_v52] : List (Ref sig .tc))) : V12 m (outs m) c r = ent2 m c r :=
  (V12_of m (outs m) c r h).trans (congrFun (V11_outs m c) _)

set_option maxHeartbeats 8000000 in
/-- At region 2's exit each of its arrays holds what the write-backs leave: the twelve inputs as entered, the result buffer
    the named contents. -/
theorem hF2 (c : Dev nD) (w : Fin cfg2.W) :
    (dat2 (ent2 m) q2 c).arrAt w cfg2.N = V12 m (outs m) c (Pipeline.arrRef spec2 w) := by
  match w with
  | ⟨0, _⟩ => exact ((dat2 (ent2 m) q2 c).arrAt_in 0 rfl _).trans ((A_eq2 (ent2 m) q2 c 0).trans (V12_ent2 m c _ (by decide)).symm)
  | ⟨1, _⟩ => exact ((dat2 (ent2 m) q2 c).arrAt_in 1 rfl _).trans ((A_eq2 (ent2 m) q2 c 1).trans (V12_ent2 m c _ (by decide)).symm)
  | ⟨2, _⟩ => exact ((dat2 (ent2 m) q2 c).arrAt_in 2 rfl _).trans ((A_eq2 (ent2 m) q2 c 2).trans (V12_ent2 m c _ (by decide)).symm)
  | ⟨3, _⟩ => exact ((dat2 (ent2 m) q2 c).arrAt_in 3 rfl _).trans ((A_eq2 (ent2 m) q2 c 3).trans (V12_ent2 m c _ (by decide)).symm)
  | ⟨4, _⟩ => exact ((dat2 (ent2 m) q2 c).arrAt_in 4 rfl _).trans ((A_eq2 (ent2 m) q2 c 4).trans (V12_ent2 m c _ (by decide)).symm)
  | ⟨5, _⟩ => exact ((dat2 (ent2 m) q2 c).arrAt_in 5 rfl _).trans ((A_eq2 (ent2 m) q2 c 5).trans (V12_ent2 m c _ (by decide)).symm)
  | ⟨6, _⟩ => exact ((dat2 (ent2 m) q2 c).arrAt_in 6 rfl _).trans ((A_eq2 (ent2 m) q2 c 6).trans (V12_ent2 m c _ (by decide)).symm)
  | ⟨7, _⟩ => exact ((dat2 (ent2 m) q2 c).arrAt_in 7 rfl _).trans ((A_eq2 (ent2 m) q2 c 7).trans (V12_ent2 m c _ (by decide)).symm)
  | ⟨8, _⟩ => exact ((dat2 (ent2 m) q2 c).arrAt_in 8 rfl _).trans ((A_eq2 (ent2 m) q2 c 8).trans (V12_ent2 m c _ (by decide)).symm)
  | ⟨9, _⟩ => exact ((dat2 (ent2 m) q2 c).arrAt_in 9 rfl _).trans ((A_eq2 (ent2 m) q2 c 9).trans (V12_ent2 m c _ (by decide)).symm)
  | ⟨10, _⟩ => exact ((dat2 (ent2 m) q2 c).arrAt_in 10 rfl _).trans ((A_eq2 (ent2 m) q2 c 10).trans (V12_ent2 m c _ (by decide)).symm)
  | ⟨11, _⟩ => exact ((dat2 (ent2 m) q2 c).arrAt_in 11 rfl _).trans ((A_eq2 (ent2 m) q2 c 11).trans (V12_ent2 m c _ (by decide)).symm)
  | ⟨12, _⟩ =>
    rw [show V12 m (outs m) c (Pipeline.arrRef spec2 12) = outs m 12 main_v52 c from Function.update_self ..]
    rw [outs_v52]; rfl
theorem hrest2 (c : Dev nD) (b : Ref sig .tc) (hb : b ∉ Finset.univ.image (Pipeline.arrRef spec2)) :
    V12 m (outs m) c b = ent2 m c b :=
  V12_ent2 m c b fun h => hb (by
    rw [List.mem_singleton] at h; subst h
    exact Finset.mem_image.mpr ⟨12, Finset.mem_univ _, rfl⟩)

set_option maxHeartbeats 4000000 in
/-- Entry of region 2: the core's unscoped buffers at the entry contents are the region's windowed arrays (the shared buffer
    in two halves) and the rest. -/
theorem entry2 (c : Dev nD) : (unscopedBufs c (ent2 m c) : sProp 𝕄)
    ⊢ iprop((pdats m 2 c).arrays ((pdats m 2 c).arrAt · 0) ∗ Pipeline.unscopedRest spec2 c (ent2 m c)) := by
  show _ ⊢ iprop((dat2 (ent2 m) q2 c).arrays ((dat2 (ent2 m) q2 c).arrAt · 0) ∗ Pipeline.unscopedRest spec2 c (ent2 m c))
  rw [Pipeline.unscopedBufs_split₀ cfgs 2 winFacts₀2.arr_unscoped c (ent2 m c)]
  exact sep_mono (arrays2_split m c (ent2 m c) _ (fun _ => rfl)).mp .rfl

set_option maxHeartbeats 4000000 in
/-- Exit of region 2: the windowed arrays at their final contents (the two halves of the shared buffer joined) and the rest
    are the core's unscoped buffers at the contents after the region. -/
theorem exit2 (c : Dev nD) :
    iprop((pdats m 2 c).arrays ((pdats m 2 c).arrAt · cfg2.N) ∗ Pipeline.unscopedRest spec2 c (ent2 m c))
      ⊢ (unscopedBufs c (fun b => V12 m (outs m) c b) : sProp 𝕄) := by
  show iprop((dat2 (ent2 m) q2 c).arrays ((dat2 (ent2 m) q2 c).arrAt · cfg2.N) ∗ Pipeline.unscopedRest spec2 c (ent2 m c)) ⊢ _
  rw [Pipeline.unscopedBufs_split₀ cfgs 2 winFacts₀2.arr_unscoped c (fun b => V12 m (outs m) c b)]
  refine sep_mono (arrays2_split m c (fun b => V12 m (outs m) c b) _ (hF2 m c)).mpr (Entails.of_eq ?_)
  unfold Pipeline.unscopedRest
  exact bigSep_congr fun b hb =>
    congrArg (fun v => ((((c : Thread nD τ).loc b) ↦{fullShare} v : sProp 𝕄))) (hrest2 m c b (Finset.mem_sdiff.mp hb).2).symm

set_option maxHeartbeats 4000000 in
set_option backward.isDefEq.respectTransparency.types false in
/-- Region 2 over the thread state. As regions 0 and 1, except that the buffer two of its windows read goes in as two
    halves and comes back whole. -/
def reg2 : Pipeline.RegionSeg (pcfgs (F := F)) adm (pdats m) () defs₀ 𝒱n Ln lvn 2 where
  win := winFacts₀2
  block_pos := block_pos2
  stage_whole := stage_whole2
  K := PEmpty
  osem k := k.elim
  ho := Pipeline.OwnSemFacts.none _
  hbody c := (body_obligation2 (ent2 m) q2 c).loose
  hwaits := Pipeline.hwaits_of_owed_zero _ _ _ _ Ln lvn 2 fun _ _ => rfl
  pre c := iprop(StableHlo.held (c : Thread nD τ) (Pipeline.ucRefs τ sig) (V11 m (outsB m) c) ∗ Ride c)
  post c := iprop(StableHlo.held (c : Thread nD τ) (Pipeline.ucRefs τ sig) (V12 m (outs m) c) ∗ Ride c)
  X c := iprop(∃ r, prngReg c r)
  Y c := iprop(∃ r, prngReg c r)
  Z c := Pipeline.unscopedRest (Ix := Unit) (Name := ℕ) (U := UR sig nD τ) (Lvl := ℕ) spec2 c (ent2 m c)
  hentry c := by
    rw [Pipeline.ownSems0_none]
    have hsplit := entry2 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Whole

end
-- ==== Proof.BitsRun.lean ====
/-
  The run of the whole program at the word-level instance: from any memory with zero counters every weakly fair execution terminates without a
  fault, and every unscoped buffer ends at the contents the twelve items of the main function leave in order. Two readings
  of that: every argument array ends as launched (no item writes one), and the final result buffer holds what the third
  region's write-backs leave.
-/
import proofs.«113067_j58007828300389_2_alg».proof.Proof.BitsSegs

set_option maxRecDepth 16384

noncomputable section

namespace Cert.Kernel.Whole

open Cert.Kernel Cert.Kernel.Gen Cert.Kernel.Reg0 Cert.Kernel.Reg1 Cert.Kernel.Reg2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- @main's twelve items as segments: the nine host stretches over the contents between items, the three regions' records. -/
abbrev items (c : Dev nD) := segs m (outs m) 𝒱n Ln lvn (fun _ => Ride (F := F)) () (pdats m) (reg0 m) (reg1 m) (reg2 m) c

/-- After the last region: the generator register is set beside the buffers, and the core owes nothing. -/
theorem last_step (c : Dev nD) :
    iprop(StableHlo.held (c : Thread nD τ) (Pipeline.ucRefs τ sig) (V12 m (outs m) c) ∗ Ride c)
      ⊢ (iprop((StableHlo.held (c : Thread nD τ) (Pipeline.ucRefs τ sig) (V12 m (outs m) c) ∗ ∃ r, prngReg c r)
          ∗ ∃ W, owes (c : Thread nD τ) (0 : CellTallies nD τ sig Unit) W) : sProp 𝕄) := by
  iintro ⟨Hh, Hp, HO⟩
  isplitr [HO]
  · isplitl [Hh]
    · iexact Hh
    iexact Hp
  iexact HO

set_option backward.isDefEq.respectTransparency.types false in
/-- THE RUN. From any memory with zero counters every weakly fair execution of @main terminates, nothing faulting, and
    in every final memory each unscoped buffer of each core holds the contents the twelve items leave in order: the host
    stretches' operations applied to what they find, each region's result buffer at the write-backs of all its points. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V12 m (outs m) c b) :=
  Pipeline.θ_run_regions_kit_dev (pcfgs (F := F)) adm (pdats m) () cellOf_inj emb₁ defs₀ 𝒱n Ln lvn m ρ main
    (items m)
    (fun c Q => by
      rewrite [main_chain c, Pipeline.Seg.run_eq_chain,
        show (items m c).map Pipeline.Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          Prog.lift (.customCall (Pipeline.entry 2) ()) ] from rfl]
      exact .rfl)
    (fun c => by simp only [items, segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Ride c))
    (Tₙ := fun c => iprop(StableHlo.held (c : Thread nD τ) (Pipeline.ucRefs τ sig) (V12 m (outs m) c) ∗ ∃ r, prngReg c r))
    (hch := fun c => ⟨.rfl, .rfl, .rfl, .rfl, .rfl, .rfl, .rfl,
      (by show iprop(StableHlo.held (c : Thread nD τ) (Pipeline.ucRefs τ sig) (V7 m (outs m) c) ∗ Ride c) ⊢ iprop(StableHlo.held (c : Thread nD τ) (Pipeline.ucRefs τ sig) (V7 m (outsA m) c) ∗ Ride c)
          rw [V7_outs m c]), .rfl, .rfl, .rfl,
      (by show iprop(StableHlo.held (c : Thread nD τ) (Pipeline.ucRefs τ sig) (V11 m (outs m) c) ∗ Ride c) ⊢ iprop(StableHlo.held (c : Thread nD τ) (Pipeline.ucRefs τ sig) (V11 m (outsB m) c) ∗ Ride c)
          rw [V11_outs m c]),
      last_step m c⟩)
    (hinit := by
      refine Pipeline.initEach Ln lvn fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V12 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V12 m (outs m) c) s')
      isplitl [Hh] <;> iassumption)
    (hQ := fun s h => h)

/-- The frame: every argument array ends as launched (no item writes one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c _ (mem_uc main_arg0 (by decide))).trans (V12_main_arg0 m (outs m) c),
    (h c _ (mem_uc main_arg1 (by decide))).trans (V12_main_arg1 m (outs m) c),
    (h c _ (mem_uc main_arg2 (by decide))).trans (V12_main_arg2 m (outs m) c),
    (h c _ (mem_uc main_arg3 (by decide))).trans (V12_main_arg3 m (outs m) c),
    (h c _ (mem_uc main_arg4 (by decide))).trans (V12_main_arg4 m (outs m) c),
    (h c _ (mem_uc main_arg5 (by decide))).trans (V12_main_arg5 m (outs m) c),
    (h c _ (mem_uc main_arg6 (by decide))).trans (V12_main_arg6 m (outs m) c),
    (h c _ (mem_uc main_arg7 (by decide))).trans (V12_main_arg7 m (outs m) c),
    (h c _ (mem_uc main_arg8 (by decide))).trans (V12_main_arg8 m (outs m) c),
    (h c _ (mem_uc main_arg9 (by decide))).trans (V12_main_arg9 m (outs m) c),
    (h c _ (mem_uc main_arg10 (by decide))).trans (V12_main_arg10 m (outs m) c),
    (h c _ (mem_uc main_arg11 (by decide))).trans (V12_main_arg11 m (outs m) c),
    (h c _ (mem_uc main_arg12 (by decide))).trans (V12_main_arg12 m (outs m) c),
    (h c _ (mem_uc main_arg13 (by decide))).trans (V12_main_arg13 m (outs m) c),
    (h c _ (mem_uc main_arg14 (by decide))).trans (V12_main_arg14 m (outs m) c),
    (h c _ (mem_uc main_arg15 (by decide))).trans (V12_main_arg15 m (outs m) c),
    (h c _ (mem_uc main_arg16 (by decide))).trans (V12_main_arg16 m (outs m) c)⟩) (run_all m ρ)

/-- The run with the result named: the final result buffer holds what the last region's write-backs leave, and every
    argument array ends as launched. -/
theorem run_value : θ_run defs (onTc (τ := τ) (main (F := F))) ⟨m, fun _ => 0, ρ⟩ (fun r => ∀ c : Dev nD,
      r.2.mem ((c.tc : Thread nD τ).loc main_v52) = o12 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c _ (mem_uc main_v52 (by decide))).trans
      ((show V12 m (outs m) c main_v52 = outs m 12 main_v52 c from Function.update_self ..).trans (outs_v52 m 12 c)),
    (h c _ (mem_uc main_arg0 (by decide))).trans (V12_main_arg0 m (outs m) c),
    (h c _ (mem_uc main_arg1 (by decide))).trans (V12_main_arg1 m (outs m) c),
    (h c _ (mem_uc main_arg2 (by decide))).trans (V12_main_arg2 m (outs m) c),
    (h c _ (mem_uc main_arg3 (by decide))).trans (V12_main_arg3 m (outs m) c),
    (h c _ (mem_uc main_arg4 (by decide))).trans (V12_main_arg4 m (outs m) c),
    (h c _ (mem_uc main_arg5 (by decide))).trans (V12_main_arg5 m (outs m) c),
    (h c _ (mem_uc main_arg6 (by decide))).trans (V12_main_arg6 m (outs m) c),
    (h c _ (mem_uc main_arg7 (by decide))).trans (V12_main_arg7 m (outs m) c),
    (h c _ (mem_uc main_arg8 (by decide))).trans (V12_main_arg8 m (outs m) c),
    (h c _ (mem_uc main_arg9 (by decide))).trans (V12_main_arg9 m (outs m) c),
    (h c _ (mem_uc main_arg10 (by decide))).trans (V12_main_arg10 m (outs m) c),
    (h c _ (mem_uc main_arg11 (by decide))).trans (V12_main_arg11 m (outs m) c),
    (h c _ (mem_uc main_arg12 (by decide))).trans (V12_main_arg12 m (outs m) c),
    (h c _ (mem_uc main_arg13 (by decide))).trans (V12_main_arg13 m (outs m) c),
    (h c _ (mem_uc main_arg14 (by decide))).trans (V12_main_arg14 m (outs m) c),
    (h c _ (mem_uc main_arg15 (by decide))).trans (V12_main_arg15 m (outs m) c),
    (h c _ (mem_uc main_arg16 (by decide))).trans (V12_main_arg16 m (outs m) c)⟩) (run_all m ρ)

end Cert.Kernel.Whole

end
-- ==== Proof.IdealReg0.lean ====
/-
  The first region of the network's idealized program: the two-layer perceptron of layer 0, one block of 5000 rows at
  a grid point. The body loads six whole blocks — the node features, their edge aggregation, two 128 × 128 weight matrices,
  two one-row biases —, and stores one whole block: the perceptron of what it loaded. Stated for any contents of the arrays
  the region finds and any float instance: what each window's buffer holds before and after the body at every grid point,
  the body's triple, and the obligation the pipeline asks of the body at every point.
-/
import proofs.«113067_j58007828300389_2_alg».proof.Proof.Gen.KernelIdeal.Launch
import proofs.«113067_j58007828300389_2_alg».proof.Proof.Gen.KernelIdeal.Skeleton
import proofs.«113067_j58007828300389_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the two-layer perceptron on one block of 5000 rows (first layer) -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the point fetches it or not (an unfetched
    window's index has not moved since the fetch). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the point fetches it or not (an unfetched
    window's index has not moved since the fetch). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether the point fetches it or not (an unfetched
    window's index has not moved since the fetch). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whether the point fetches it or not (an unfetched
    window's index has not moved since the fetch). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, whether the point fetches it or not (an unfetched
    window's index has not moved since the fetch). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, whether the point fetches it or not (an unfetched
    window's index has not moved since the fetch). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The whole of each staging buffer: the rectangles the body loads and stores through. -/
abbrev r5000x128_0 : Rect S5000x128 := Rect.unit (s := S5000x128) ![0, 0] S5000x128.size inb_S5000x128_S5000x128_0_0
abbrev r128x128_0 : Rect S128x128 := Rect.unit (s := S128x128) ![0, 0] S128x128.size inb_S128x128_S128x128_0_0
abbrev r1x128_0 : Rect S1x128 := Rect.unit (s := S1x128) ![0, 0] S1x128.size inb_S1x128_S1x128_0_0

/-- What the body leaves in the output window's buffer: its one store, as a function of the loaded input blocks. -/
def out0 (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 :=
  View.canon [⟨r5000x128_0, k0_pay1 (View.ld x0 r5000x128_0) (View.ld x1 r5000x128_0) (View.ld x2 r128x128_0) (View.ld x3 r1x128_0) (View.ld x4 r128x128_0) (View.ld x5 r1x128_0)⟩]

/-- The one store covers the whole buffer. -/
theorem cover0 (p0 : Vec F S5000x128 .f32) (y : S5000x128.Idx) :
    ∃ pc ∈ ([⟨r5000x128_0, p0⟩] : List (View.Piece (Elt F) S5000x128 .f32)), y ∈ pc.1.set :=
  View.cover_of_tiled [⟨r5000x128_0, p0⟩] S5000x128.size (by rfl) y

set_option maxHeartbeats 4000000 in
/-- The body on whole staging buffers, the inputs at known contents and the output at anything, runs to its return with the
    inputs as they were and the output at `out0` of them. -/
theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S5000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0 x0 x1 x2 x3 x4 x5)) -∗ K ⟨⟩))
      ⊢ wp frame (wpE (defs₀ (F := F)) Variants.none c none) E (cc0__mlp_kernel i arg1 harg1 arg2 harg2 arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0 _)

/-- The proof data of this region on core `c`: the arrays as the region finds them; after the body at point `t` each input's
    buffer still at its block and the output's at `out0` of the input blocks; nothing owed; each window's share of its
    array given by `q`. -/
def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0 (iblk0 V c 0 t) (iblk0 V c 1 t) (iblk0 V c 2 t) (iblk0 V c 3 t) (iblk0 V c 4 t) (iblk0 V c 5 t)
  Φ _ := Pipeline.ΦA spec0 c
  q := q
  owed _ := 0

variable (q : Fin cfg0.W → PosShare TreeShare)

theorem A_eq0 (c : Dev nD) (w : Fin cfg0.W) : (dat0 V q c).A w = V c (Pipeline.arrRef spec0 w) := by
  dsimp only [dat0]

theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = iblk0 V c 2 t := by dsimp only [dat0]
theorem after0_3 (c : Dev nD) (t : Fin cfg0.N) : (dat0 V q c).after 3 t = iblk0 V c 3 t := by dsimp only [dat0]
theorem after0_4 (c : Dev nD) (t : Fin cfg0.N) : (dat0 V q c).after 4 t = iblk0 V c 4 t := by dsimp only [dat0]
theorem after0_5 (c : Dev nD) (t : Fin cfg0.N) : (dat0 V q c).after 5 t = iblk0 V c 5 t := by dsimp only [dat0]
theorem after0_6 (c : Dev nD) (t : Fin cfg0.N) : (dat0 V q c).after 6 t = out0 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V q c).before 0 t d = iblk0 V c 0 t :=
  before0_0_of V (dat0 V q c) (A_eq0 V q c 0) (after0_0 V q c) t d
theorem before0_1 (c : Dev nD) (t : Fin cfg0.N) (d) : (dat0 V q c).before 1 t d = iblk0 V c 1 t :=
  before0_1_of V (dat0 V q c) (A_eq0 V q c 1) (after0_1 V q c) t d
theorem before0_2 (c : Dev nD) (t : Fin cfg0.N) (d) : (dat0 V q c).before 2 t d = iblk0 V c 2 t :=
  before0_2_of V (dat0 V q c) (A_eq0 V q c 2) (after0_2 V q c) t d
theorem before0_3 (c : Dev nD) (t : Fin cfg0.N) (d) : (dat0 V q c).before 3 t d = iblk0 V c 3 t :=
  before0_3_of V (dat0 V q c) (A_eq0 V q c 3) (after0_3 V q c) t d
theorem before0_4 (c : Dev nD) (t : Fin cfg0.N) (d) : (dat0 V q c).before 4 t d = iblk0 V c 4 t :=
  before0_4_of V (dat0 V q c) (A_eq0 V q c 4) (after0_4 V q c) t d
theorem before0_5 (c : Dev nD) (t : Fin cfg0.N) (d) : (dat0 V q c).before 5 t d = iblk0 V c 5 t :=
  before0_5_of V (dat0 V q c) (A_eq0 V q c 5) (after0_5 V q c) t d

/-- What the body is called with at point `t`, window by window, -/
def bodyPre0 (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d))
    ∗ (∃ d, owns (c : Thread nD τ) (st0_3 t) fullShare ((dat0 V q c).before 3 t d))
    ∗ (∃ d, owns (c : Thread nD τ) (st0_4 t) fullShare ((dat0 V q c).before 4 t d))
    ∗ (∃ d, owns (c : Thread nD τ) (st0_5 t) fullShare ((dat0 V q c).before 5 t d))
    ∗ (∃ d, owns (c : Thread nD τ) (st0_6 t) fullShare ((dat0 V q c).before 6 t d)))

/-- and what it returns. -/
def bodyPost0 (c : Dev nD) (t : Fin cfg0.N) : sProp 𝕄 :=
  iprop((dat0 V q c).Φ t.succ ∗ (dat0 V q c).owesAt () t.succ
    ∗ owns (c : Thread nD τ) (st0_0 t) fullShare ((dat0 V q c).after 0 t)
    ∗ owns (c : Thread nD τ) (st0_1 t) fullShare ((dat0 V q c).after 1 t)
    ∗ owns (c : Thread nD τ) (st0_2 t) fullShare ((dat0 V q c).after 2 t)
    ∗ owns (c : Thread nD τ) (st0_3 t) fullShare ((dat0 V q c).after 3 t)
    ∗ owns (c : Thread nD τ) (st0_4 t) fullShare ((dat0 V q c).after 4 t)
    ∗ owns (c : Thread nD τ) (st0_5 t) fullShare ((dat0 V q c).after 5 t)
    ∗ owns (c : Thread nD τ) (st0_6 t) fullShare ((dat0 V q c).after 6 t))

/-- The body at any point: the inputs' buffers hold their blocks, so the body's triple applies; the invariant and what the
    core owes pass through unread. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1, before0_2, before0_3, before0_4, before0_5]
  rw [show (dat0 V q c).Φ t.succ = (dat0 V q c).Φ t.castSucc from rfl,
    show (dat0 V q c).owesAt () t.succ = (dat0 V q c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point. -/
theorem body_obligation0 (c : Dev nD) : BodyObligation (dat0 (F := F) V q c) (defs₀ (F := F)) Variants.none () Set.univ := fun t => by
  rw [bigSep_W0, bigSep_W0]
  exact sound_body0 V q c t

end Cert.KernelIdeal.Reg0

end
-- ==== Proof.IdealReg1.lean ====
/-
  The second region: the two-layer perceptron of layer 1, one block of 5000 rows at a grid point, its operands the first
  layer's result, that result's edge aggregation, and this layer's weights and one-row biases. Same shape as the first
  region: six whole blocks loaded, one whole block stored; stated for any contents of the arrays and any float instance.
-/
import proofs.«113067_j58007828300389_2_alg».proof.Proof.Gen.KernelIdeal.Launch
import proofs.«113067_j58007828300389_2_alg».proof.Proof.Gen.KernelIdeal.Skeleton
import proofs.«113067_j58007828300389_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the two-layer perceptron on one block of 5000 rows (second layer) -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the point fetches it or not (an unfetched
    window's index has not moved since the fetch). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the point fetches it or not (an unfetched
    window's index has not moved since the fetch). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether the point fetches it or not (an unfetched
    window's index has not moved since the fetch). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, whether the point fetches it or not (an unfetched
    window's index has not moved since the fetch). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, whether the point fetches it or not (an unfetched
    window's index has not moved since the fetch). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, whether the point fetches it or not (an unfetched
    window's index has not moved since the fetch). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole of each staging buffer: the rectangles the body loads and stores through. -/
abbrev r5000x128_1 : Rect S5000x128 := Rect.unit (s := S5000x128) ![0, 0] S5000x128.size inb_S5000x128_S5000x128_0_0
abbrev r128x128_1 : Rect S128x128 := Rect.unit (s := S128x128) ![0, 0] S128x128.size inb_S128x128_S128x128_0_0
abbrev r1x128_1 : Rect S1x128 := Rect.unit (s := S1x128) ![0, 0] S1x128.size inb_S1x128_S1x128_0_0

/-- What the body leaves in the output window's buffer: its one store, as a function of the loaded input blocks. -/
def out1 (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 :=
  View.canon [⟨r5000x128_1, k1_pay1 (View.ld x0 r5000x128_1) (View.ld x1 r5000x128_1) (View.ld x2 r128x128_1) (View.ld x3 r1x128_1) (View.ld x4 r128x128_1) (View.ld x5 r1x128_1)⟩]

/-- The one store covers the whole buffer. -/
theorem cover1 (p0 : Vec F S5000x128 .f32) (y : S5000x128.Idx) :
    ∃ pc ∈ ([⟨r5000x128_1, p0⟩] : List (View.Piece (Elt F) S5000x128 .f32)), y ∈ pc.1.set :=
  View.cover_of_tiled [⟨r5000x128_1, p0⟩] S5000x128.size (by rfl) y

set_option maxHeartbeats 4000000 in
/-- The body on whole staging buffers, the inputs at known contents and the output at anything, runs to its return with the
    inputs as they were and the output at `out1` of them. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S5000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1 x0 x1 x2 x3 x4 x5)) -∗ K ⟨⟩))
      ⊢ wp frame (wpE (defs₀ (F := F)) Variants.none c none) E (cc1__mlp_kernel i arg1 harg1 arg2 harg2 arg3 harg3 arg4 harg4 arg5 harg5 arg6 harg6 arg7 harg7) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1 _)

/-- The proof data of this region on core `c`: the arrays as the region finds them; after the body at point `t` each input's
    buffer still at its block and the output's at `out1` of the input blocks; nothing owed; each window's share of its
    array given by `q`. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 (iblk1 V c 0 t) (iblk1 V c 1 t) (iblk1 V c 2 t) (iblk1 V c 3 t) (iblk1 V c 4 t) (iblk1 V c 5 t)
  Φ _ := Pipeline.ΦA spec1 c
  q := q
  owed _ := 0

variable (q : Fin cfg1.W → PosShare TreeShare)

theorem A_eq1 (c : Dev nD) (w : Fin cfg1.W) : (dat1 V q c).A w = V c (Pipeline.arrRef spec1 w) := by
  dsimp only [dat1]

theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = iblk1 V c 2 t := by dsimp only [dat1]
theorem after1_3 (c : Dev nD) (t : Fin cfg1.N) : (dat1 V q c).after 3 t = iblk1 V c 3 t := by dsimp only [dat1]
theorem after1_4 (c : Dev nD) (t : Fin cfg1.N) : (dat1 V q c).after 4 t = iblk1 V c 4 t := by dsimp only [dat1]
theorem after1_5 (c : Dev nD) (t : Fin cfg1.N) : (dat1 V q c).after 5 t = iblk1 V c 5 t := by dsimp only [dat1]
theorem after1_6 (c : Dev nD) (t : Fin cfg1.N) : (dat1 V q c).after 6 t = out1 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d
theorem before1_2 (c : Dev nD) (t : Fin cfg1.N) (d) : (dat1 V q c).before 2 t d = iblk1 V c 2 t :=
  before1_2_of V (dat1 V q c) (A_eq1 V q c 2) (after1_2 V q c) t d
theorem before1_3 (c : Dev nD) (t : Fin cfg1.N) (d) : (dat1 V q c).before 3 t d = iblk1 V c 3 t :=
  before1_3_of V (dat1 V q c) (A_eq1 V q c 3) (after1_3 V q c) t d
theorem before1_4 (c : Dev nD) (t : Fin cfg1.N) (d) : (dat1 V q c).before 4 t d = iblk1 V c 4 t :=
  before1_4_of V (dat1 V q c) (A_eq1 V q c 4) (after1_4 V q c) t d
theorem before1_5 (c : Dev nD) (t : Fin cfg1.N) (d) : (dat1 V q c).before 5 t d = iblk1 V c 5 t :=
  before1_5_of V (dat1 V q c) (A_eq1 V q c 5) (after1_5 V q c) t d

/-- What the body is called with at point `t`, window by window, -/
def bodyPre1 (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d))
    ∗ (∃ d, owns (c : Thread nD τ) (st1_3 t) fullShare ((dat1 V q c).before 3 t d))
    ∗ (∃ d, owns (c : Thread nD τ) (st1_4 t) fullShare ((dat1 V q c).before 4 t d))
    ∗ (∃ d, owns (c : Thread nD τ) (st1_5 t) fullShare ((dat1 V q c).before 5 t d))
    ∗ (∃ d, owns (c : Thread nD τ) (st1_6 t) fullShare ((dat1 V q c).before 6 t d)))

/-- and what it returns. -/
def bodyPost1 (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t)
    ∗ owns (c : Thread nD τ) (st1_3 t) fullShare ((dat1 V q c).after 3 t)
    ∗ owns (c : Thread nD τ) (st1_4 t) fullShare ((dat1 V q c).after 4 t)
    ∗ owns (c : Thread nD τ) (st1_5 t) fullShare ((dat1 V q c).after 5 t)
    ∗ owns (c : Thread nD τ) (st1_6 t) fullShare ((dat1 V q c).after 6 t))

/-- The body at any point: the inputs' buffers hold their blocks, so the body's triple applies; the invariant and what the
    core owes pass through unread. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2, before1_3, before1_4, before1_5]
  rw [show (dat1 V q c).Φ t.succ = (dat1 V q c).Φ t.castSucc from rfl,
    show (dat1 V q c).owesAt () t.succ = (dat1 V q c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point. -/
theorem body_obligation1 (c : Dev nD) : BodyObligation (dat1 (F := F) V q c) (defs₀ (F := F)) Variants.none () Set.univ := fun t => by
  rw [bigSep_W1, bigSep_W1]
  exact sound_body1 V q c t

end Cert.KernelIdeal.Reg1

end
-- ==== Proof.IdealReg2.lean ====
/-
  The third region: the perceptron of layer 2 fused with the final linear layer over the three layers' results, one block of
  2000 rows at a grid point. The body loads twelve whole blocks — the second layer's result (through two windows: as the
  perceptron's input and as the middle operand of the final layer), its edge aggregation, the first layer's result, this
  layer's weights and one-row biases, the three 128-row blocks of the final weight matrix and the final one-row bias —, and
  stores one whole block. Stated for any contents of the arrays, any float instance and any shares of the arrays.
-/
import proofs.«113067_j58007828300389_2_alg».proof.Proof.Gen.KernelIdeal.Launch
import proofs.«113067_j58007828300389_2_alg».proof.Proof.Gen.KernelIdeal.Skeleton
import proofs.«113067_j58007828300389_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the third perceptron fused with the three-block final linear layer, on one block of 2000 rows -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the point fetches it or not (an unfetched
    window's index has not moved since the fetch). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether the point fetches it or not (an unfetched
    window's index has not moved since the fetch). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether the point fetches it or not (an unfetched
    window's index has not moved since the fetch). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, whether the point fetches it or not (an unfetched
    window's index has not moved since the fetch). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, whether the point fetches it or not (an unfetched
    window's index has not moved since the fetch). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block at every point, whether the point fetches it or not (an unfetched
    window's index has not moved since the fetch). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's staging buffer holds its block at every point, whether the point fetches it or not (an unfetched
    window's index has not moved since the fetch). -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's staging buffer holds its block at every point, whether the point fetches it or not (an unfetched
    window's index has not moved since the fetch). -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's staging buffer holds its block at every point, whether the point fetches it or not (an unfetched
    window's index has not moved since the fetch). -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Input window 9's staging buffer holds its block at every point, whether the point fetches it or not (an unfetched
    window's index has not moved since the fetch). -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-- Input window 10's staging buffer holds its block at every point, whether the point fetches it or not (an unfetched
    window's index has not moved since the fetch). -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

/-- Input window 11's staging buffer holds its block at every point, whether the point fetches it or not (an unfetched
    window's index has not moved since the fetch). -/
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

/-- The whole of each staging buffer: the rectangles the body loads and stores through. -/
abbrev r2000x128_2 : Rect S2000x128 := Rect.unit (s := S2000x128) ![0, 0] S2000x128.size inb_S2000x128_S2000x128_0_0
abbrev r128x128_2 : Rect S128x128 := Rect.unit (s := S128x128) ![0, 0] S128x128.size inb_S128x128_S128x128_0_0
abbrev r1x128_2 : Rect S1x128 := Rect.unit (s := S1x128) ![0, 0] S1x128.size inb_S1x128_S1x128_0_0

/-- What the body leaves in the output window's buffer: its one store, as a function of the loaded input blocks. -/
def out2 (x0 : Vec F S2000x128 .f32) (x1 : Vec F S2000x128 .f32) (x2 : Vec F S2000x128 .f32) (x3 : Vec F S2000x128 .f32) (x4 : Vec F S128x128 .f32) (x5 : Vec F S1x128 .f32) (x6 : Vec F S128x128 .f32) (x7 : Vec F S1x128 .f32) (x8 : Vec F S128x128 .f32) (x9 : Vec F S128x128 .f32) (x10 : Vec F S128x128 .f32) (x11 : Vec F S1x128 .f32) : Vec F S2000x128 .f32 :=
  View.canon [⟨r2000x128_2, k2_pay1 (k2_pay2 (View.ld x2 r2000x128_2)) (k2_pay3 (View.ld x3 r2000x128_2)) (k2_pay4 (View.ld x0 r2000x128_2) (View.ld x1 r2000x128_2) (View.ld x4 r128x128_2) (View.ld x5 r1x128_2) (View.ld x6 r128x128_2) (View.ld x7 r1x128_2)) (k2_pay5 (View.ld x8 r128x128_2)) (View.ld x9 r128x128_2) (View.ld x10 r128x128_2) (View.ld x11 r1x128_2)⟩]

/-- The one store covers the whole buffer. -/
theorem cover2 (p0 : Vec F S2000x128 .f32) (y : S2000x128.Idx) :
    ∃ pc ∈ ([⟨r2000x128_2, p0⟩] : List (View.Piece (Elt F) S2000x128 .f32)), y ∈ pc.1.set :=
  View.cover_of_tiled [⟨r2000x128_2, p0⟩] S2000x128.size (by rfl) y

set_option maxHeartbeats 4000000 in
/-- The body on whole staging buffers, the inputs at known contents and the output at anything, runs to its return with the
    inputs as they were and the output at `out2` of them. -/
theorem sound_kernel2 (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S2000x128 .f32) (harg13 : arg13.IsWhole)
    (x0 : Vec F S2000x128 .f32) (x1 : Vec F S2000x128 .f32) (x2 : Vec F S2000x128 .f32) (x3 : Vec F S2000x128 .f32) (x4 : Vec F S128x128 .f32) (x5 : Vec F S1x128 .f32) (x6 : Vec F S128x128 .f32) (x7 : Vec F S1x128 .f32) (x8 : Vec F S128x128 .f32) (x9 : Vec F S128x128 .f32) (x10 : Vec F S128x128 .f32) (x11 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out2 x0 x1 x2 x3 x4 x5 x6 x7 x8 x9 x10 x11)) -∗ K ⟨⟩))
      ⊢ wp frame (wpE (defs₀ (F := F)) Variants.none c none) E (cc2__mlp_jk_kernel i arg1 harg1 arg2 harg2 arg3 harg3 arg4 harg4 arg5 harg5 arg6 harg6 arg7 harg7 arg8 harg8 arg9 harg9 arg10 harg10 arg11 harg11 arg12 harg12 arg13 harg13) K := by
  simp only [cc2__mlp_jk_kernel_eq_skeleton]; unfold cc2__mlp_jk_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0; subst hf1; subst hf2; subst hf3; subst hf4; subst hf5; subst hf6; subst hf7; subst hf8; subst hf9; subst hf10; subst hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover2 _)

/-- The proof data of this region on core `c`: the arrays as the region finds them; after the body at point `t` each input's
    buffer still at its block and the output's at `out2` of the input blocks; nothing owed; each window's share of its
    array given by `q`. -/
def dat2 (q : Fin cfg2.W → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => out2 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t)
  Φ _ := Pipeline.ΦA spec2 c
  q := q
  owed _ := 0

variable (q : Fin cfg2.W → PosShare TreeShare)

theorem A_eq2 (c : Dev nD) (w : Fin cfg2.W) : (dat2 V q c).A w = V c (Pipeline.arrRef spec2 w) := by
  dsimp only [dat2]

theorem after2_0 (c : Dev nD) (t : Fin cfg2.N) : (dat2 V q c).after 0 t = iblk2 V c 0 t := by dsimp only [dat2]
theorem after2_1 (c : Dev nD) (t : Fin cfg2.N) : (dat2 V q c).after 1 t = iblk2 V c 1 t := by dsimp only [dat2]
theorem after2_2 (c : Dev nD) (t : Fin cfg2.N) : (dat2 V q c).after 2 t = iblk2 V c 2 t := by dsimp only [dat2]
theorem after2_3 (c : Dev nD) (t : Fin cfg2.N) : (dat2 V q c).after 3 t = iblk2 V c 3 t := by dsimp only [dat2]
theorem after2_4 (c : Dev nD) (t : Fin cfg2.N) : (dat2 V q c).after 4 t = iblk2 V c 4 t := by dsimp only [dat2]
theorem after2_5 (c : Dev nD) (t : Fin cfg2.N) : (dat2 V q c).after 5 t = iblk2 V c 5 t := by dsimp only [dat2]
theorem after2_6 (c : Dev nD) (t : Fin cfg2.N) : (dat2 V q c).after 6 t = iblk2 V c 6 t := by dsimp only [dat2]
theorem after2_7 (c : Dev nD) (t : Fin cfg2.N) : (dat2 V q c).after 7 t = iblk2 V c 7 t := by dsimp only [dat2]
theorem after2_8 (c : Dev nD) (t : Fin cfg2.N) : (dat2 V q c).after 8 t = iblk2 V c 8 t := by dsimp only [dat2]
theorem after2_9 (c : Dev nD) (t : Fin cfg2.N) : (dat2 V q c).after 9 t = iblk2 V c 9 t := by dsimp only [dat2]
theorem after2_10 (c : Dev nD) (t : Fin cfg2.N) : (dat2 V q c).after 10 t = iblk2 V c 10 t := by dsimp only [dat2]
theorem after2_11 (c : Dev nD) (t : Fin cfg2.N) : (dat2 V q c).after 11 t = iblk2 V c 11 t := by dsimp only [dat2]
theorem after2_12 (c : Dev nD) (t : Fin cfg2.N) : (dat2 V q c).after 12 t = out2 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) := by dsimp only [dat2]

theorem before2_0 (c : Dev nD) (t : Fin cfg2.N) (d) : (dat2 V q c).before 0 t d = iblk2 V c 0 t :=
  before2_0_of V (dat2 V q c) (A_eq2 V q c 0) (after2_0 V q c) t d
theorem before2_1 (c : Dev nD) (t : Fin cfg2.N) (d) : (dat2 V q c).before 1 t d = iblk2 V c 1 t :=
  before2_1_of V (dat2 V q c) (A_eq2 V q c 1) (after2_1 V q c) t d
theorem before2_2 (c : Dev nD) (t : Fin cfg2.N) (d) : (dat2 V q c).before 2 t d = iblk2 V c 2 t :=
  before2_2_of V (dat2 V q c) (A_eq2 V q c 2) (after2_2 V q c) t d
theorem before2_3 (c : Dev nD) (t : Fin cfg2.N) (d) : (dat2 V q c).before 3 t d = iblk2 V c 3 t :=
  before2_3_of V (dat2 V q c) (A_eq2 V q c 3) (after2_3 V q c) t d
theorem before2_4 (c : Dev nD) (t : Fin cfg2.N) (d) : (dat2 V q c).before 4 t d = iblk2 V c 4 t :=
  before2_4_of V (dat2 V q c) (A_eq2 V q c 4) (after2_4 V q c) t d
theorem before2_5 (c : Dev nD) (t : Fin cfg2.N) (d) : (dat2 V q c).before 5 t d = iblk2 V c 5 t :=
  before2_5_of V (dat2 V q c) (A_eq2 V q c 5) (after2_5 V q c) t d
theorem before2_6 (c : Dev nD) (t : Fin cfg2.N) (d) : (dat2 V q c).before 6 t d = iblk2 V c 6 t :=
  before2_6_of V (dat2 V q c) (A_eq2 V q c 6) (after2_6 V q c) t d
theorem before2_7 (c : Dev nD) (t : Fin cfg2.N) (d) : (dat2 V q c).before 7 t d = iblk2 V c 7 t :=
  before2_7_of V (dat2 V q c) (A_eq2 V q c 7) (after2_7 V q c) t d
theorem before2_8 (c : Dev nD) (t : Fin cfg2.N) (d) : (dat2 V q c).before 8 t d = iblk2 V c 8 t :=
  before2_8_of V (dat2 V q c) (A_eq2 V q c 8) (after2_8 V q c) t d
theorem before2_9 (c : Dev nD) (t : Fin cfg2.N) (d) : (dat2 V q c).before 9 t d = iblk2 V c 9 t :=
  before2_9_of V (dat2 V q c) (A_eq2 V q c 9) (after2_9 V q c) t d
theorem before2_10 (c : Dev nD) (t : Fin cfg2.N) (d) : (dat2 V q c).before 10 t d = iblk2 V c 10 t :=
  before2_10_of V (dat2 V q c) (A_eq2 V q c 10) (after2_10 V q c) t d
theorem before2_11 (c : Dev nD) (t : Fin cfg2.N) (d) : (dat2 V q c).before 11 t d = iblk2 V c 11 t :=
  before2_11_of V (dat2 V q c) (A_eq2 V q c 11) (after2_11 V q c) t d

/-- What the body is called with at point `t`, window by window, -/
def bodyPre2 (c : Dev nD) (t : Fin cfg2.N) : sProp 𝕄 :=
  iprop((dat2 V q c).Φ t.castSucc ∗ (dat2 V q c).owesAt () t.castSucc
    ∗ (∃ d, owns (c : Thread nD τ) (st2_0 t) fullShare ((dat2 V q c).before 0 t d))
    ∗ (∃ d, owns (c : Thread nD τ) (st2_1 t) fullShare ((dat2 V q c).before 1 t d))
    ∗ (∃ d, owns (c : Thread nD τ) (st2_2 t) fullShare ((dat2 V q c).before 2 t d))
    ∗ (∃ d, owns (c : Thread nD τ) (st2_3 t) fullShare ((dat2 V q c).before 3 t d))
    ∗ (∃ d, owns (c : Thread nD τ) (st2_4 t) fullShare ((dat2 V q c).before 4 t d))
    ∗ (∃ d, owns (c : Thread nD τ) (st2_5 t) fullShare ((dat2 V q c).before 5 t d))
    ∗ (∃ d, owns (c : Thread nD τ) (st2_6 t) fullShare ((dat2 V q c).before 6 t d))
    ∗ (∃ d, owns (c : Thread nD τ) (st2_7 t) fullShare ((dat2 V q c).before 7 t d))
    ∗ (∃ d, owns (c : Thread nD τ) (st2_8 t) fullShare ((dat2 V q c).before 8 t d))
    ∗ (∃ d, owns (c : Thread nD τ) (st2_9 t) fullShare ((dat2 V q c).before 9 t d))
    ∗ (∃ d, owns (c : Thread nD τ) (st2_10 t) fullShare ((dat2 V q c).before 10 t d))
    ∗ (∃ d, owns (c : Thread nD τ) (st2_11 t) fullShare ((dat2 V q c).before 11 t d))
    ∗ (∃ d, owns (c : Thread nD τ) (st2_12 t) fullShare ((dat2 V q c).before 12 t d)))

/-- and what it returns. -/
def bodyPost2 (c : Dev nD) (t : Fin cfg2.N) : sProp 𝕄 :=
  iprop((dat2 V q c).Φ t.succ ∗ (dat2 V q c).owesAt () t.succ
    ∗ owns (c : Thread nD τ) (st2_0 t) fullShare ((dat2 V q c).after 0 t)
    ∗ owns (c : Thread nD τ) (st2_1 t) fullShare ((dat2 V q c).after 1 t)
    ∗ owns (c : Thread nD τ) (st2_2 t) fullShare ((dat2 V q c).after 2 t)
    ∗ owns (c : Thread nD τ) (st2_3 t) fullShare ((dat2 V q c).after 3 t)
    ∗ owns (c : Thread nD τ) (st2_4 t) fullShare ((dat2 V q c).after 4 t)
    ∗ owns (c : Thread nD τ) (st2_5 t) fullShare ((dat2 V q c).after 5 t)
    ∗ owns (c : Thread nD τ) (st2_6 t) fullShare ((dat2 V q c).after 6 t)
    ∗ owns (c : Thread nD τ) (st2_7 t) fullShare ((dat2 V q c).after 7 t)
    ∗ owns (c : Thread nD τ) (st2_8 t) fullShare ((dat2 V q c).after 8 t)
    ∗ owns (c : Thread nD τ) (st2_9 t) fullShare ((dat2 V q c).after 9 t)
    ∗ owns (c : Thread nD τ) (st2_10 t) fullShare ((dat2 V q c).after 10 t)
    ∗ owns (c : Thread nD τ) (st2_11 t) fullShare ((dat2 V q c).after 11 t)
    ∗ owns (c : Thread nD τ) (st2_12 t) fullShare ((dat2 V q c).after 12 t))

/-- The body at any point: the inputs' buffers hold their blocks, so the body's triple applies; the invariant and what the
    core owes pass through unread. -/
theorem sound_body2 (c : Dev nD) (t : Fin cfg2.N) :
    bodyPre2 V q c t ⊢ wp frame (wpE (defs₀ (F := F)) Variants.none c none) Set.univ (bodyAt2 t) (fun _ => bodyPost2 V q c t) := by
  unfold bodyPre2 bodyPost2 bodyAt2
  simp only [before2_0, before2_1, before2_2, before2_3, before2_4, before2_5, before2_6, before2_7, before2_8, before2_9, before2_10, before2_11]
  rw [show (dat2 V q c).Φ t.succ = (dat2 V q c).Φ t.castSucc from rfl,
    show (dat2 V q c).owesAt () t.succ = (dat2 V q c).owesAt () t.castSucc from rfl,
    after2_0, after2_1, after2_2, after2_3, after2_4, after2_5, after2_6, after2_7, after2_8, after2_9, after2_10, after2_11, after2_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel2 c Set.univ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body obligation at every point. -/
theorem body_obligation2 (c : Dev nD) : BodyObligation (dat2 (F := F) V q c) (defs₀ (F := F)) Variants.none () Set.univ := fun t => by
  rw [bigSep_W2, bigSep_W2]
  exact sound_body2 V q c t

end Cert.KernelIdeal.Reg2

end
-- ==== Proof.IdealSegs.lean ====
/-
  The three regions as segments of the program's main function, between the host stretches.

  The contents of every buffer between two items are a fold from the launch memory: a host stretch applies its operations,
  a region replaces its result buffer by what the write-backs of all its grid points leave. Each region is entered from the
  contents before it and left at the contents after it; its windows' arrays are taken out of the core's buffers at entry and
  put back at exit. In the first two regions every window has an array of its own. In the third, two windows read one array:
  that buffer goes in as two halves of its full share, one per window, and the halves are joined again at exit — both
  windows only read it, so both halves come back at the contents they went in with.
-/
import proofs.«113067_j58007828300389_2_alg».proof.Proof.IdealReg0
import proofs.«113067_j58007828300389_2_alg».proof.Proof.IdealReg1
import proofs.«113067_j58007828300389_2_alg».proof.Proof.IdealReg2
import proofs.«113067_j58007828300389_2_alg».proof.Proof.Gen.KernelIdeal.Regions

set_option maxRecDepth 16384

noncomputable section

namespace Cert.KernelIdeal.Whole

open Cert.KernelIdeal Cert.KernelIdeal.Gen Cert.KernelIdeal.Reg0 Cert.KernelIdeal.Reg1 Cert.KernelIdeal.Reg2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each region leaves, stage by stage

The three regions write three different buffers, and each later region's entry contents depend on what the earlier ones
left. So the contents the regions leave are named in order: the first layer's result from the launch contents, the
second layer's from the contents that hold the first, the final result from the contents that hold both. -/

/-- In the two perceptron regions every window holds its array whole. -/
abbrev q0 : Fin cfg0.W → PosShare TreeShare := fun _ => fullShare
abbrev q1 : Fin cfg1.W → PosShare TreeShare := fun _ => fullShare
/-- In the last region windows 0 and 3 read one array (the second layer's result, once as the perceptron's input and
    once as the middle block of the final linear layer): each holds one half of it. -/
def q2 : Fin cfg2.W → PosShare TreeShare := fun w => if w = 0 then fullShare.left else if w = 3 then fullShare.right else fullShare

/-- Region 0's entry contents, at the TensorCore's references. -/
abbrev ent0 (c : Dev nD) (b : Ref sig .tc) : Buf (Elt F) ((c : Thread nD τ).loc b) := V3 m c b
/-- What region 0 leaves in its result buffer: the write-backs of all its points. -/
def o4 (c : Dev nD) : Buf (Elt F) ((c : Thread nD τ).loc main_v18) := (dat0 (ent0 m) q0 c).arrAt 6 cfg0.N
def outsA : Outs (F := F) := fun _ r c => if h : r = main_v18 then h ▸ o4 m c else V3 m c r

/-- Region 1's entry contents. -/
abbrev ent1 (c : Dev nD) (b : Ref sig .tc) : Buf (Elt F) ((c : Thread nD τ).loc b) := V7 m (outsA m) c b
def o8 (c : Dev nD) : Buf (Elt F) ((c : Thread nD τ).loc main_v33) := (dat1 (ent1 m) q1 c).arrAt 6 cfg1.N
def outsB : Outs (F := F) := fun _ r c =>
  if h : r = main_v18 then h ▸ o4 m c else if h : r = main_v33 then h ▸ o8 m c else V3 m c r

/-- Region 2's entry contents. -/
abbrev ent2 (c : Dev nD) (b : Ref sig .tc) : Buf (Elt F) ((c : Thread nD τ).loc b) := V11 m (outsB m) c b
def o12 (c : Dev nD) : Buf (Elt F) ((c : Thread nD τ).loc main_v52) := (dat2 (ent2 m) q2 c).arrAt 12 cfg2.N
/-- What the three regions leave, as one table. -/
def outs : Outs (F := F) := fun _ r c =>
  if h : r = main_v18 then h ▸ o4 m c else if h : r = main_v33 then h ▸ o8 m c
  else if h : r = main_v52 then h ▸ o12 m c else V3 m c r

theorem outsA_v18 (J : ℕ) (c : Dev nD) : outsA m J main_v18 c = o4 m c := by unfold outsA; rw [dif_pos rfl]
theorem outsB_v18 (J : ℕ) (c : Dev nD) : outsB m J main_v18 c = o4 m c := by unfold outsB; rw [dif_pos rfl]
theorem outsB_v33 (J : ℕ) (c : Dev nD) : outsB m J main_v33 c = o8 m c := by
  unfold outsB; rw [dif_neg (by decide), dif_pos rfl]
theorem outs_v18 (J : ℕ) (c : Dev nD) : outs m J main_v18 c = o4 m c := by unfold outs; rw [dif_pos rfl]
theorem outs_v33 (J : ℕ) (c : Dev nD) : outs m J main_v33 c = o8 m c := by
  unfold outs; rw [dif_neg (by decide), dif_pos rfl]
theorem outs_v52 (J : ℕ) (c : Dev nD) : outs m J main_v52 c = o12 m c := by
  unfold outs; rw [dif_neg (by decide), dif_neg (by decide), dif_pos rfl]

/-- The contents between items do not depend on which of the tables is read, as far as each has been filled. -/
theorem V4_outs (c : Dev nD) : V4 m (outs m) c = V4 m (outsA m) c := by
  unfold V4; rw [outs_v18, outsA_v18]
theorem V7_outs (c : Dev nD) : V7 m (outs m) c = V7 m (outsA m) c := by
  unfold V7 V6 V5; rw [V4_outs]
theorem V4_outsB (c : Dev nD) : V4 m (outsB m) c = V4 m (outsA m) c := by
  unfold V4; rw [outsB_v18, outsA_v18]
theorem V7_outsB (c : Dev nD) : V7 m (outsB m) c = V7 m (outsA m) c := by
  unfold V7 V6 V5; rw [V4_outsB]
theorem V8_outs (c : Dev nD) : V8 m (outs m) c = V8 m (outsB m) c := by
  unfold V8; rw [V7_outs, V7_outsB, outs_v33, outsB_v33]
theorem V11_outs (c : Dev nD) : V11 m (outs m) c = V11 m (outsB m) c := by
  unfold V11 V10 V9; rw [V8_outs]

/-! ## The proof data family and what rides beside the buffers -/

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (ent0 m) q0 c
  | ⟨1, _⟩ => fun c => dat1 (ent1 m) q1 c
  | ⟨2, _⟩ => fun c => dat2 (ent2 m) q2 c

abbrev 𝒱n : Variants := Variants.none
/-- No core owes another anything: no level is assigned. -/
abbrev Ln : GSem nD τ sig → Finset Unit := fun _ => ∅
abbrev lvn : GSem nD τ sig → Unit → ℕ := fun _ _ => 0
/-- What rides beside the buffers through every item: the core's generator register at some state and the core owing
    nothing. -/
abbrev Ride (c : Dev nD) : sProp 𝕄 :=
  iprop((∃ r, prngReg c r) ∗ ∃ W, owes (c : Thread nD τ) (0 : CellTallies nD τ sig Unit) W)

/-! ## Regions 0 and 1: every window on an array of its own -/

/-- At region 0's exit each of its arrays holds what the write-backs leave: the inputs as entered, the result buffer the
    named contents. -/
theorem hF0 (c : Dev nD) (w : Fin cfg0.W) :
    (dat0 (ent0 m) q0 c).arrAt w cfg0.N = V4 m (outs m) c (Pipeline.arrRef spec0 w) := by
  match w with
  | ⟨0, _⟩ => exact ((dat0 (ent0 m) q0 c).arrAt_in 0 rfl _).trans ((A_eq0 (ent0 m) q0 c 0).trans (V4_of m (outs m) c _ (by decide)).symm)
  | ⟨1, _⟩ => exact ((dat0 (ent0 m) q0 c).arrAt_in 1 rfl _).trans ((A_eq0 (ent0 m) q0 c 1).trans (V4_of m (outs m) c _ (by decide)).symm)
  | ⟨2, _⟩ => exact ((dat0 (ent0 m) q0 c).arrAt_in 2 rfl _).trans ((A_eq0 (ent0 m) q0 c 2).trans (V4_of m (outs m) c _ (by decide)).symm)
  | ⟨3, _⟩ => exact ((dat0 (ent0 m) q0 c).arrAt_in 3 rfl _).trans ((A_eq0 (ent0 m) q0 c 3).trans (V4_of m (outs m) c _ (by decide)).symm)
  | ⟨4, _⟩ => exact ((dat0 (ent0 m) q0 c).arrAt_in 4 rfl _).trans ((A_eq0 (ent0 m) q0 c 4).trans (V4_of m (outs m) c _ (by decide)).symm)
  | ⟨5, _⟩ => exact ((dat0 (ent0 m) q0 c).arrAt_in 5 rfl _).trans ((A_eq0 (ent0 m) q0 c 5).trans (V4_of m (outs m) c _ (by decide)).symm)
  | ⟨6, _⟩ =>
    rw [show V4 m (outs m) c (Pipeline.arrRef spec0 6) = outs m 4 main_v18 c from Function.update_self ..]
    rw [outs_v18]; rfl
theorem hrest0 (c : Dev nD) (b : Ref sig .tc) (hb : b ∉ Finset.univ.image (Pipeline.arrRef spec0)) :
    V4 m (outs m) c b = V3 m c b :=
  V4_of m (outs m) c b fun h => hb (by
    rw [List.mem_singleton] at h; subst h
    exact Finset.mem_image.mpr ⟨6, Finset.mem_univ _, rfl⟩)

set_option backward.isDefEq.respectTransparency.types false in
/-- Region 0 over the thread state: entered from every unscoped buffer at the contents before it, left at the contents
    after it. Its arrays are split out of the unscoped buffers and put back at the exit contents; the generator register
    goes into the invariant and comes out; nothing is owed; the kernel has no semaphore of its own. -/
def reg0 : Pipeline.RegionSeg (pcfgs (F := F)) adm (pdats m) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (ent0 m) q0 c).loose
  hwaits := Pipeline.hwaits_of_owed_zero _ _ _ _ Ln lvn 0 fun _ _ => rfl
  pre c := iprop(StableHlo.held (c : Thread nD τ) (Pipeline.ucRefs τ sig) (V3 m c) ∗ Ride c)
  post c := iprop(StableHlo.held (c : Thread nD τ) (Pipeline.ucRefs τ sig) (V4 m (outs m) c) ∗ Ride c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (ent0 m c) (fun b => V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Off region 1's result buffer, the contents after it are its entry contents. -/
theorem V8_ent1 (c : Dev nD) (r : Ref sig .tc) (h : r ∉ ([main_v33] : List (Ref sig .tc))) : V8 m (outs m) c r = ent1 m c r :=
  (V8_of m (outs m) c r h).trans (congrFun (V7_outs m c) _)

set_option maxHeartbeats 4000000 in
theorem hF1 (c : Dev nD) (w : Fin cfg1.W) :
    (dat1 (ent1 m) q1 c).arrAt w cfg1.N = V8 m (outs m) c (Pipeline.arrRef spec1 w) := by
  match w with
  | ⟨0, _⟩ => exact ((dat1 (ent1 m) q1 c).arrAt_in 0 rfl _).trans ((A_eq1 (ent1 m) q1 c 0).trans (V8_ent1 m c _ (by decide)).symm)
  | ⟨1, _⟩ => exact ((dat1 (ent1 m) q1 c).arrAt_in 1 rfl _).trans ((A_eq1 (ent1 m) q1 c 1).trans (V8_ent1 m c _ (by decide)).symm)
  | ⟨2, _⟩ => exact ((dat1 (ent1 m) q1 c).arrAt_in 2 rfl _).trans ((A_eq1 (ent1 m) q1 c 2).trans (V8_ent1 m c _ (by decide)).symm)
  | ⟨3, _⟩ => exact ((dat1 (ent1 m) q1 c).arrAt_in 3 rfl _).trans ((A_eq1 (ent1 m) q1 c 3).trans (V8_ent1 m c _ (by decide)).symm)
  | ⟨4, _⟩ => exact ((dat1 (ent1 m) q1 c).arrAt_in 4 rfl _).trans ((A_eq1 (ent1 m) q1 c 4).trans (V8_ent1 m c _ (by decide)).symm)
  | ⟨5, _⟩ => exact ((dat1 (ent1 m) q1 c).arrAt_in 5 rfl _).trans ((A_eq1 (ent1 m) q1 c 5).trans (V8_ent1 m c _ (by decide)).symm)
  | ⟨6, _⟩ =>
    rw [show V8 m (outs m) c (Pipeline.arrRef spec1 6) = outs m 8 main_v33 c from Function.update_self ..]
    rw [outs_v33]; rfl
theorem hrest1 (c : Dev nD) (b : Ref sig .tc) (hb : b ∉ Finset.univ.image (Pipeline.arrRef spec1)) :
    V8 m (outs m) c b = ent1 m c b :=
  V8_ent1 m c b fun h => hb (by
    rw [List.mem_singleton] at h; subst h
    exact Finset.mem_image.mpr ⟨6, Finset.mem_univ _, rfl⟩)

set_option backward.isDefEq.respectTransparency.types false in
/-- Region 1 over the thread state, as region 0. -/
def reg1 : Pipeline.RegionSeg (pcfgs (F := F)) adm (pdats m) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (ent1 m) q1 c).loose
  hwaits := Pipeline.hwaits_of_owed_zero _ _ _ _ Ln lvn 1 fun _ _ => rfl
  pre c := iprop(StableHlo.held (c : Thread nD τ) (Pipeline.ucRefs τ sig) (V7 m (outsA m) c) ∗ Ride c)
  post c := iprop(StableHlo.held (c : Thread nD τ) (Pipeline.ucRefs τ sig) (V8 m (outs m) c) ∗ Ride c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (ent1 m c) (fun b => V8 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2: two windows on one array -/

/-- The share each window of region 2 holds its array at: the two windows on the second layer's result a half each, every
    other window (the result's included) the whole. -/
theorem share2 (c : Dev nD) (w : Fin cfg2.W) : (dat2 (ent2 m) q2 c).share w = q2 w := by
  unfold Pipeline.Dat.share
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl

/-- Region 2's windowed arrays, each a whole buffer held at its window's share. -/
theorem arrays2_eq (c : Dev nD) (Fa : (w : Fin cfg2.W) → Buf (Elt F) ((cfg2.win w).arr.view.loc (c : Thread nD τ))) :
    (dat2 (ent2 m) q2 c).arrays Fa = bigSep Finset.univ fun w : Fin cfg2.W =>
      ((((c : Thread nD τ).loc (Pipeline.arrRef spec2 w)) ↦{q2 w} Fa w : sProp 𝕄)) := by
  unfold Pipeline.Dat.arrays
  exact bigSep_congr fun w _ => by rw [(arr_whole2 w).set_eq_univ, share2]

/-- The twelve buffers behind region 2's thirteen windows. -/
theorem arrRefs2 : Finset.univ.image (Pipeline.arrRef spec2) = ({main_v33, main_v45, main_v18, main_arg11, main_v49, main_arg13, main_v50, main_v46, main_v47, main_v48, main_v51, main_v52} : Finset (Ref sig .tc)) := by decide

/-- A product over those twelve buffers, written out. -/
theorem bigSep_refs2 {M : Type} [URA M] (Φ : Ref sig .tc → sProp M) :
    bigSep ({main_v33, main_v45, main_v18, main_arg11, main_v49, main_arg13, main_v50, main_v46, main_v47, main_v48, main_v51, main_v52} : Finset (Ref sig .tc)) Φ = iprop(Φ main_v33 ∗ Φ main_v45 ∗ Φ main_v18 ∗ Φ main_arg11 ∗ Φ main_v49 ∗ Φ main_arg13 ∗ Φ main_v50 ∗ Φ main_v46 ∗ Φ main_v47 ∗ Φ main_v48 ∗ Φ main_v51 ∗ Φ main_v52) := by
  rw [bigSep_insert (by decide : main_v33 ∉ ({main_v45, main_v18, main_arg11, main_v49, main_arg13, main_v50, main_v46, main_v47, main_v48, main_v51, main_v52} : Finset (Ref sig .tc))),
    bigSep_insert (by decide : main_v45 ∉ ({main_v18, main_arg11, main_v49, main_arg13, main_v50, main_v46, main_v47, main_v48, main_v51, main_v52} : Finset (Ref sig .tc))),
    bigSep_insert (by decide : main_v18 ∉ ({main_arg11, main_v49, main_arg13, main_v50, main_v46, main_v47, main_v48, main_v51, main_v52} : Finset (Ref sig .tc))),
    bigSep_insert (by decide : main_arg11 ∉ ({main_v49, main_arg13, main_v50, main_v46, main_v47, main_v48, main_v51, main_v52} : Finset (Ref sig .tc))),
    bigSep_insert (by decide : main_v49 ∉ ({main_arg13, main_v50, main_v46, main_v47, main_v48, main_v51, main_v52} : Finset (Ref sig .tc))),
    bigSep_insert (by decide : main_arg13 ∉ ({main_v50, main_v46, main_v47, main_v48, main_v51, main_v52} : Finset (Ref sig .tc))),
    bigSep_insert (by decide : main_v50 ∉ ({main_v46, main_v47, main_v48, main_v51, main_v52} : Finset (Ref sig .tc))),
    bigSep_insert (by decide : main_v46 ∉ ({main_v47, main_v48, main_v51, main_v52} : Finset (Ref sig .tc))),
    bigSep_insert (by decide : main_v47 ∉ ({main_v48, main_v51, main_v52} : Finset (Ref sig .tc))),
    bigSep_insert (by decide : main_v48 ∉ ({main_v51, main_v52} : Finset (Ref sig .tc))),
    bigSep_insert (by decide : main_v51 ∉ ({main_v52} : Finset (Ref sig .tc))),
    bigSep_singleton]
  rfl

/-- Twelve resources against thirteen: when the first of the twelve is worth the first and the fourth of the thirteen
    together and every other one is its counterpart, the two products are worth the same. -/
theorem refs_windows {M : Type} [URA M] (Φ : Ref sig .tc → sProp M) (Ψ : Fin 13 → sProp M)
    (h0 : Φ main_v33 ⊣⊢ iprop(Ψ 0 ∗ Ψ 3))
    (h1 : Φ main_v45 = Ψ 1) (h2 : Φ main_v18 = Ψ 2) (h4 : Φ main_arg11 = Ψ 4) (h5 : Φ main_v49 = Ψ 5) (h6 : Φ main_arg13 = Ψ 6) (h7 : Φ main_v50 = Ψ 7) (h8 : Φ main_v46 = Ψ 8) (h9 : Φ main_v47 = Ψ 9) (h10 : Φ main_v48 = Ψ 10) (h11 : Φ main_v51 = Ψ 11) (h12 : Φ main_v52 = Ψ 12) :
    bigSep ({main_v33, main_v45, main_v18, main_arg11, main_v49, main_arg13, main_v50, main_v46, main_v47, main_v48, main_v51, main_v52} : Finset (Ref sig .tc)) Φ ⊣⊢ bigSep Finset.univ Ψ := by
  rw [bigSep_refs2, bigSep_W2, h1, h2, h4, h5, h6, h7, h8, h9, h10, h11, h12]
  refine ⟨?_, ?_⟩
  · iintro ⟨H0, H1, H2, H4, H5, H6, H7, H8, H9, H10, H11, H12⟩
    ihave Hs := h0.mp $$ H0
    icases Hs with ⟨Hl, Hr⟩
    isplitl [Hl]; · iexact Hl
    isplitl [H1]; · iexact H1
    isplitl [H2]; · iexact H2
    isplitl [Hr]; · iexact Hr
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iintro ⟨Hl, H1, H2, Hr, H4, H5, H6, H7, H8, H9, H10, H11, H12⟩
    isplitl [Hl Hr]
    · iapply h0.mpr; isplitl [Hl]; · iexact Hl
      iexact Hr
    isplitl [H1]; · iexact H1
    isplitl [H2]; · iexact H2
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

set_option maxHeartbeats 4000000 in
/-- The buffers behind region 2's arrays, each whole at the full share, ARE its windowed arrays at the same contents: the
    buffer two windows read is split into its two halves (and joined again, read the other way). -/
theorem arrays2_split (c : Dev nD) (V : (b : Ref sig .tc) → Buf (Elt F) ((c : Thread nD τ).loc b))
    (Fa : (w : Fin cfg2.W) → Buf (Elt F) ((cfg2.win w).arr.view.loc (c : Thread nD τ))) (hFa : ∀ w, Fa w = V (Pipeline.arrRef spec2 w)) :
    (Pipeline.arrBufs spec2 c V : sProp 𝕄) ⊣⊢ (dat2 (ent2 m) q2 c).arrays Fa := by
  rw [arrays2_eq]; unfold Pipeline.arrBufs; rw [arrRefs2]
  have h0 : ((((c : Thread nD τ).loc main_v33) ↦{fullShare} V main_v33 : sProp 𝕄))
      ⊣⊢ iprop((((c : Thread nD τ).loc (Pipeline.arrRef spec2 0)) ↦{q2 0} Fa 0) ∗ (((c : Thread nD τ).loc (Pipeline.arrRef spec2 3)) ↦{q2 3} Fa 3)) := by
    rw [hFa 0, hFa 3]
    exact pointsTo_share (PosShare.mem_left_op_right fullShare)
  have h1 : ((((c : Thread nD τ).loc main_v45) ↦{fullShare} V main_v45 : sProp 𝕄))
      = (((c : Thread nD τ).loc (Pipeline.arrRef spec2 1)) ↦{q2 1} Fa 1) := by rw [hFa 1]; rfl
  have h2 : ((((c : Thread nD τ).loc main_v18) ↦{fullShare} V main_v18 : sProp 𝕄))
      = (((c : Thread nD τ).loc (Pipeline.arrRef spec2 2)) ↦{q2 2} Fa 2) := by rw [hFa 2]; rfl
  have h4 : ((((c : Thread nD τ).loc main_arg11) ↦{fullShare} V main_arg11 : sProp 𝕄))
      = (((c : Thread nD τ).loc (Pipeline.arrRef spec2 4)) ↦{q2 4} Fa 4) := by rw [hFa 4]; rfl
  have h5 : ((((c : Thread nD τ).loc main_v49) ↦{fullShare} V main_v49 : sProp 𝕄))
      = (((c : Thread nD τ).loc (Pipeline.arrRef spec2 5)) ↦{q2 5} Fa 5) := by rw [hFa 5]; rfl
  have h6 : ((((c : Thread nD τ).loc main_arg13) ↦{fullShare} V main_arg13 : sProp 𝕄))
      = (((c : Thread nD τ).loc (Pipeline.arrRef spec2 6)) ↦{q2 6} Fa 6) := by rw [hFa 6]; rfl
  have h7 : ((((c : Thread nD τ).loc main_v50) ↦{fullShare} V main_v50 : sProp 𝕄))
      = (((c : Thread nD τ).loc (Pipeline.arrRef spec2 7)) ↦{q2 7} Fa 7) := by rw [hFa 7]; rfl
  have h8 : ((((c : Thread nD τ).loc main_v46) ↦{fullShare} V main_v46 : sProp 𝕄))
      = (((c : Thread nD τ).loc (Pipeline.arrRef spec2 8)) ↦{q2 8} Fa 8) := by rw [hFa 8]; rfl
  have h9 : ((((c : Thread nD τ).loc main_v47) ↦{fullShare} V main_v47 : sProp 𝕄))
      = (((c : Thread nD τ).loc (Pipeline.arrRef spec2 9)) ↦{q2 9} Fa 9) := by rw [hFa 9]; rfl
  have h10 : ((((c : Thread nD τ).loc main_v48) ↦{fullShare} V main_v48 : sProp 𝕄))
      = (((c : Thread nD τ).loc (Pipeline.arrRef spec2 10)) ↦{q2 10} Fa 10) := by rw [hFa 10]; rfl
  have h11 : ((((c : Thread nD τ).loc main_v51) ↦{fullShare} V main_v51 : sProp 𝕄))
      = (((c : Thread nD τ).loc (Pipeline.arrRef spec2 11)) ↦{q2 11} Fa 11) := by rw [hFa 11]; rfl
  have h12 : ((((c : Thread nD τ).loc main_v52) ↦{fullShare} V main_v52 : sProp 𝕄))
      = (((c : Thread nD τ).loc (Pipeline.arrRef spec2 12)) ↦{q2 12} Fa 12) := by rw [hFa 12]; rfl
  exact refs_windows (fun b => (((c : Thread nD τ).loc b) ↦{fullShare} V b : sProp 𝕄))
    (fun w : Fin 13 => ((((c : Thread nD τ).loc (Pipeline.arrRef spec2 w)) ↦{q2 w} Fa w : sProp 𝕄))) h0 h1 h2 h4 h5 h6 h7 h8 h9 h10 h11 h12

/-- Off region 2's result buffer the contents after it are its entry contents. -/
theorem V12_ent2 (c : Dev nD) (r : Ref sig .tc) (h : r ∉ ([main_v52] : List (Ref sig .tc))) : V12 m (outs m) c r = ent2 m c r :=
  (V12_of m (outs m) c r h).trans (congrFun (V11_outs m c) _)

set_option maxHeartbeats 8000000 in
/-- At region 2's exit each of its arrays holds what the write-backs leave: the twelve inputs as entered, the result buffer
    the named contents. -/
theorem hF2 (c : Dev nD) (w : Fin cfg2.W) :
    (dat2 (ent2 m) q2 c).arrAt w cfg2.N = V12 m (outs m) c (Pipeline.arrRef spec2 w) := by
  match w with
  | ⟨0, _⟩ => exact ((dat2 (ent2 m) q2 c).arrAt_in 0 rfl _).trans ((A_eq2 (ent2 m) q2 c 0).trans (V12_ent2 m c _ (by decide)).symm)
  | ⟨1, _⟩ => exact ((dat2 (ent2 m) q2 c).arrAt_in 1 rfl _).trans ((A_eq2 (ent2 m) q2 c 1).trans (V12_ent2 m c _ (by decide)).symm)
  | ⟨2, _⟩ => exact ((dat2 (ent2 m) q2 c).arrAt_in 2 rfl _).trans ((A_eq2 (ent2 m) q2 c 2).trans (V12_ent2 m c _ (by decide)).symm)
  | ⟨3, _⟩ => exact ((dat2 (ent2 m) q2 c).arrAt_in 3 rfl _).trans ((A_eq2 (ent2 m) q2 c 3).trans (V12_ent2 m c _ (by decide)).symm)
  | ⟨4, _⟩ => exact ((dat2 (ent2 m) q2 c).arrAt_in 4 rfl _).trans ((A_eq2 (ent2 m) q2 c 4).trans (V12_ent2 m c _ (by decide)).symm)
  | ⟨5, _⟩ => exact ((dat2 (ent2 m) q2 c).arrAt_in 5 rfl _).trans ((A_eq2 (ent2 m) q2 c 5).trans (V12_ent2 m c _ (by decide)).symm)
  | ⟨6, _⟩ => exact ((dat2 (ent2 m) q2 c).arrAt_in 6 rfl _).trans ((A_eq2 (ent2 m) q2 c 6).trans (V12_ent2 m c _ (by decide)).symm)
  | ⟨7, _⟩ => exact ((dat2 (ent2 m) q2 c).arrAt_in 7 rfl _).trans ((A_eq2 (ent2 m) q2 c 7).trans (V12_ent2 m c _ (by decide)).symm)
  | ⟨8, _⟩ => exact ((dat2 (ent2 m) q2 c).arrAt_in 8 rfl _).trans ((A_eq2 (ent2 m) q2 c 8).trans (V12_ent2 m c _ (by decide)).symm)
  | ⟨9, _⟩ => exact ((dat2 (ent2 m) q2 c).arrAt_in 9 rfl _).trans ((A_eq2 (ent2 m) q2 c 9).trans (V12_ent2 m c _ (by decide)).symm)
  | ⟨10, _⟩ => exact ((dat2 (ent2 m) q2 c).arrAt_in 10 rfl _).trans ((A_eq2 (ent2 m) q2 c 10).trans (V12_ent2 m c _ (by decide)).symm)
  | ⟨11, _⟩ => exact ((dat2 (ent2 m) q2 c).arrAt_in 11 rfl _).trans ((A_eq2 (ent2 m) q2 c 11).trans (V12_ent2 m c _ (by decide)).symm)
  | ⟨12, _⟩ =>
    rw [show V12 m (outs m) c (Pipeline.arrRef spec2 12) = outs m 12 main_v52 c from Function.update_self ..]
    rw [outs_v52]; rfl
theorem hrest2 (c : Dev nD) (b : Ref sig .tc) (hb : b ∉ Finset.univ.image (Pipeline.arrRef spec2)) :
    V12 m (outs m) c b = ent2 m c b :=
  V12_ent2 m c b fun h => hb (by
    rw [List.mem_singleton] at h; subst h
    exact Finset.mem_image.mpr ⟨12, Finset.mem_univ _, rfl⟩)

set_option maxHeartbeats 4000000 in
/-- Entry of region 2: the core's unscoped buffers at the entry contents are the region's windowed arrays (the shared buffer
    in two halves) and the rest. -/
theorem entry2 (c : Dev nD) : (unscopedBufs c (ent2 m c) : sProp 𝕄)
    ⊢ iprop((pdats m 2 c).arrays ((pdats m 2 c).arrAt · 0) ∗ Pipeline.unscopedRest spec2 c (ent2 m c)) := by
  show _ ⊢ iprop((dat2 (ent2 m) q2 c).arrays ((dat2 (ent2 m) q2 c).arrAt · 0) ∗ Pipeline.unscopedRest spec2 c (ent2 m c))
  rw [Pipeline.unscopedBufs_split₀ cfgs 2 winFacts₀2.arr_unscoped c (ent2 m c)]
  exact sep_mono (arrays2_split m c (ent2 m c) _ (fun _ => rfl)).mp .rfl

set_option maxHeartbeats 4000000 in
/-- Exit of region 2: the windowed arrays at their final contents (the two halves of the shared buffer joined) and the rest
    are the core's unscoped buffers at the contents after the region. -/
theorem exit2 (c : Dev nD) :
    iprop((pdats m 2 c).arrays ((pdats m 2 c).arrAt · cfg2.N) ∗ Pipeline.unscopedRest spec2 c (ent2 m c))
      ⊢ (unscopedBufs c (fun b => V12 m (outs m) c b) : sProp 𝕄) := by
  show iprop((dat2 (ent2 m) q2 c).arrays ((dat2 (ent2 m) q2 c).arrAt · cfg2.N) ∗ Pipeline.unscopedRest spec2 c (ent2 m c)) ⊢ _
  rw [Pipeline.unscopedBufs_split₀ cfgs 2 winFacts₀2.arr_unscoped c (fun b => V12 m (outs m) c b)]
  refine sep_mono (arrays2_split m c (fun b => V12 m (outs m) c b) _ (hF2 m c)).mpr (Entails.of_eq ?_)
  unfold Pipeline.unscopedRest
  exact bigSep_congr fun b hb =>
    congrArg (fun v => ((((c : Thread nD τ).loc b) ↦{fullShare} v : sProp 𝕄))) (hrest2 m c b (Finset.mem_sdiff.mp hb).2).symm

set_option maxHeartbeats 4000000 in
set_option backward.isDefEq.respectTransparency.types false in
/-- Region 2 over the thread state. As regions 0 and 1, except that the buffer two of its windows read goes in as two
    halves and comes back whole. -/
def reg2 : Pipeline.RegionSeg (pcfgs (F := F)) adm (pdats m) () defs₀ 𝒱n Ln lvn 2 where
  win := winFacts₀2
  block_pos := block_pos2
  stage_whole := stage_whole2
  K := PEmpty
  osem k := k.elim
  ho := Pipeline.OwnSemFacts.none _
  hbody c := (body_obligation2 (ent2 m) q2 c).loose
  hwaits := Pipeline.hwaits_of_owed_zero _ _ _ _ Ln lvn 2 fun _ _ => rfl
  pre c := iprop(StableHlo.held (c : Thread nD τ) (Pipeline.ucRefs τ sig) (V11 m (outsB m) c) ∗ Ride c)
  post c := iprop(StableHlo.held (c : Thread nD τ) (Pipeline.ucRefs τ sig) (V12 m (outs m) c) ∗ Ride c)
  X c := iprop(∃ r, prngReg c r)
  Y c := iprop(∃ r, prngReg c r)
  Z c := Pipeline.unscopedRest (Ix := Unit) (Name := ℕ) (U := UR sig nD τ) (Lvl := ℕ) spec2 c (ent2 m c)
  hentry c := by
    rw [Pipeline.ownSems0_none]
    have hsplit := entry2 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.IdealRun.lean ====
/-
  The run of the whole program at the ideal instance: from any memory with zero counters every weakly fair execution terminates without a
  fault, and every unscoped buffer ends at the contents the twelve items of the main function leave in order. Two readings
  of that: every argument array ends as launched (no item writes one), and the final result buffer holds what the third
  region's write-backs leave.
-/
import proofs.«113067_j58007828300389_2_alg».proof.Proof.IdealSegs

set_option maxRecDepth 16384

noncomputable section

namespace Cert.KernelIdeal.Whole

open Cert.KernelIdeal Cert.KernelIdeal.Gen Cert.KernelIdeal.Reg0 Cert.KernelIdeal.Reg1 Cert.KernelIdeal.Reg2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- @main's twelve items as segments: the nine host stretches over the contents between items, the three regions' records. -/
abbrev items (c : Dev nD) := segs m (outs m) 𝒱n Ln lvn (fun _ => Ride (F := F)) () (pdats m) (reg0 m) (reg1 m) (reg2 m) c

/-- After the last region: the generator register is set beside the buffers, and the core owes nothing. -/
theorem last_step (c : Dev nD) :
    iprop(StableHlo.held (c : Thread nD τ) (Pipeline.ucRefs τ sig) (V12 m (outs m) c) ∗ Ride c)
      ⊢ (iprop((StableHlo.held (c : Thread nD τ) (Pipeline.ucRefs τ sig) (V12 m (outs m) c) ∗ ∃ r, prngReg c r)
          ∗ ∃ W, owes (c : Thread nD τ) (0 : CellTallies nD τ sig Unit) W) : sProp 𝕄) := by
  iintro ⟨Hh, Hp, HO⟩
  isplitr [HO]
  · isplitl [Hh]
    · iexact Hh
    iexact Hp
  iexact HO

set_option backward.isDefEq.respectTransparency.types false in
/-- THE RUN. From any memory with zero counters every weakly fair execution of @main terminates, nothing faulting, and
    in every final memory each unscoped buffer of each core holds the contents the twelve items leave in order: the host
    stretches' operations applied to what they find, each region's result buffer at the write-backs of all its points. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V12 m (outs m) c b) :=
  Pipeline.θ_run_regions_kit_dev (pcfgs (F := F)) adm (pdats m) () cellOf_inj emb₁ defs₀ 𝒱n Ln lvn m ρ main
    (items m)
    (fun c Q => by
      rewrite [main_chain c, Pipeline.Seg.run_eq_chain,
        show (items m c).map Pipeline.Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          Prog.lift (.customCall (Pipeline.entry 2) ()) ] from rfl]
      exact .rfl)
    (fun c => by simp only [items, segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Ride c))
    (Tₙ := fun c => iprop(StableHlo.held (c : Thread nD τ) (Pipeline.ucRefs τ sig) (V12 m (outs m) c) ∗ ∃ r, prngReg c r))
    (hch := fun c => ⟨.rfl, .rfl, .rfl, .rfl, .rfl, .rfl, .rfl,
      (by show iprop(StableHlo.held (c : Thread nD τ) (Pipeline.ucRefs τ sig) (V7 m (outs m) c) ∗ Ride c) ⊢ iprop(StableHlo.held (c : Thread nD τ) (Pipeline.ucRefs τ sig) (V7 m (outsA m) c) ∗ Ride c)
          rw [V7_outs m c]), .rfl, .rfl, .rfl,
      (by show iprop(StableHlo.held (c : Thread nD τ) (Pipeline.ucRefs τ sig) (V11 m (outs m) c) ∗ Ride c) ⊢ iprop(StableHlo.held (c : Thread nD τ) (Pipeline.ucRefs τ sig) (V11 m (outsB m) c) ∗ Ride c)
          rw [V11_outs m c]),
      last_step m c⟩)
    (hinit := by
      refine Pipeline.initEach Ln lvn fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V12 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V12 m (outs m) c) s')
      isplitl [Hh] <;> iassumption)
    (hQ := fun s h => h)

/-- The frame: every argument array ends as launched (no item writes one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c _ (mem_uc main_arg0 (by decide))).trans (V12_main_arg0 m (outs m) c),
    (h c _ (mem_uc main_arg1 (by decide))).trans (V12_main_arg1 m (outs m) c),
    (h c _ (mem_uc main_arg2 (by decide))).trans (V12_main_arg2 m (outs m) c),
    (h c _ (mem_uc main_arg3 (by decide))).trans (V12_main_arg3 m (outs m) c),
    (h c _ (mem_uc main_arg4 (by decide))).trans (V12_main_arg4 m (outs m) c),
    (h c _ (mem_uc main_arg5 (by decide))).trans (V12_main_arg5 m (outs m) c),
    (h c _ (mem_uc main_arg6 (by decide))).trans (V12_main_arg6 m (outs m) c),
    (h c _ (mem_uc main_arg7 (by decide))).trans (V12_main_arg7 m (outs m) c),
    (h c _ (mem_uc main_arg8 (by decide))).trans (V12_main_arg8 m (outs m) c),
    (h c _ (mem_uc main_arg9 (by decide))).trans (V12_main_arg9 m (outs m) c),
    (h c _ (mem_uc main_arg10 (by decide))).trans (V12_main_arg10 m (outs m) c),
    (h c _ (mem_uc main_arg11 (by decide))).trans (V12_main_arg11 m (outs m) c),
    (h c _ (mem_uc main_arg12 (by decide))).trans (V12_main_arg12 m (outs m) c),
    (h c _ (mem_uc main_arg13 (by decide))).trans (V12_main_arg13 m (outs m) c),
    (h c _ (mem_uc main_arg14 (by decide))).trans (V12_main_arg14 m (outs m) c),
    (h c _ (mem_uc main_arg15 (by decide))).trans (V12_main_arg15 m (outs m) c),
    (h c _ (mem_uc main_arg16 (by decide))).trans (V12_main_arg16 m (outs m) c)⟩) (run_all m ρ)

/-- The run with the result named: the final result buffer holds what the last region's write-backs leave, and every
    argument array ends as launched. -/
theorem run_value : θ_run defs (onTc (τ := τ) (main (F := F))) ⟨m, fun _ => 0, ρ⟩ (fun r => ∀ c : Dev nD,
      r.2.mem ((c.tc : Thread nD τ).loc main_v52) = o12 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c _ (mem_uc main_v52 (by decide))).trans
      ((show V12 m (outs m) c main_v52 = outs m 12 main_v52 c from Function.update_self ..).trans (outs_v52 m 12 c)),
    (h c _ (mem_uc main_arg0 (by decide))).trans (V12_main_arg0 m (outs m) c),
    (h c _ (mem_uc main_arg1 (by decide))).trans (V12_main_arg1 m (outs m) c),
    (h c _ (mem_uc main_arg2 (by decide))).trans (V12_main_arg2 m (outs m) c),
    (h c _ (mem_uc main_arg3 (by decide))).trans (V12_main_arg3 m (outs m) c),
    (h c _ (mem_uc main_arg4 (by decide))).trans (V12_main_arg4 m (outs m) c),
    (h c _ (mem_uc main_arg5 (by decide))).trans (V12_main_arg5 m (outs m) c),
    (h c _ (mem_uc main_arg6 (by decide))).trans (V12_main_arg6 m (outs m) c),
    (h c _ (mem_uc main_arg7 (by decide))).trans (V12_main_arg7 m (outs m) c),
    (h c _ (mem_uc main_arg8 (by decide))).trans (V12_main_arg8 m (outs m) c),
    (h c _ (mem_uc main_arg9 (by decide))).trans (V12_main_arg9 m (outs m) c),
    (h c _ (mem_uc main_arg10 (by decide))).trans (V12_main_arg10 m (outs m) c),
    (h c _ (mem_uc main_arg11 (by decide))).trans (V12_main_arg11 m (outs m) c),
    (h c _ (mem_uc main_arg12 (by decide))).trans (V12_main_arg12 m (outs m) c),
    (h c _ (mem_uc main_arg13 (by decide))).trans (V12_main_arg13 m (outs m) c),
    (h c _ (mem_uc main_arg14 (by decide))).trans (V12_main_arg14 m (outs m) c),
    (h c _ (mem_uc main_arg15 (by decide))).trans (V12_main_arg15 m (outs m) c),
    (h c _ (mem_uc main_arg16 (by decide))).trans (V12_main_arg16 m (outs m) c)⟩) (run_all m ρ)

end Cert.KernelIdeal.Whole

end
-- ==== Proof.GineSpec.lean ====
/-
  The specification of a three-layer GINE network with a jumping-knowledge ("concatenate") read-out, over the
  literal shapes of this problem and at the ideal instance (a float is an extended real, every operation the
  textbook one). No program is imported here: both programs are compared with these definitions.

  One layer maps node features x (50000 × 128) to
      relu (relu ((x + agg x) · W1 + b1) · W2 + b2),
  where agg x sums, into each destination node, relu (x[src e] + edge_attr e) over the edges e that end there.
  The aggregation is kept as ONE opaque whole-array term (a gather, a pointwise relu, a scatter-add): both
  programs compute it by the same host operations, so it is only ever matched, never opened. The dense part is
  stated index by index. The read-out is relu ([x₀ | x₁ | x₂] · Wc + bc), stated here in the arrangement
  "three sums of 128 terms", with the lemma that it is the single sum of 384 terms over the concatenation:
  only associativity and commutativity of + on the extended reals are used, so infinite entries are harmless.
-/
import Idealize.ShloMosaic.PureOps.Ideal.Laws
import Idealize.ShloMosaic.Lib.ValueIdx
import Mathlib.Algebra.BigOperators.Fin

noncomputable section

open scoped BigOperators

namespace Cert.GineSpec

open Idealize.ShloMosaic Idealize.ShloMosaic.ValueIdx

/-! ## Shapes -/

abbrev S50000x128 : Shape := ⟨2, ![50000, 128]⟩
abbrev S2x600000 : Shape := ⟨2, ![2, 600000]⟩
abbrev S600000x128 : Shape := ⟨2, ![600000, 128]⟩
abbrev S128x128 : Shape := ⟨2, ![128, 128]⟩
abbrev S128 : Shape := ⟨1, ![128]⟩
abbrev S384x128 : Shape := ⟨2, ![384, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩

/-! ## The edge aggregation, as one whole-array term -/

/-- `x[idx]` along the node axis: row `idx e` of the node features for every edge `e`. -/
def gatherRows : GatherDims S50000x128 S600000x1 S600000x128 where
  offsetDims := [1]
  collapsedSliceDims := [0]
  operandBatchingDims := []
  startIndicesBatchingDims := []
  startIndexMap := [0]
  indexVectorDim := 1
  sliceSizes := ![1, 128]

/-- `segment_sum` over the node axis: row `e` of the messages is added into row `idx e` of the result. -/
def scatterRows : ScatterDims S50000x128 S600000x1 S600000x128 where
  updateWindowDims := [1]
  insertedWindowDims := [0]
  scatterDimsToOperandDims := [0]
  indexVectorDim := 1

/-- The source node of every edge (row 0 of `edge_index`), a negative index counted from the end, as a column. -/
def srcIdx (ei : IVec S2x600000 32) : IVec S600000x1 32 :=
  broadcastInDim S600000x1 ![0] (by decide)
    (select
      (cmpi .slt (shapeCast S600000 (extractStridedSlice S1x600000 ![0, 0] ei))
        (broadcastInDim S600000 ![] (by decide) (constantI S_ 32 0#32)))
      (addi (shapeCast S600000 (extractStridedSlice S1x600000 ![0, 0] ei))
        (broadcastInDim S600000 ![] (by decide) (constantI S_ 32 50000#32)))
      (shapeCast S600000 (extractStridedSlice S1x600000 ![0, 0] ei)))

/-- The destination node of every edge (row 1 of `edge_index`), as a column. -/
def dstIdx (ei : IVec S2x600000 32) : IVec S600000x1 32 :=
  broadcastInDim S600000x1 ![0] (by decide) (shapeCast S600000 (extractStridedSlice S1x600000 ![1, 0] ei))

/-- `agg x`: into a zero array, for every edge `e`, `relu (x[src e] + edge_attr e)` is added at row `dst e`. -/
def agg (x : FVec Ideal S50000x128 .f32) (ei : IVec S2x600000 32) (ea : FVec Ideal S600000x128 .f32) :
    FVec Ideal S50000x128 .f32 :=
  Host.scatterAdd scatterRows
    (broadcastInDim S50000x128 ![] (by decide) (constant (F := Ideal) S_ .f32 0x00000000#32))
    (dstIdx ei)
    (maximumf (addf (Host.gather gatherRows x (srcIdx ei)) ea)
      (broadcastInDim S600000x128 ![] (by decide) (constant (F := Ideal) S_ .f32 0x00000000#32)))

/-! ## The dense part of a layer, index by index -/

/-- Entry `(p, q)` of `relu (relu ((x + a) · W1 + b1) · W2 + b2)`. -/
def mlpAt (x a : FVec Ideal S50000x128 .f32) (W1 : FVec Ideal S128x128 .f32) (b1 : FVec Ideal S128 .f32)
    (W2 : FVec Ideal S128x128 .f32) (b2 : FVec Ideal S128 .f32) (p : Fin 50000) (q : Fin 128) : EReal :=
  max (∑ k : Fin 128,
        max (∑ l : Fin 128, (x (ix2 p l) + a (ix2 p l)) * W1 (ix2 l k) + b1 (ix1 k)) 0 * W2 (ix2 k q)
      + b2 (ix1 q)) 0

/-- `relu (relu ((x + a) · W1 + b1) · W2 + b2)` as an array. -/
def mlp (x a : FVec Ideal S50000x128 .f32) (W1 : FVec Ideal S128x128 .f32) (b1 : FVec Ideal S128 .f32)
    (W2 : FVec Ideal S128x128 .f32) (b2 : FVec Ideal S128 .f32) : FVec Ideal S50000x128 .f32 :=
  fun i => mlpAt x a W1 b1 W2 b2 (i 0) (i 1)

theorem mlp_ix2 (x a : FVec Ideal S50000x128 .f32) (W1 : FVec Ideal S128x128 .f32) (b1 : FVec Ideal S128 .f32)
    (W2 : FVec Ideal S128x128 .f32) (b2 : FVec Ideal S128 .f32) (p : Fin 50000) (q : Fin 128) :
    mlp x a W1 b1 W2 b2 (ix2 p q) = mlpAt x a W1 b1 W2 b2 p q := rfl

/-- One GINE layer: the dense part applied to the features and their aggregation. -/
def layer (x : FVec Ideal S50000x128 .f32) (ei : IVec S2x600000 32) (ea : FVec Ideal S600000x128 .f32)
    (W1 : FVec Ideal S128x128 .f32) (b1 : FVec Ideal S128 .f32) (W2 : FVec Ideal S128x128 .f32)
    (b2 : FVec Ideal S128 .f32) : FVec Ideal S50000x128 .f32 :=
  mlp x (agg x ei ea) W1 b1 W2 b2

/-! ## The read-out -/

/-- Row `k` of the first, second and third block of 128 rows of a 384-row matrix. -/
abbrev blk0 (k : Fin 128) : Fin 384 := ⟨k.val, by omega⟩
abbrev blk1 (k : Fin 128) : Fin 384 := ⟨128 + k.val, by omega⟩
abbrev blk2 (k : Fin 128) : Fin 384 := ⟨256 + k.val, by omega⟩

/-- A sum over 384 positions is the sum over its three blocks of 128, in any additive commutative monoid. -/
theorem sum384_blocks {M : Type*} [AddCommMonoid M] (f : Fin 384 → M) :
    ∑ k : Fin 384, f k
      = (∑ k : Fin 128, f (blk0 k) + ∑ k : Fin 128, f (blk1 k)) + ∑ k : Fin 128, f (blk2 k) := by
  have e : ∑ k : Fin 384, f k = ∑ k : Fin (128 + 128 + 128), f k := rfl
  rw [e, Fin.sum_univ_add, Fin.sum_univ_add]
  rfl

/-- Entry `(p, q)` of `relu (x₀ · Wc[0:128] + x₁ · Wc[128:256] + x₂ · Wc[256:384] + bc)`, the three products
    added in this order and the bias last. -/
def jkAt (x0 x1 x2 : FVec Ideal S50000x128 .f32) (Wc : FVec Ideal S384x128 .f32) (bc : FVec Ideal S128 .f32)
    (p : Fin 50000) (q : Fin 128) : EReal :=
  max (((∑ k : Fin 128, x0 (ix2 p k) * Wc (ix2 (blk0 k) q)
        + ∑ k : Fin 128, x1 (ix2 p k) * Wc (ix2 (blk1 k) q))
        + ∑ k : Fin 128, x2 (ix2 p k) * Wc (ix2 (blk2 k) q))
      + bc (ix1 q)) 0

/-- The read-out as an array. -/
def jk (x0 x1 x2 : FVec Ideal S50000x128 .f32) (Wc : FVec Ideal S384x128 .f32) (bc : FVec Ideal S128 .f32) :
    FVec Ideal S50000x128 .f32 :=
  fun i => jkAt x0 x1 x2 Wc bc (i 0) (i 1)

theorem jk_ix2 (x0 x1 x2 : FVec Ideal S50000x128 .f32) (Wc : FVec Ideal S384x128 .f32) (bc : FVec Ideal S128 .f32)
    (p : Fin 50000) (q : Fin 128) : jk x0 x1 x2 Wc bc (ix2 p q) = jkAt x0 x1 x2 Wc bc p q := rfl

/-- The read-out is `relu (c · Wc + bc)` with ONE sum of 384 terms, for any row `c` of 384 entries whose three
    blocks are row `p` of `x₀`, `x₁`, `x₂` (row `p` of their concatenation). Only the regrouping of a sum is
    used: nothing is assumed finite. -/
theorem sum384_eq_jkAt (x0 x1 x2 : FVec Ideal S50000x128 .f32) (Wc : FVec Ideal S384x128 .f32)
    (bc : FVec Ideal S128 .f32) (p : Fin 50000) (q : Fin 128) (c : Fin 384 → EReal)
    (h0 : ∀ k : Fin 128, c (blk0 k) = x0 (ix2 p k)) (h1 : ∀ k : Fin 128, c (blk1 k) = x1 (ix2 p k))
    (h2 : ∀ k : Fin 128, c (blk2 k) = x2 (ix2 p k)) :
    max (∑ k : Fin 384, c k * Wc (ix2 k q) + bc (ix1 q)) 0 = jkAt x0 x1 x2 Wc bc p q := by
  rw [sum384_blocks]
  simp only [h0, h1, h2]
  rfl

/-! ## The network -/

/-- The result of the network as a function of its seventeen arguments: three layers, each fed the previous
    layer's features and the same edges, then the read-out over the three layers' features. -/
def out (x : FVec Ideal S50000x128 .f32) (ei : IVec S2x600000 32) (ea : FVec Ideal S600000x128 .f32)
    (W1_0 : FVec Ideal S128x128 .f32) (b1_0 : FVec Ideal S128 .f32) (W2_0 : FVec Ideal S128x128 .f32) (b2_0 : FVec Ideal S128 .f32)
    (W1_1 : FVec Ideal S128x128 .f32) (b1_1 : FVec Ideal S128 .f32) (W2_1 : FVec Ideal S128x128 .f32) (b2_1 : FVec Ideal S128 .f32)
    (W1_2 : FVec Ideal S128x128 .f32) (b1_2 : FVec Ideal S128 .f32) (W2_2 : FVec Ideal S128x128 .f32) (b2_2 : FVec Ideal S128 .f32)
    (Wc : FVec Ideal S384x128 .f32) (bc : FVec Ideal S128 .f32) : FVec Ideal S50000x128 .f32 :=
  jk (layer x ei ea W1_0 b1_0 W2_0 b2_0)
    (layer (layer x ei ea W1_0 b1_0 W2_0 b2_0) ei ea W1_1 b1_1 W2_1 b2_1)
    (layer (layer (layer x ei ea W1_0 b1_0 W2_0 b2_0) ei ea W1_1 b1_1 W2_1 b2_1) ei ea W1_2 b1_2 W2_2 b2_2)
    Wc bc

end Cert.GineSpec

end
-- ==== Proof.IdealEntry.lean ====
/-
  What the three regions find in their windows' arrays, at the ideal instance: launch arrays, earlier regions' results, and
  host operations' results read back through the fold of buffer contents — the edge aggregation of the layer's input (the
  specification's own whole-array term), each bias re-cast as one row, the final weight matrix cut into three blocks of rows.
-/
import proofs.«113067_j58007828300389_2_alg».proof.Proof.IdealSegs
import proofs.«113067_j58007828300389_2_alg».proof.Proof.GineSpec
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ)

/-! ## What each region finds in its windows' arrays

Every operand of a region is an argument array as launched, an earlier region's result, or a host operation's result:
the edge aggregation of the node features the layer starts from (literally the specification's `agg`: the same gather,
sum, maximum and scatter), a bias vector as a row, a block of 128 rows of the final weight matrix. -/

/-- The edge endpoints, computed once by the first host stretch and never written again. -/
theorem src_at3 (c : Dev nD) :
    (V3 m c main_v1 : IVec S600000 32) = shapeCast _ (extractStridedSlice S1x600000 ![0, 0] (m ((c : Thread nD τ).loc main_arg1)) slices_S2x600000_S1x600000_0_0) shapeCasts_S1x600000_S600000 := by
  dsimp only [V3, V2, V1, V0, hostOps0, hostOps0_1, hostOps0_2]
  after_results
  rfl
theorem dst_at3 (c : Dev nD) :
    (V3 m c main_v3 : IVec S600000 32) = shapeCast _ (extractStridedSlice S1x600000 ![1, 0] (m ((c : Thread nD τ).loc main_arg1)) slices_S2x600000_S1x600000_1_0) shapeCasts_S1x600000_S600000 := by
  dsimp only [V3, V2, V1, V0, hostOps0, hostOps0_1, hostOps0_2]
  after_results
  rfl

/-! ### Region 0 -/

theorem arg0_at3 (c : Dev nD) : V3 m c main_arg0 = m ((c : Thread nD τ).loc main_arg0) :=
  ((((V3_of m c main_arg0 (by decide)).trans (V2_of m c main_arg0 (by decide))).trans (V1_of m c main_arg0 (by decide)))).trans rfl
theorem arg3_at3 (c : Dev nD) : V3 m c main_arg3 = m ((c : Thread nD τ).loc main_arg3) :=
  ((((V3_of m c main_arg3 (by decide)).trans (V2_of m c main_arg3 (by decide))).trans (V1_of m c main_arg3 (by decide)))).trans rfl
theorem arg5_at3 (c : Dev nD) : V3 m c main_arg5 = m ((c : Thread nD τ).loc main_arg5) :=
  ((((V3_of m c main_arg5 (by decide)).trans (V2_of m c main_arg5 (by decide))).trans (V1_of m c main_arg5 (by decide)))).trans rfl

set_option maxHeartbeats 4000000 in
theorem agg_at3 (c : Dev nD) :
    (V3 m c main_v15 : FVec Ideal S50000x128 .f32)
      = Cert.GineSpec.agg (m ((c : Thread nD τ).loc main_arg0)) (m ((c : Thread nD τ).loc main_arg1)) (m ((c : Thread nD τ).loc main_arg2)) := by
  dsimp only [V3, V2, V1, V0, hostOps0, hostOps0_1, hostOps0_2]
  after_results_simp
  rfl
theorem b1row_at3 (c : Dev nD) :
    (V3 m c main_v16 : FVec Ideal S1x128 .f32) = shapeCast S1x128 (m ((c : Thread nD τ).loc main_arg4)) shapeCasts_S128_S1x128 := by
  dsimp only [V3, V2, V1, V0, hostOps0, hostOps0_1, hostOps0_2]
  after_results
  rfl
theorem b2row_at3 (c : Dev nD) :
    (V3 m c main_v17 : FVec Ideal S1x128 .f32) = shapeCast S1x128 (m ((c : Thread nD τ).loc main_arg6)) shapeCasts_S128_S1x128 := by
  dsimp only [V3, V2, V1, V0, hostOps0, hostOps0_1, hostOps0_2]
  after_results
  rfl

/-! ### Region 1 -/

theorem arg2_at4A (c : Dev nD) : V4 m (outsA m) c main_arg2 = m ((c : Thread nD τ).loc main_arg2) :=
  (((((V4_of m (outsA m) c main_arg2 (by decide)).trans (V3_of m c main_arg2 (by decide))).trans (V2_of m c main_arg2 (by decide))).trans (V1_of m c main_arg2 (by decide)))).trans rfl
theorem arg7_at4A (c : Dev nD) : V4 m (outsA m) c main_arg7 = m ((c : Thread nD τ).loc main_arg7) :=
  (((((V4_of m (outsA m) c main_arg7 (by decide)).trans (V3_of m c main_arg7 (by decide))).trans (V2_of m c main_arg7 (by decide))).trans (V1_of m c main_arg7 (by decide)))).trans rfl
theorem arg8_at4A (c : Dev nD) : V4 m (outsA m) c main_arg8 = m ((c : Thread nD τ).loc main_arg8) :=
  (((((V4_of m (outsA m) c main_arg8 (by decide)).trans (V3_of m c main_arg8 (by decide))).trans (V2_of m c main_arg8 (by decide))).trans (V1_of m c main_arg8 (by decide)))).trans rfl
theorem arg9_at4A (c : Dev nD) : V4 m (outsA m) c main_arg9 = m ((c : Thread nD τ).loc main_arg9) :=
  (((((V4_of m (outsA m) c main_arg9 (by decide)).trans (V3_of m c main_arg9 (by decide))).trans (V2_of m c main_arg9 (by decide))).trans (V1_of m c main_arg9 (by decide)))).trans rfl
theorem arg10_at4A (c : Dev nD) : V4 m (outsA m) c main_arg10 = m ((c : Thread nD τ).loc main_arg10) :=
  (((((V4_of m (outsA m) c main_arg10 (by decide)).trans (V3_of m c main_arg10 (by decide))).trans (V2_of m c main_arg10 (by decide))).trans (V1_of m c main_arg10 (by decide)))).trans rfl
theorem src_at4 (c : Dev nD) : V4 m (outsA m) c main_v1 = V3 m c main_v1 := V4_of m (outsA m) c main_v1 (by decide)
theorem dst_at4 (c : Dev nD) : V4 m (outsA m) c main_v3 = V3 m c main_v3 := V4_of m (outsA m) c main_v3 (by decide)
theorem x0_at4 (c : Dev nD) : V4 m (outsA m) c main_v18 = o4 m c :=
  (show V4 m (outsA m) c main_v18 = outsA m 4 main_v18 c from Function.update_self ..).trans (outsA_v18 m 4 c)
theorem x0_at7 (c : Dev nD) : V7 m (outsA m) c main_v18 = o4 m c :=
  ((((V7_of m (outsA m) c main_v18 (by decide)).trans (V6_of m (outsA m) c main_v18 (by decide))).trans (V5_of m (outsA m) c main_v18 (by decide)))).trans (x0_at4 m c)
theorem arg7_at7 (c : Dev nD) : V7 m (outsA m) c main_arg7 = m ((c : Thread nD τ).loc main_arg7) :=
  ((((V7_of m (outsA m) c main_arg7 (by decide)).trans (V6_of m (outsA m) c main_arg7 (by decide))).trans (V5_of m (outsA m) c main_arg7 (by decide)))).trans (arg7_at4A m c)
theorem arg9_at7 (c : Dev nD) : V7 m (outsA m) c main_arg9 = m ((c : Thread nD τ).loc main_arg9) :=
  ((((V7_of m (outsA m) c main_arg9 (by decide)).trans (V6_of m (outsA m) c main_arg9 (by decide))).trans (V5_of m (outsA m) c main_arg9 (by decide)))).trans (arg9_at4A m c)

set_option maxHeartbeats 4000000 in
theorem agg_at7 (c : Dev nD) :
    (V7 m (outsA m) c main_v30 : FVec Ideal S50000x128 .f32)
      = Cert.GineSpec.agg (o4 m c) (m ((c : Thread nD τ).loc main_arg1)) (m ((c : Thread nD τ).loc main_arg2)) := by
  dsimp only [V7, V6, V5, hostOps1, hostOps1_1, hostOps1_2]
  after_results_simp
  rw [src_at4, dst_at4, x0_at4, arg2_at4A, src_at3, dst_at3]
  rfl
theorem b1row_at7 (c : Dev nD) :
    (V7 m (outsA m) c main_v31 : FVec Ideal S1x128 .f32) = shapeCast S1x128 (m ((c : Thread nD τ).loc main_arg8)) shapeCasts_S128_S1x128 := by
  dsimp only [V7, V6, V5, hostOps1, hostOps1_1, hostOps1_2]
  after_results
  rw [arg8_at4A]
  rfl
theorem b2row_at7 (c : Dev nD) :
    (V7 m (outsA m) c main_v32 : FVec Ideal S1x128 .f32) = shapeCast S1x128 (m ((c : Thread nD τ).loc main_arg10)) shapeCasts_S128_S1x128 := by
  dsimp only [V7, V6, V5, hostOps1, hostOps1_1, hostOps1_2]
  after_results
  rw [arg10_at4A]
  rfl

/-! ### Region 2 -/

theorem arg2_at8B (c : Dev nD) : V8 m (outsB m) c main_arg2 = m ((c : Thread nD τ).loc main_arg2) :=
  (((((((((V8_of m (outsB m) c main_arg2 (by decide)).trans (V7_of m (outsB m) c main_arg2 (by decide))).trans (V6_of m (outsB m) c main_arg2 (by decide))).trans (V5_of m (outsB m) c main_arg2 (by decide))).trans (V4_of m (outsB m) c main_arg2 (by decide))).trans (V3_of m c main_arg2 (by decide))).trans (V2_of m c main_arg2 (by decide))).trans (V1_of m c main_arg2 (by decide)))).trans rfl
theorem arg11_at8B (c : Dev nD) : V8 m (outsB m) c main_arg11 = m ((c : Thread nD τ).loc main_arg11) :=
  (((((((((V8_of m (outsB m) c main_arg11 (by decide)).trans (V7_of m (outsB m) c main_arg11 (by decide))).trans (V6_of m (outsB m) c main_arg11 (by decide))).trans (V5_of m (outsB m) c main_arg11 (by decide))).trans (V4_of m (outsB m) c main_arg11 (by decide))).trans (V3_of m c main_arg11 (by decide))).trans (V2_of m c main_arg11 (by decide))).trans (V1_of m c main_arg11 (by decide)))).trans rfl
theorem arg12_at8B (c : Dev nD) : V8 m (outsB m) c main_arg12 = m ((c : Thread nD τ).loc main_arg12) :=
  (((((((((V8_of m (outsB m) c main_arg12 (by decide)).trans (V7_of m (outsB m) c main_arg12 (by decide))).trans (V6_of m (outsB m) c main_arg12 (by decide))).trans (V5_of m (outsB m) c main_arg12 (by decide))).trans (V4_of m (outsB m) c main_arg12 (by decide))).trans (V3_of m c main_arg12 (by decide))).trans (V2_of m c main_arg12 (by decide))).trans (V1_of m c main_arg12 (by decide)))).trans rfl
theorem arg13_at8B (c : Dev nD) : V8 m (outsB m) c main_arg13 = m ((c : Thread nD τ).loc main_arg13) :=
  (((((((((V8_of m (outsB m) c main_arg13 (by decide)).trans (V7_of m (outsB m) c main_arg13 (by decide))).trans (V6_of m (outsB m) c main_arg13 (by decide))).trans (V5_of m (outsB m) c main_arg13 (by decide))).trans (V4_of m (outsB m) c main_arg13 (by decide))).trans (V3_of m c main_arg13 (by decide))).trans (V2_of m c main_arg13 (by decide))).trans (V1_of m c main_arg13 (by decide)))).trans rfl
theorem arg14_at8B (c : Dev nD) : V8 m (outsB m) c main_arg14 = m ((c : Thread nD τ).loc main_arg14) :=
  (((((((((V8_of m (outsB m) c main_arg14 (by decide)).trans (V7_of m (outsB m) c main_arg14 (by decide))).trans (V6_of m (outsB m) c main_arg14 (by decide))).trans (V5_of m (outsB m) c main_arg14 (by decide))).trans (V4_of m (outsB m) c main_arg14 (by decide))).trans (V3_of m c main_arg14 (by decide))).trans (V2_of m c main_arg14 (by decide))).trans (V1_of m c main_arg14 (by decide)))).trans rfl
theorem arg15_at8B (c : Dev nD) : V8 m (outsB m) c main_arg15 = m ((c : Thread nD τ).loc main_arg15) :=
  (((((((((V8_of m (outsB m) c main_arg15 (by decide)).trans (V7_of m (outsB m) c main_arg15 (by decide))).trans (V6_of m (outsB m) c main_arg15 (by decide))).trans (V5_of m (outsB m) c main_arg15 (by decide))).trans (V4_of m (outsB m) c main_arg15 (by decide))).trans (V3_of m c main_arg15 (by decide))).trans (V2_of m c main_arg15 (by decide))).trans (V1_of m c main_arg15 (by decide)))).trans rfl
theorem arg16_at8B (c : Dev nD) : V8 m (outsB m) c main_arg16 = m ((c : Thread nD τ).loc main_arg16) :=
  (((((((((V8_of m (outsB m) c main_arg16 (by decide)).trans (V7_of m (outsB m) c main_arg16 (by decide))).trans (V6_of m (outsB m) c main_arg16 (by decide))).trans (V5_of m (outsB m) c main_arg16 (by decide))).trans (V4_of m (outsB m) c main_arg16 (by decide))).trans (V3_of m c main_arg16 (by decide))).trans (V2_of m c main_arg16 (by decide))).trans (V1_of m c main_arg16 (by decide)))).trans rfl
theorem src_at8 (c : Dev nD) : V8 m (outsB m) c main_v1 = V3 m c main_v1 :=
  (((((V8_of m (outsB m) c main_v1 (by decide)).trans (V7_of m (outsB m) c main_v1 (by decide))).trans (V6_of m (outsB m) c main_v1 (by decide))).trans (V5_of m (outsB m) c main_v1 (by decide))).trans (V4_of m (outsB m) c main_v1 (by decide)))
theorem dst_at8 (c : Dev nD) : V8 m (outsB m) c main_v3 = V3 m c main_v3 :=
  (((((V8_of m (outsB m) c main_v3 (by decide)).trans (V7_of m (outsB m) c main_v3 (by decide))).trans (V6_of m (outsB m) c main_v3 (by decide))).trans (V5_of m (outsB m) c main_v3 (by decide))).trans (V4_of m (outsB m) c main_v3 (by decide)))
theorem x0_at8 (c : Dev nD) : V8 m (outsB m) c main_v18 = o4 m c :=
  (((((V8_of m (outsB m) c main_v18 (by decide)).trans (V7_of m (outsB m) c main_v18 (by decide))).trans (V6_of m (outsB m) c main_v18 (by decide))).trans (V5_of m (outsB m) c main_v18 (by decide)))).trans
    ((show V4 m (outsB m) c main_v18 = outsB m 4 main_v18 c from Function.update_self ..).trans (outsB_v18 m 4 c))
theorem x1_at8 (c : Dev nD) : V8 m (outsB m) c main_v33 = o8 m c :=
  (show V8 m (outsB m) c main_v33 = outsB m 8 main_v33 c from Function.update_self ..).trans (outsB_v33 m 8 c)
theorem x0_at11 (c : Dev nD) : V11 m (outsB m) c main_v18 = o4 m c :=
  ((((V11_of m (outsB m) c main_v18 (by decide)).trans (V10_of m (outsB m) c main_v18 (by decide))).trans (V9_of m (outsB m) c main_v18 (by decide)))).trans (x0_at8 m c)
theorem x1_at11 (c : Dev nD) : V11 m (outsB m) c main_v33 = o8 m c :=
  ((((V11_of m (outsB m) c main_v33 (by decide)).trans (V10_of m (outsB m) c main_v33 (by decide))).trans (V9_of m (outsB m) c main_v33 (by decide)))).trans (x1_at8 m c)
theorem arg11_at11 (c : Dev nD) : V11 m (outsB m) c main_arg11 = m ((c : Thread nD τ).loc main_arg11) :=
  ((((V11_of m (outsB m) c main_arg11 (by decide)).trans (V10_of m (outsB m) c main_arg11 (by decide))).trans (V9_of m (outsB m) c main_arg11 (by decide)))).trans (arg11_at8B m c)
theorem arg13_at11 (c : Dev nD) : V11 m (outsB m) c main_arg13 = m ((c : Thread nD τ).loc main_arg13) :=
  ((((V11_of m (outsB m) c main_arg13 (by decide)).trans (V10_of m (outsB m) c main_arg13 (by decide))).trans (V9_of m (outsB m) c main_arg13 (by decide)))).trans (arg13_at8B m c)

set_option maxHeartbeats 4000000 in
theorem agg_at11 (c : Dev nD) :
    (V11 m (outsB m) c main_v45 : FVec Ideal S50000x128 .f32)
      = Cert.GineSpec.agg (o8 m c) (m ((c : Thread nD τ).loc main_arg1)) (m ((c : Thread nD τ).loc main_arg2)) := by
  dsimp only [V11, V10, V9, hostOps2, hostOps2_1, hostOps2_2]
  after_results_simp
  rw [src_at8, dst_at8, x1_at8, arg2_at8B, src_at3, dst_at3]
  rfl
theorem v49_at11 (c : Dev nD) :
    (V11 m (outsB m) c main_v49 : FVec Ideal S1x128 .f32) = shapeCast S1x128 (m ((c : Thread nD τ).loc main_arg12)) shapeCasts_S128_S1x128 := by
  dsimp only [V11, V10, V9, hostOps2, hostOps2_1, hostOps2_2]
  after_results
  rw [arg12_at8B]
  rfl
theorem v50_at11 (c : Dev nD) :
    (V11 m (outsB m) c main_v50 : FVec Ideal S1x128 .f32) = shapeCast S1x128 (m ((c : Thread nD τ).loc main_arg14)) shapeCasts_S128_S1x128 := by
  dsimp only [V11, V10, V9, hostOps2, hostOps2_1, hostOps2_2]
  after_results
  rw [arg14_at8B]
  rfl
theorem v51_at11 (c : Dev nD) :
    (V11 m (outsB m) c main_v51 : FVec Ideal S1x128 .f32) = shapeCast S1x128 (m ((c : Thread nD τ).loc main_arg16)) shapeCasts_S128_S1x128 := by
  dsimp only [V11, V10, V9, hostOps2, hostOps2_1, hostOps2_2]
  after_results
  rw [arg16_at8B]
  rfl
theorem v46_at11 (c : Dev nD) :
    (V11 m (outsB m) c main_v46 : FVec Ideal S128x128 .f32) = extractStridedSlice S128x128 ![0, 0] (m ((c : Thread nD τ).loc main_arg15)) slices_S384x128_S128x128_0_0 := by
  dsimp only [V11, V10, V9, hostOps2, hostOps2_1, hostOps2_2]
  after_results
  rw [arg15_at8B]
theorem v47_at11 (c : Dev nD) :
    (V11 m (outsB m) c main_v47 : FVec Ideal S128x128 .f32) = extractStridedSlice S128x128 ![128, 0] (m ((c : Thread nD τ).loc main_arg15)) slices_S384x128_S128x128_128_0 := by
  dsimp only [V11, V10, V9, hostOps2, hostOps2_1, hostOps2_2]
  after_results
  rw [arg15_at8B]
theorem v48_at11 (c : Dev nD) :
    (V11 m (outsB m) c main_v48 : FVec Ideal S128x128 .f32) = extractStridedSlice S128x128 ![256, 0] (m ((c : Thread nD τ).loc main_arg15)) slices_S384x128_S128x128_256_0 := by
  dsimp only [V11, V10, V9, hostOps2, hostOps2_1, hostOps2_2]
  after_results
  rw [arg15_at8B]

end Cert.KernelIdeal.Whole

end
-- ==== Proof.IdealValue0.lean ====
/-
  The value of the first region (the perceptron of layer 0 on blocks of 5000 rows), at the ideal instance and for
  ANY contents of the arrays the region finds.

  The body stores ONE value into the whole output block. Read at an entry `(p, q)` of the block it is
      relu (Σ_k relu (Σ_l (x(p,l) + a(p,l)) · W1(l,k) + b1(0,k)) · W2(k,q) + b2(0,q)),
  the two contractions being sums over the 128 columns, the changes of float format the identity on extended
  reals, the splatted zeros the real 0. Grid point `t` stages rows `5000·t … 5000·t + 4999` of the node features
  and of the aggregation, and the whole of the two weight matrices and the two one-row biases; it writes its
  block back at the same rows. The ten blocks tile the 50000 rows, so the output array ends as the specification's
  `mlp` of the arrays, index by index.
-/
import proofs.«113067_j58007828300389_2_alg».proof.Proof.IdealReg0
import proofs.«113067_j58007828300389_2_alg».proof.Proof.GineSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val0

open Cert.KernelIdeal Cert.KernelIdeal.Gen Cert.KernelIdeal.Reg0
open Idealize.ShloMosaic Idealize.ShloMosaic.TcCoe Idealize.ShloMosaic.ValueIdx Idealize.SL.Sem
open Idealize.ShloMosaic.Pipeline (Dat)

/-! ## The body's arithmetic at an index -/

theorem dot_lhs0 (i : S5000x128.Idx) (k : dot_S5000x128_S128x128_S5000x128_1_0_0_1_n_n.contr.Idx) : (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem dot_lhs1 (i : S5000x128.Idx) (k : dot_S5000x128_S128x128_S5000x128_1_0_0_1_n_n.contr.Idx) : (dot_S5000x128_S128x128_S5000x128_1_0_0_1_n_n.lhsIdx i k 1).val = (k ⟨0, by decide⟩).val :=
  dot_S5000x128_S128x128_S5000x128_1_0_0_1_n_n.lhsIdx_val_of_single rfl i k
theorem dot_rhs0 (i : S5000x128.Idx) (k : dot_S5000x128_S128x128_S5000x128_1_0_0_1_n_n.contr.Idx) : (dot_S5000x128_S128x128_S5000x128_1_0_0_1_n_n.rhsIdx i k 0).val = (k ⟨0, by decide⟩).val :=
  dot_S5000x128_S128x128_S5000x128_1_0_0_1_n_n.rhsIdx_val_of_single rfl i k
theorem dot_rhs1 (i : S5000x128.Idx) (k : dot_S5000x128_S128x128_S5000x128_1_0_0_1_n_n.contr.Idx) : (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The contraction of a block of 5000 rows with a 128 × 128 matrix, into a zero accumulator: entry `(p, q)` is the
    sum over `k` of row `p` of the left factor times column `q` of the right one. -/
theorem matmul_block_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact dot_lhs0 _ _
      | ⟨1, _⟩ => exact (dot_lhs1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (dot_rhs0 _ _).trans hk
      | ⟨1, _⟩ => exact dot_rhs1 _ _)
  rw [el, er]

/-- Entry `(p, q)` of what the body stores, as a function of its six loaded blocks: the perceptron
    `relu (relu ((x + a) · W1 + b1) · W2 + b2)` on row `p`, the biases being one-row blocks. The format changes
    are the identity on extended reals and the splatted zeros are the real 0. -/
theorem pay_apply (x a : FVec Ideal S5000x128 .f32) (W1 : FVec Ideal S128x128 .f32) (b1 : FVec Ideal S1x128 .f32)
    (W2 : FVec Ideal S128x128 .f32) (b2 : FVec Ideal S1x128 .f32) (p : Fin 5000) (q : Fin 128) :
    k0_pay1 (F := Ideal) x a W1 b1 W2 b2 (ix2 p q)
      = max (∑ k : Fin 128,
            max (∑ l : Fin 128, (x (ix2 p l) + a (ix2 p l)) * W1 (ix2 l k) + b1 (ix2 (0 : Fin 1) k)) 0 * W2 (ix2 k q)
          + b2 (ix2 (0 : Fin 1) q)) 0 := by
  unfold k0_pay1
  simp only [shapeCast_self]
  rw [maximumf_apply, addf_apply, matmul_block_apply, broadcastTo_1b_ab_apply, broadcast_apply]
  simp only [truncf_apply, maximumf_apply, addf_apply, matmul_block_apply, broadcastTo_1b_ab_apply, broadcast_apply,
    Ideal.ofBits_def, Ideal.ofBits_zero_f32]

/-! ## From the body's blocks to the array -/

/-- A one-row block read as a vector of its 128 entries. -/
def rowVec (b : FVec Ideal S1x128 .f32) : FVec Ideal Cert.GineSpec.S128 .f32 := fun i => b (ix2 (0 : Fin 1) (i 0))

theorem rowVec_ix1 (b : FVec Ideal S1x128 .f32) (k : Fin 128) : rowVec b (ix1 k) = b (ix2 (0 : Fin 1) k) := rfl

/-- The body's entry `(p, r)` is the specification's perceptron at row `P` of the whole arrays, when row `p` of the
    two row blocks is row `P` of the arrays and the weight and bias blocks are the whole weight and bias arrays. -/
theorem block_eq (x a : FVec Ideal S5000x128 .f32) (w1 : FVec Ideal S128x128 .f32) (b1 : FVec Ideal S1x128 .f32)
    (w2 : FVec Ideal S128x128 .f32) (b2 : FVec Ideal S1x128 .f32)
    (X A : FVec Ideal S50000x128 .f32) (W1 : FVec Ideal S128x128 .f32) (B1 : FVec Ideal S1x128 .f32)
    (W2 : FVec Ideal S128x128 .f32) (B2 : FVec Ideal S1x128 .f32) (p : Fin 5000) (r : Fin 128) (P : Fin 50000)
    (hx : ∀ l : Fin 128, x (ix2 p l) = X (ix2 P l)) (ha : ∀ l : Fin 128, a (ix2 p l) = A (ix2 P l))
    (hw1 : ∀ l k : Fin 128, w1 (ix2 l k) = W1 (ix2 l k)) (hb1 : ∀ k : Fin 128, b1 (ix2 (0 : Fin 1) k) = B1 (ix2 (0 : Fin 1) k))
    (hw2 : ∀ l k : Fin 128, w2 (ix2 l k) = W2 (ix2 l k)) (hb2 : ∀ k : Fin 128, b2 (ix2 (0 : Fin 1) k) = B2 (ix2 (0 : Fin 1) k)) :
    k0_pay1 (F := Ideal) x a w1 b1 w2 b2 (ix2 p r) = Cert.GineSpec.mlpAt X A W1 (rowVec B1) W2 (rowVec B2) P r := by
  rw [pay_apply]
  simp only [hx, ha, hw1, hb1, hw2, hb2]
  rfl

section Array
variable (V : (c : Dev nD) → (b : Ref sig .tc) → Buf (Elt Ideal) ((c : Thread nD τ).loc b))
variable (q : Fin cfg0.W → Idealize.SL.RA.PosShare Idealize.SL.RA.TreeShare)

theorem hz : (![0, 0] : Fin 2 → Nat) = fun _ => 0 := funext fun a => by fin_cases a <;> rfl

/-- What the output array ends holding: the specification's perceptron of the arrays the region reads. -/
def G (c : Dev nD) : FVec Ideal S50000x128 .f32 :=
  Cert.GineSpec.mlp (V c main_arg0) (V c main_v15) (V c main_arg3) (rowVec (V c main_v16)) (V c main_arg5) (rowVec (V c main_v17))

/-- The printed index maps over the ten grid points: the two row windows move with the output window, whose block
    index is the point's number on the row axis and 0 on the column axis; the weight and bias windows stay at 0. -/
theorem idx_facts : ∀ t : Fin cfg0.N, win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- What point `t` writes back is block `t` of `G`. -/
theorem flushed_eq (c : Dev nD) (t : Fin cfg0.N) :
    (dat0 (F := Ideal) V q c).flushed 6 t = ((cfg0.win 6).blk t).view.read (Elt Ideal) (G V c) := by
  show (cfg0.win 6).cut (grid0.coords t) ((dat0 (F := Ideal) V q c).after 6 t) = _
  rw [after0_6]
  unfold out0
  rw [View.canon_unit_zero hz]
  simp only [View.ld_unit_zero (S := S5000x128) hz, View.ld_unit_zero (S := S128x128) hz, View.ld_unit_zero (S := S1x128) hz]
  obtain ⟨e60, e61, e00, e01, e10, e11, e20, e21, e30, e31, e40, e41, e50, e51⟩ := idx_facts t
  have hN : t.val < 10 := by
    have h1 : t.val < grid0.N := t.isLt
    have h2 : grid0.N = 10 := N_0
    omega
  funext j
  have hj0 : (j 0).val < 5000 := (j 0).isLt
  have hj1 : (j 1).val < 128 := (j 1).isLt
  have hP : t.val * 5000 + (j 0).val < 50000 := by omega
  show k0_pay1 (F := Ideal) (iblk0 V c 0 t) (iblk0 V c 1 t) (iblk0 V c 2 t) (iblk0 V c 3 t) (iblk0 V c 4 t) (iblk0 V c 5 t)
      ((cfg0.win 6).xinj (grid0.coords t) j) = G V c (((cfg0.win 6).blk t).view.emb j)
  have ej : (cfg0.win 6).xinj (grid0.coords t) j = ix2 (⟨(j 0).val, hj0⟩ : Fin 5000) (⟨(j 1).val, hj1⟩ : Fin 128) :=
    funext fun a => Fin.ext (by match a with | ⟨0, _⟩ => rfl | ⟨1, _⟩ => rfl)
  have eJ : ((cfg0.win 6).blk t).view.emb j = ix2 (⟨t.val * 5000 + (j 0).val, hP⟩ : Fin 50000) (⟨(j 1).val, hj1⟩ : Fin 128) :=
    funext fun a => Fin.ext (by
      match a with
      | ⟨0, _⟩ => show win0_6.index t (0 : Fin 2) * 5000 + 1 * (j 0).val = t.val * 5000 + (j 0).val; omega
      | ⟨1, _⟩ => show win0_6.index t (1 : Fin 2) * 128 + 1 * (j 1).val = (j 1).val; omega)
  rw [ej, eJ]
  unfold G
  rw [Cert.GineSpec.mlp_ix2]
  refine block_eq _ _ _ _ _ _ _ _ _ _ _ _ _ _ _ ?_ ?_ ?_ ?_ ?_ ?_
  · intro l
    show V c main_arg0 (((cfg0.win 0).blk t).view.emb (ix2 (⟨(j 0).val, hj0⟩ : Fin 5000) l)) = _
    refine congrArg (V c main_arg0) (funext fun a => Fin.ext ?_)
    match a with
    | ⟨0, _⟩ => show win0_0.index t (0 : Fin 2) * 5000 + 1 * (j 0).val = t.val * 5000 + (j 0).val; omega
    | ⟨1, _⟩ => show win0_0.index t (1 : Fin 2) * 128 + 1 * l.val = l.val; omega
  · intro l
    show V c main_v15 (((cfg0.win 1).blk t).view.emb (ix2 (⟨(j 0).val, hj0⟩ : Fin 5000) l)) = _
    refine congrArg (V c main_v15) (funext fun a => Fin.ext ?_)
    match a with
    | ⟨0, _⟩ => show win0_1.index t (0 : Fin 2) * 5000 + 1 * (j 0).val = t.val * 5000 + (j 0).val; omega
    | ⟨1, _⟩ => show win0_1.index t (1 : Fin 2) * 128 + 1 * l.val = l.val; omega
  · intro l k
    show V c main_arg3 (((cfg0.win 2).blk t).view.emb (ix2 l k)) = _
    refine congrArg (V c main_arg3) (funext fun a => Fin.ext ?_)
    match a with
    | ⟨0, _⟩ => show win0_2.index t (0 : Fin 2) * 128 + 1 * l.val = l.val; omega
    | ⟨1, _⟩ => show win0_2.index t (1 : Fin 2) * 128 + 1 * k.val = k.val; omega
  · intro k
    show V c main_v16 (((cfg0.win 3).blk t).view.emb (ix2 (0 : Fin 1) k)) = _
    refine congrArg (V c main_v16) (funext fun a => Fin.ext ?_)
    match a with
    | ⟨0, _⟩ => show win0_3.index t (0 : Fin 2) * 1 + 1 * 0 = 0; omega
    | ⟨1, _⟩ => show win0_3.index t (1 : Fin 2) * 128 + 1 * k.val = k.val; omega
  · intro l k
    show V c main_arg5 (((cfg0.win 4).blk t).view.emb (ix2 l k)) = _
    refine congrArg (V c main_arg5) (funext fun a => Fin.ext ?_)
    match a with
    | ⟨0, _⟩ => show win0_4.index t (0 : Fin 2) * 128 + 1 * l.val = l.val; omega
    | ⟨1, _⟩ => show win0_4.index t (1 : Fin 2) * 128 + 1 * k.val = k.val; omega
  · intro k
    show V c main_v17 (((cfg0.win 5).blk t).view.emb (ix2 (0 : Fin 1) k)) = _
    refine congrArg (V c main_v17) (funext fun a => Fin.ext ?_)
    match a with
    | ⟨0, _⟩ => show win0_5.index t (0 : Fin 2) * 1 + 1 * 0 = 0; omega
    | ⟨1, _⟩ => show win0_5.index t (1 : Fin 2) * 128 + 1 * k.val = k.val; omega

/-- An index of the array is in point `t`'s block iff each coordinate is in the block's range on its axis. -/
theorem mem_blk (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v18).slice (win0_6.rect t)).set ↔ _
  rw [View.set_slice_whole, Rect.mem_set_unit]
  exact Iff.rfl

/-- Every row of the array is in the block of the point that its number divided by 5000 names. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : grid0.N = 10 := N_0
  have ht : (i 0).val / 5000 < cfg0.N := by show (i 0).val / 5000 < grid0.N; omega
  obtain ⟨e60, e61, -⟩ := idx_facts ⟨(i 0).val / 5000, ht⟩
  refine ⟨⟨(i 0).val / 5000, ht⟩, flush0_6 _, ?_⟩
  rw [mem_blk]
  intro a
  match a with
  | ⟨0, _⟩ =>
    show win0_6.index ⟨(i 0).val / 5000, ht⟩ (0 : Fin 2) * 5000 ≤ (i 0).val
      ∧ (i 0).val < win0_6.index ⟨(i 0).val / 5000, ht⟩ (0 : Fin 2) * 5000 + 5000
    rw [e60]; show (i 0).val / 5000 * 5000 ≤ (i 0).val ∧ (i 0).val < (i 0).val / 5000 * 5000 + 5000; omega
  | ⟨1, _⟩ =>
    show win0_6.index ⟨(i 0).val / 5000, ht⟩ (1 : Fin 2) * 128 ≤ (i 1).val
      ∧ (i 1).val < win0_6.index ⟨(i 0).val / 5000, ht⟩ (1 : Fin 2) * 128 + 128
    rw [e61]; omega

/-- THE OUTPUT ARRAY of the region, after its ten points: the specification's perceptron of the arrays the region
    finds — node features, aggregation, the two weight matrices and the two bias rows. -/
theorem final (c : Dev nD) : (dat0 (F := Ideal) V q c).arrAt 6 cfg0.N = G V c :=
  (dat0 (F := Ideal) V q c).arrAt_eq_of_cover 6 (G V c) (fun t _ => flushed_eq V q c t) (cover)

end Array

end Cert.KernelIdeal.Val0

end
-- ==== Proof.IdealValue1.lean ====
/-
  The value of the second region (the perceptron of layer 1 on blocks of 5000 rows), at the ideal instance and for
  ANY contents of the arrays the region finds. The body is the first region's with its operands re-cast to their own
  shapes, so its entry `(p, q)` is the same perceptron; grid point `t` stages rows `5000·t … 5000·t + 4999` of the
  previous layer's features and of their aggregation, and the whole of this layer's weights and one-row biases.
  The ten blocks tile the 50000 rows: the output array ends as the specification's `mlp` of the arrays.
-/
import proofs.«113067_j58007828300389_2_alg».proof.Proof.IdealReg1
import proofs.«113067_j58007828300389_2_alg».proof.Proof.IdealValue0
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val1

open Cert.KernelIdeal Cert.KernelIdeal.Gen Cert.KernelIdeal.Reg1
open Cert.KernelIdeal.Val0 (rowVec rowVec_ix1 matmul_block_apply)
open Idealize.ShloMosaic Idealize.ShloMosaic.TcCoe Idealize.ShloMosaic.ValueIdx Idealize.SL.Sem
open Idealize.ShloMosaic.Pipeline (Dat)

/-! ## The body's arithmetic at an index -/

/-- Entry `(p, q)` of what the body stores, as a function of its six loaded blocks: the perceptron
    `relu (relu ((x + a) · W1 + b1) · W2 + b2)` on row `p`, the biases being one-row blocks. The format changes
    are the identity on extended reals and the splatted zeros are the real 0. -/
theorem pay_apply (x a : FVec Ideal S5000x128 .f32) (W1 : FVec Ideal S128x128 .f32) (b1 : FVec Ideal S1x128 .f32)
    (W2 : FVec Ideal S128x128 .f32) (b2 : FVec Ideal S1x128 .f32) (p : Fin 5000) (q : Fin 128) :
    k1_pay1 (F := Ideal) x a W1 b1 W2 b2 (ix2 p q)
      = max (∑ k : Fin 128,
            max (∑ l : Fin 128, (x (ix2 p l) + a (ix2 p l)) * W1 (ix2 l k) + b1 (ix2 (0 : Fin 1) k)) 0 * W2 (ix2 k q)
          + b2 (ix2 (0 : Fin 1) q)) 0 := by
  unfold k1_pay1
  simp only [shapeCast_self]
  rw [maximumf_apply, addf_apply, matmul_block_apply, broadcastTo_1b_ab_apply, broadcast_apply]
  simp only [truncf_apply, maximumf_apply, addf_apply, matmul_block_apply, broadcastTo_1b_ab_apply, broadcast_apply,
    Ideal.ofBits_def, Ideal.ofBits_zero_f32]

/-! ## From the body's blocks to the array -/

/-- The body's entry `(p, r)` is the specification's perceptron at row `P` of the whole arrays, when row `p` of the
    two row blocks is row `P` of the arrays and the weight and bias blocks are the whole weight and bias arrays. -/
theorem block_eq (x a : FVec Ideal S5000x128 .f32) (w1 : FVec Ideal S128x128 .f32) (b1 : FVec Ideal S1x128 .f32)
    (w2 : FVec Ideal S128x128 .f32) (b2 : FVec Ideal S1x128 .f32)
    (X A : FVec Ideal S50000x128 .f32) (W1 : FVec Ideal S128x128 .f32) (B1 : FVec Ideal S1x128 .f32)
    (W2 : FVec Ideal S128x128 .f32) (B2 : FVec Ideal S1x128 .f32) (p : Fin 5000) (r : Fin 128) (P : Fin 50000)
    (hx : ∀ l : Fin 128, x (ix2 p l) = X (ix2 P l)) (ha : ∀ l : Fin 128, a (ix2 p l) = A (ix2 P l))
    (hw1 : ∀ l k : Fin 128, w1 (ix2 l k) = W1 (ix2 l k)) (hb1 : ∀ k : Fin 128, b1 (ix2 (0 : Fin 1) k) = B1 (ix2 (0 : Fin 1) k))
    (hw2 : ∀ l k : Fin 128, w2 (ix2 l k) = W2 (ix2 l k)) (hb2 : ∀ k : Fin 128, b2 (ix2 (0 : Fin 1) k) = B2 (ix2 (0 : Fin 1) k)) :
    k1_pay1 (F := Ideal) x a w1 b1 w2 b2 (ix2 p r) = Cert.GineSpec.mlpAt X A W1 (rowVec B1) W2 (rowVec B2) P r := by
  rw [pay_apply]
  simp only [hx, ha, hw1, hb1, hw2, hb2]
  rfl

section Array
variable (V : (c : Dev nD) → (b : Ref sig .tc) → Buf (Elt Ideal) ((c : Thread nD τ).loc b))
variable (q : Fin cfg1.W → Idealize.SL.RA.PosShare Idealize.SL.RA.TreeShare)

theorem hz : (![0, 0] : Fin 2 → Nat) = fun _ => 0 := funext fun a => by fin_cases a <;> rfl

/-- What the output array ends holding: the specification's perceptron of the arrays the region reads. -/
def G (c : Dev nD) : FVec Ideal S50000x128 .f32 :=
  Cert.GineSpec.mlp (V c main_v18) (V c main_v30) (V c main_arg7) (rowVec (V c main_v31)) (V c main_arg9) (rowVec (V c main_v32))

/-- The printed index maps over the ten grid points: the two row windows move with the output window, whose block
    index is the point's number on the row axis and 0 on the column axis; the weight and bias windows stay at 0. -/
theorem idx_facts : ∀ t : Fin cfg1.N, win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- What point `t` writes back is block `t` of `G`. -/
theorem flushed_eq (c : Dev nD) (t : Fin cfg1.N) :
    (dat1 (F := Ideal) V q c).flushed 6 t = ((cfg1.win 6).blk t).view.read (Elt Ideal) (G V c) := by
  show (cfg1.win 6).cut (grid1.coords t) ((dat1 (F := Ideal) V q c).after 6 t) = _
  rw [after1_6]
  unfold out1
  rw [View.canon_unit_zero hz]
  simp only [View.ld_unit_zero (S := S5000x128) hz, View.ld_unit_zero (S := S128x128) hz, View.ld_unit_zero (S := S1x128) hz]
  obtain ⟨e60, e61, e00, e01, e10, e11, e20, e21, e30, e31, e40, e41, e50, e51⟩ := idx_facts t
  have hN : t.val < 10 := by
    have h1 : t.val < grid1.N := t.isLt
    have h2 : grid1.N = 10 := N_1
    omega
  funext j
  have hj0 : (j 0).val < 5000 := (j 0).isLt
  have hj1 : (j 1).val < 128 := (j 1).isLt
  have hP : t.val * 5000 + (j 0).val < 50000 := by omega
  show k1_pay1 (F := Ideal) (iblk1 V c 0 t) (iblk1 V c 1 t) (iblk1 V c 2 t) (iblk1 V c 3 t) (iblk1 V c 4 t) (iblk1 V c 5 t)
      ((cfg1.win 6).xinj (grid1.coords t) j) = G V c (((cfg1.win 6).blk t).view.emb j)
  have ej : (cfg1.win 6).xinj (grid1.coords t) j = ix2 (⟨(j 0).val, hj0⟩ : Fin 5000) (⟨(j 1).val, hj1⟩ : Fin 128) :=
    funext fun a => Fin.ext (by match a with | ⟨0, _⟩ => rfl | ⟨1, _⟩ => rfl)
  have eJ : ((cfg1.win 6).blk t).view.emb j = ix2 (⟨t.val * 5000 + (j 0).val, hP⟩ : Fin 50000) (⟨(j 1).val, hj1⟩ : Fin 128) :=
    funext fun a => Fin.ext (by
      match a with
      | ⟨0, _⟩ => show win1_6.index t (0 : Fin 2) * 5000 + 1 * (j 0).val = t.val * 5000 + (j 0).val; omega
      | ⟨1, _⟩ => show win1_6.index t (1 : Fin 2) * 128 + 1 * (j 1).val = (j 1).val; omega)
  rw [ej, eJ]
  unfold G
  rw [Cert.GineSpec.mlp_ix2]
  refine block_eq _ _ _ _ _ _ _ _ _ _ _ _ _ _ _ ?_ ?_ ?_ ?_ ?_ ?_
  · intro l
    show V c main_v18 (((cfg1.win 0).blk t).view.emb (ix2 (⟨(j 0).val, hj0⟩ : Fin 5000) l)) = _
    refine congrArg (V c main_v18) (funext fun a => Fin.ext ?_)
    match a with
    | ⟨0, _⟩ => show win1_0.index t (0 : Fin 2) * 5000 + 1 * (j 0).val = t.val * 5000 + (j 0).val; omega
    | ⟨1, _⟩ => show win1_0.index t (1 : Fin 2) * 128 + 1 * l.val = l.val; omega
  · intro l
    show V c main_v30 (((cfg1.win 1).blk t).view.emb (ix2 (⟨(j 0).val, hj0⟩ : Fin 5000) l)) = _
    refine congrArg (V c main_v30) (funext fun a => Fin.ext ?_)
    match a with
    | ⟨0, _⟩ => show win1_1.index t (0 : Fin 2) * 5000 + 1 * (j 0).val = t.val * 5000 + (j 0).val; omega
    | ⟨1, _⟩ => show win1_1.index t (1 : Fin 2) * 128 + 1 * l.val = l.val; omega
  · intro l k
    show V c main_arg7 (((cfg1.win 2).blk t).view.emb (ix2 l k)) = _
    refine congrArg (V c main_arg7) (funext fun a => Fin.ext ?_)
    match a with
    | ⟨0, _⟩ => show win1_2.index t (0 : Fin 2) * 128 + 1 * l.val = l.val; omega
    | ⟨1, _⟩ => show win1_2.index t (1 : Fin 2) * 128 + 1 * k.val = k.val; omega
  · intro k
    show V c main_v31 (((cfg1.win 3).blk t).view.emb (ix2 (0 : Fin 1) k)) = _
    refine congrArg (V c main_v31) (funext fun a => Fin.ext ?_)
    match a with
    | ⟨0, _⟩ => show win1_3.index t (0 : Fin 2) * 1 + 1 * 0 = 0; omega
    | ⟨1, _⟩ => show win1_3.index t (1 : Fin 2) * 128 + 1 * k.val = k.val; omega
  · intro l k
    show V c main_arg9 (((cfg1.win 4).blk t).view.emb (ix2 l k)) = _
    refine congrArg (V c main_arg9) (funext fun a => Fin.ext ?_)
    match a with
    | ⟨0, _⟩ => show win1_4.index t (0 : Fin 2) * 128 + 1 * l.val = l.val; omega
    | ⟨1, _⟩ => show win1_4.index t (1 : Fin 2) * 128 + 1 * k.val = k.val; omega
  · intro k
    show V c main_v32 (((cfg1.win 5).blk t).view.emb (ix2 (0 : Fin 1) k)) = _
    refine congrArg (V c main_v32) (funext fun a => Fin.ext ?_)
    match a with
    | ⟨0, _⟩ => show win1_5.index t (0 : Fin 2) * 1 + 1 * 0 = 0; omega
    | ⟨1, _⟩ => show win1_5.index t (1 : Fin 2) * 128 + 1 * k.val = k.val; omega

/-- An index of the array is in point `t`'s block iff each coordinate is in the block's range on its axis. -/
theorem mem_blk (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v33).slice (win1_6.rect t)).set ↔ _
  rw [View.set_slice_whole, Rect.mem_set_unit]
  exact Iff.rfl

/-- Every row of the array is in the block of the point that its number divided by 5000 names. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : grid1.N = 10 := N_1
  have ht : (i 0).val / 5000 < cfg1.N := by show (i 0).val / 5000 < grid1.N; omega
  obtain ⟨e60, e61, -⟩ := idx_facts ⟨(i 0).val / 5000, ht⟩
  refine ⟨⟨(i 0).val / 5000, ht⟩, flush1_6 _, ?_⟩
  rw [mem_blk]
  intro a
  match a with
  | ⟨0, _⟩ =>
    show win1_6.index ⟨(i 0).val / 5000, ht⟩ (0 : Fin 2) * 5000 ≤ (i 0).val
      ∧ (i 0).val < win1_6.index ⟨(i 0).val / 5000, ht⟩ (0 : Fin 2) * 5000 + 5000
    rw [e60]; show (i 0).val / 5000 * 5000 ≤ (i 0).val ∧ (i 0).val < (i 0).val / 5000 * 5000 + 5000; omega
  | ⟨1, _⟩ =>
    show win1_6.index ⟨(i 0).val / 5000, ht⟩ (1 : Fin 2) * 128 ≤ (i 1).val
      ∧ (i 1).val < win1_6.index ⟨(i 0).val / 5000, ht⟩ (1 : Fin 2) * 128 + 128
    rw [e61]; omega

/-- THE OUTPUT ARRAY of the region, after its ten points: the specification's perceptron of the arrays the region
    finds — node features, aggregation, the two weight matrices and the two bias rows. -/
theorem final (c : Dev nD) : (dat1 (F := Ideal) V q c).arrAt 6 cfg1.N = G V c :=
  (dat1 (F := Ideal) V q c).arrAt_eq_of_cover 6 (G V c) (fun t _ => flushed_eq V q c t) (cover)

end Array

end Cert.KernelIdeal.Val1

end
-- ==== Proof.IdealValue2.lean ====
/-
  The value of the third region (the third layer's perceptron fused with the read-out, on blocks of 2000 rows), at
  the ideal instance and for ANY contents of the arrays the region finds.

  The body stores ONE value into the whole output block. Read at an entry `(p, q)` it is
      relu (((Σ_k x₀(p,k) · Wc₀(k,q) + Σ_k x₁(p,k) · Wc₁(k,q)) + Σ_k x₂(p,k) · Wc₂(k,q)) + bc(0,q)),
  where `x₂(p,k)` is the perceptron `relu (relu ((x₁ + a) · W1 + b1) · W2 + b2)` of row `p`, computed in the body
  and never stored. Grid point `t` stages rows `2000·t … 2000·t + 1999` of the second layer's features (twice: once
  as the perceptron's input, once as the read-out's second operand), of their aggregation and of the first layer's
  features, and the whole of the two weight matrices, the three slices of the read-out matrix and the three one-row
  biases; it writes its block back at the same rows. The 25 blocks tile the 50000 rows.

  Last, the host operations that prepare those operands are read at an index: a bias re-cast as one row, and the
  read-out matrix cut into its three blocks of 128 rows, which turns the three-matrix read-out into the
  specification's.
-/
import proofs.«113067_j58007828300389_2_alg».proof.Proof.IdealReg2
import proofs.«113067_j58007828300389_2_alg».proof.Proof.IdealValue0
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val2

open Cert.KernelIdeal Cert.KernelIdeal.Gen Cert.KernelIdeal.Reg2
open Cert.KernelIdeal.Val0 (rowVec rowVec_ix1)
open Idealize.ShloMosaic Idealize.ShloMosaic.TcCoe Idealize.ShloMosaic.ValueIdx Idealize.SL.Sem
open Idealize.ShloMosaic.Pipeline (Dat)

/-! ## The body's arithmetic at an index -/

theorem dot_lhs0 (i : S2000x128.Idx) (k : dot_S2000x128_S128x128_S2000x128_1_0_0_1_n_n.contr.Idx) : (dot_S2000x128_S128x128_S2000x128_1_0_0_1_n_n.lhsIdx i k 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
theorem dot_lhs1 (i : S2000x128.Idx) (k : dot_S2000x128_S128x128_S2000x128_1_0_0_1_n_n.contr.Idx) : (dot_S2000x128_S128x128_S2000x128_1_0_0_1_n_n.lhsIdx i k 1).val = (k ⟨0, by decide⟩).val :=
  dot_S2000x128_S128x128_S2000x128_1_0_0_1_n_n.lhsIdx_val_of_single rfl i k
theorem dot_rhs0 (i : S2000x128.Idx) (k : dot_S2000x128_S128x128_S2000x128_1_0_0_1_n_n.contr.Idx) : (dot_S2000x128_S128x128_S2000x128_1_0_0_1_n_n.rhsIdx i k 0).val = (k ⟨0, by decide⟩).val :=
  dot_S2000x128_S128x128_S2000x128_1_0_0_1_n_n.rhsIdx_val_of_single rfl i k
theorem dot_rhs1 (i : S2000x128.Idx) (k : dot_S2000x128_S128x128_S2000x128_1_0_0_1_n_n.contr.Idx) : (dot_S2000x128_S128x128_S2000x128_1_0_0_1_n_n.rhsIdx i k 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The contraction of a block of 2000 rows with a 128 × 128 matrix, into a zero accumulator: entry `(p, q)` is the
    sum over `k` of row `p` of the left factor times column `q` of the right one. -/
theorem matmul_block_apply (l : FVec Ideal S2000x128 .bf16) (r : FVec Ideal S128x128 .bf16) (p : Fin 2000) (q : Fin 128) :
    matmul dot_S2000x128_S128x128_S2000x128_1_0_0_1_n_n none l r (constant S2000x128 .f32 0x00000000#32) (ix2 p q)
      = ∑ k : Fin 128, l (ix2 p k) * r (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k :=
    funext fun a => Fin.ext (by
      match a with
      | ⟨0, _⟩ => exact dot_lhs0 _ _
      | ⟨1, _⟩ => exact (dot_lhs1 _ _).trans hk)
  have er : dot_S2000x128_S128x128_S2000x128_1_0_0_1_n_n.rhsIdx (ix2 p q) ((contrEquiv1 dot_S2000x128_S128x128_S2000x128_1_0_0_1_n_n 128 rfl rfl).symm k) = ix2 k q :=
    funext fun a => Fin.ext (by
      match a with
      | ⟨0, _⟩ => exact (dot_rhs0 _ _).trans hk
      | ⟨1, _⟩ => exact dot_rhs1 _ _)
  rw [el, er]

/-- The three re-cast and re-formatted operands of the read-out are their blocks, entry by entry. -/
theorem pay2_apply (x : FVec Ideal S2000x128 .f32) (i : S2000x128.Idx) : k2_pay2 (F := Ideal) x i = x i := by
  unfold k2_pay2
  simp only [shapeCast_self]
  rfl
theorem pay3_apply (x : FVec Ideal S2000x128 .f32) (i : S2000x128.Idx) : k2_pay3 (F := Ideal) x i = x i := by
  unfold k2_pay3
  simp only [shapeCast_self]
  rfl
theorem pay5_apply (x : FVec Ideal S128x128 .f32) (i : S128x128.Idx) : k2_pay5 (F := Ideal) x i = x i := by
  unfold k2_pay5
  simp only [shapeCast_self]
  rfl

/-- Entry `(p, q)` of the third layer's features as the body computes them from its blocks: the perceptron
    `relu (relu ((x + a) · W1 + b1) · W2 + b2)` on row `p`. -/
theorem pay4_apply (x a : FVec Ideal S2000x128 .f32) (W1 : FVec Ideal S128x128 .f32) (b1 : FVec Ideal S1x128 .f32)
    (W2 : FVec Ideal S128x128 .f32) (b2 : FVec Ideal S1x128 .f32) (p : Fin 2000) (q : Fin 128) :
    k2_pay4 (F := Ideal) x a W1 b1 W2 b2 (ix2 p q)
      = max (∑ k : Fin 128,
            max (∑ l : Fin 128, (x (ix2 p l) + a (ix2 p l)) * W1 (ix2 l k) + b1 (ix2 (0 : Fin 1) k)) 0 * W2 (ix2 k q)
          + b2 (ix2 (0 : Fin 1) q)) 0 := by
  unfold k2_pay4
  simp only [shapeCast_self]
  rw [truncf_apply, maximumf_apply, addf_apply, matmul_block_apply, broadcastTo_1b_ab_apply, broadcast_apply]
  simp only [truncf_apply, maximumf_apply, addf_apply, matmul_block_apply, broadcastTo_1b_ab_apply, broadcast_apply,
    Ideal.ofBits_def, Ideal.ofBits_zero_f32]

/-- Entry `(p, q)` of what the body stores: `relu (x₀ · Wc₀ + x₁ · Wc₁ + x₂ · Wc₂ + bc)`, the three products added
    in this order and the one-row bias last, `x₂` being the third layer's features computed from the blocks. -/
theorem pay_apply (xp a x0 x1 : FVec Ideal S2000x128 .f32) (W1 : FVec Ideal S128x128 .f32) (b1 : FVec Ideal S1x128 .f32)
    (W2 : FVec Ideal S128x128 .f32) (b2 : FVec Ideal S1x128 .f32) (Wc0 Wc1 Wc2 : FVec Ideal S128x128 .f32)
    (bc : FVec Ideal S1x128 .f32) (p : Fin 2000) (q : Fin 128) :
    k2_pay1 (F := Ideal) (k2_pay2 x0) (k2_pay3 x1) (k2_pay4 xp a W1 b1 W2 b2) (k2_pay5 Wc0) Wc1 Wc2 bc (ix2 p q)
      = max (((∑ k : Fin 128, x0 (ix2 p k) * Wc0 (ix2 k q) + ∑ k : Fin 128, x1 (ix2 p k) * Wc1 (ix2 k q))
          + ∑ k : Fin 128,
              max (∑ m : Fin 128,
                    max (∑ l : Fin 128, (xp (ix2 p l) + a (ix2 p l)) * W1 (ix2 l m) + b1 (ix2 (0 : Fin 1) m)) 0 * W2 (ix2 m k)
                  + b2 (ix2 (0 : Fin 1) k)) 0 * Wc2 (ix2 k q))
        + bc (ix2 (0 : Fin 1) q)) 0 := by
  unfold k2_pay1
  simp only [shapeCast_self]
  rw [maximumf_apply, addf_apply, addf_apply, addf_apply, matmul_block_apply, matmul_block_apply, matmul_block_apply,
    broadcastTo_1b_ab_apply, broadcast_apply]
  simp only [truncf_apply, pay2_apply, pay3_apply, pay4_apply, pay5_apply, Ideal.ofBits_def, Ideal.ofBits_zero_f32]

/-! ## From the body's blocks to the array -/

/-- Entry `(p, q)` of `relu (x₀ · Wc₀ + x₁ · Wc₁ + x₂ · Wc₂ + bc)` over THREE separate 128 × 128 matrices, the three
    products added in this order and the bias last. -/
def jk3At (x0 x1 x2 : FVec Ideal S50000x128 .f32) (Wc0 Wc1 Wc2 : FVec Ideal S128x128 .f32)
    (bc : FVec Ideal Cert.GineSpec.S128 .f32) (p : Fin 50000) (q : Fin 128) : EReal :=
  max (((∑ k : Fin 128, x0 (ix2 p k) * Wc0 (ix2 k q) + ∑ k : Fin 128, x1 (ix2 p k) * Wc1 (ix2 k q))
      + ∑ k : Fin 128, x2 (ix2 p k) * Wc2 (ix2 k q)) + bc (ix1 q)) 0

/-- The same as an array. -/
def jk3 (x0 x1 x2 : FVec Ideal S50000x128 .f32) (Wc0 Wc1 Wc2 : FVec Ideal S128x128 .f32)
    (bc : FVec Ideal Cert.GineSpec.S128 .f32) : FVec Ideal S50000x128 .f32 :=
  fun i => jk3At x0 x1 x2 Wc0 Wc1 Wc2 bc (i 0) (i 1)

theorem jk3_ix2 (x0 x1 x2 : FVec Ideal S50000x128 .f32) (Wc0 Wc1 Wc2 : FVec Ideal S128x128 .f32)
    (bc : FVec Ideal Cert.GineSpec.S128 .f32) (p : Fin 50000) (q : Fin 128) :
    jk3 x0 x1 x2 Wc0 Wc1 Wc2 bc (ix2 p q) = jk3At x0 x1 x2 Wc0 Wc1 Wc2 bc p q := rfl

/-- The body's entry `(p, r)` is the read-out at row `P` of the whole arrays — the third layer's features being the
    specification's perceptron of the second layer's features and their aggregation — when row `p` of the four row
    blocks is row `P` of their arrays and the weight and bias blocks are the whole weight and bias arrays. -/
theorem block_eq (xp a x0 x1 : FVec Ideal S2000x128 .f32) (w1 : FVec Ideal S128x128 .f32) (b1 : FVec Ideal S1x128 .f32)
    (w2 : FVec Ideal S128x128 .f32) (b2 : FVec Ideal S1x128 .f32) (wc0 wc1 wc2 : FVec Ideal S128x128 .f32)
    (bc : FVec Ideal S1x128 .f32)
    (XP A X0 X1 : FVec Ideal S50000x128 .f32) (W1 : FVec Ideal S128x128 .f32) (B1 : FVec Ideal S1x128 .f32)
    (W2 : FVec Ideal S128x128 .f32) (B2 : FVec Ideal S1x128 .f32) (WC0 WC1 WC2 : FVec Ideal S128x128 .f32)
    (BC : FVec Ideal S1x128 .f32) (p : Fin 2000) (r : Fin 128) (P : Fin 50000)
    (hxp : ∀ l : Fin 128, xp (ix2 p l) = XP (ix2 P l)) (ha : ∀ l : Fin 128, a (ix2 p l) = A (ix2 P l))
    (hx0 : ∀ l : Fin 128, x0 (ix2 p l) = X0 (ix2 P l)) (hx1 : ∀ l : Fin 128, x1 (ix2 p l) = X1 (ix2 P l))
    (hw1 : ∀ l k : Fin 128, w1 (ix2 l k) = W1 (ix2 l k)) (hb1 : ∀ k : Fin 128, b1 (ix2 (0 : Fin 1) k) = B1 (ix2 (0 : Fin 1) k))
    (hw2 : ∀ l k : Fin 128, w2 (ix2 l k) = W2 (ix2 l k)) (hb2 : ∀ k : Fin 128, b2 (ix2 (0 : Fin 1) k) = B2 (ix2 (0 : Fin 1) k))
    (hwc0 : ∀ l k : Fin 128, wc0 (ix2 l k) = WC0 (ix2 l k)) (hwc1 : ∀ l k : Fin 128, wc1 (ix2 l k) = WC1 (ix2 l k))
    (hwc2 : ∀ l k : Fin 128, wc2 (ix2 l k) = WC2 (ix2 l k)) (hbc : ∀ k : Fin 128, bc (ix2 (0 : Fin 1) k) = BC (ix2 (0 : Fin 1) k)) :
    k2_pay1 (F := Ideal) (k2_pay2 x0) (k2_pay3 x1) (k2_pay4 xp a w1 b1 w2 b2) (k2_pay5 wc0) wc1 wc2 bc (ix2 p r)
      = jk3At X0 X1 (Cert.GineSpec.mlp XP A W1 (rowVec B1) W2 (rowVec B2)) WC0 WC1 WC2 (rowVec BC) P r := by
  rw [pay_apply]
  simp only [hxp, ha, hx0, hx1, hw1, hb1, hw2, hb2, hwc0, hwc1, hwc2, hbc]
  rfl

section Array
variable (V : (c : Dev nD) → (b : Ref sig .tc) → Buf (Elt Ideal) ((c : Thread nD τ).loc b))
variable (q : Fin cfg2.W → Idealize.SL.RA.PosShare Idealize.SL.RA.TreeShare)

theorem hz : (![0, 0] : Fin 2 → Nat) = fun _ => 0 := funext fun a => by fin_cases a <;> rfl

/-- What the output array ends holding: the read-out of the first two layers' features and of the third layer's,
    computed here from the second layer's features and their aggregation, over the three slices of the read-out
    matrix and the bias rows as the region finds them. -/
def G (c : Dev nD) : FVec Ideal S50000x128 .f32 :=
  jk3 (V c main_v18) (V c main_v33)
    (Cert.GineSpec.mlp (V c main_v33) (V c main_v45) (V c main_arg11) (rowVec (V c main_v49)) (V c main_arg13) (rowVec (V c main_v50)))
    (V c main_v46) (V c main_v47) (V c main_v48) (rowVec (V c main_v51))

/-! The printed index maps over the 25 grid points: the four row windows move with the output window, whose block
    index is the point's number on the row axis and 0 on the column axis; the weight and bias windows stay at 0. So a
    row window's block holds 2000 consecutive rows of its array, and a weight or bias window's block all of its array. -/

theorem idx_12 : ∀ t : Fin cfg2.N, win2_12.index t (0 : Fin 2) = t.val ∧ win2_12.index t (1 : Fin 2) = 0 :=
  (by decide +kernel : ∀ t : Fin grid2.N, _)

theorem idx_0 : ∀ t : Fin cfg2.N, win2_0.index t (0 : Fin 2) = t.val ∧ win2_0.index t (1 : Fin 2) = 0 :=
  (by decide +kernel : ∀ t : Fin grid2.N, _)

theorem idx_1 : ∀ t : Fin cfg2.N, win2_1.index t (0 : Fin 2) = t.val ∧ win2_1.index t (1 : Fin 2) = 0 :=
  (by decide +kernel : ∀ t : Fin grid2.N, _)

theorem idx_2 : ∀ t : Fin cfg2.N, win2_2.index t (0 : Fin 2) = t.val ∧ win2_2.index t (1 : Fin 2) = 0 :=
  (by decide +kernel : ∀ t : Fin grid2.N, _)

theorem idx_3 : ∀ t : Fin cfg2.N, win2_3.index t (0 : Fin 2) = t.val ∧ win2_3.index t (1 : Fin 2) = 0 :=
  (by decide +kernel : ∀ t : Fin grid2.N, _)

theorem idx_4 : ∀ t : Fin cfg2.N, win2_4.index t (0 : Fin 2) = 0 ∧ win2_4.index t (1 : Fin 2) = 0 :=
  (by decide +kernel : ∀ t : Fin grid2.N, _)

theorem idx_5 : ∀ t : Fin cfg2.N, win2_5.index t (0 : Fin 2) = 0 ∧ win2_5.index t (1 : Fin 2) = 0 :=
  (by decide +kernel : ∀ t : Fin grid2.N, _)

theorem idx_6 : ∀ t : Fin cfg2.N, win2_6.index t (0 : Fin 2) = 0 ∧ win2_6.index t (1 : Fin 2) = 0 :=
  (by decide +kernel : ∀ t : Fin grid2.N, _)

theorem idx_7 : ∀ t : Fin cfg2.N, win2_7.index t (0 : Fin 2) = 0 ∧ win2_7.index t (1 : Fin 2) = 0 :=
  (by decide +kernel : ∀ t : Fin grid2.N, _)

theorem idx_8 : ∀ t : Fin cfg2.N, win2_8.index t (0 : Fin 2) = 0 ∧ win2_8.index t (1 : Fin 2) = 0 :=
  (by decide +kernel : ∀ t : Fin grid2.N, _)

theorem idx_9 : ∀ t : Fin cfg2.N, win2_9.index t (0 : Fin 2) = 0 ∧ win2_9.index t (1 : Fin 2) = 0 :=
  (by decide +kernel : ∀ t : Fin grid2.N, _)

theorem idx_10 : ∀ t : Fin cfg2.N, win2_10.index t (0 : Fin 2) = 0 ∧ win2_10.index t (1 : Fin 2) = 0 :=
  (by decide +kernel : ∀ t : Fin grid2.N, _)

theorem idx_11 : ∀ t : Fin cfg2.N, win2_11.index t (0 : Fin 2) = 0 ∧ win2_11.index t (1 : Fin 2) = 0 :=
  (by decide +kernel : ∀ t : Fin grid2.N, _)

/-- Row `p` of window 0's block at point `t` is row `2000·t + p` of its array. -/
theorem read_0 (c : Dev nD) (t : Fin cfg2.N) (p : Fin 2000) (l : Fin 128) (hP : t.val * 2000 + p.val < 50000) :
    iblk2 V c 0 t (ix2 p l) = V c main_v33 (ix2 (⟨t.val * 2000 + p.val, hP⟩ : Fin 50000) l) := by
  obtain ⟨e0, e1⟩ := idx_0 t
  show V c main_v33 (((cfg2.win 0).blk t).view.emb (ix2 p l)) = _
  refine congrArg (V c main_v33) (funext fun a => Fin.ext ?_)
  match a with
  | ⟨0, _⟩ => show win2_0.index t (0 : Fin 2) * 2000 + 1 * p.val = t.val * 2000 + p.val; omega
  | ⟨1, _⟩ => show win2_0.index t (1 : Fin 2) * 128 + 1 * l.val = l.val; omega

/-- Row `p` of window 1's block at point `t` is row `2000·t + p` of its array. -/
theorem read_1 (c : Dev nD) (t : Fin cfg2.N) (p : Fin 2000) (l : Fin 128) (hP : t.val * 2000 + p.val < 50000) :
    iblk2 V c 1 t (ix2 p l) = V c main_v45 (ix2 (⟨t.val * 2000 + p.val, hP⟩ : Fin 50000) l) := by
  obtain ⟨e0, e1⟩ := idx_1 t
  show V c main_v45 (((cfg2.win 1).blk t).view.emb (ix2 p l)) = _
  refine congrArg (V c main_v45) (funext fun a => Fin.ext ?_)
  match a with
  | ⟨0, _⟩ => show win2_1.index t (0 : Fin 2) * 2000 + 1 * p.val = t.val * 2000 + p.val; omega
  | ⟨1, _⟩ => show win2_1.index t (1 : Fin 2) * 128 + 1 * l.val = l.val; omega

/-- Row `p` of window 2's block at point `t` is row `2000·t + p` of its array. -/
theorem read_2 (c : Dev nD) (t : Fin cfg2.N) (p : Fin 2000) (l : Fin 128) (hP : t.val * 2000 + p.val < 50000) :
    iblk2 V c 2 t (ix2 p l) = V c main_v18 (ix2 (⟨t.val * 2000 + p.val, hP⟩ : Fin 50000) l) := by
  obtain ⟨e0, e1⟩ := idx_2 t
  show V c main_v18 (((cfg2.win 2).blk t).view.emb (ix2 p l)) = _
  refine congrArg (V c main_v18) (funext fun a => Fin.ext ?_)
  match a with
  | ⟨0, _⟩ => show win2_2.index t (0 : Fin 2) * 2000 + 1 * p.val = t.val * 2000 + p.val; omega
  | ⟨1, _⟩ => show win2_2.index t (1 : Fin 2) * 128 + 1 * l.val = l.val; omega

/-- Row `p` of window 3's block at point `t` is row `2000·t + p` of its array. -/
theorem read_3 (c : Dev nD) (t : Fin cfg2.N) (p : Fin 2000) (l : Fin 128) (hP : t.val * 2000 + p.val < 50000) :
    iblk2 V c 3 t (ix2 p l) = V c main_v33 (ix2 (⟨t.val * 2000 + p.val, hP⟩ : Fin 50000) l) := by
  obtain ⟨e0, e1⟩ := idx_3 t
  show V c main_v33 (((cfg2.win 3).blk t).view.emb (ix2 p l)) = _
  refine congrArg (V c main_v33) (funext fun a => Fin.ext ?_)
  match a with
  | ⟨0, _⟩ => show win2_3.index t (0 : Fin 2) * 2000 + 1 * p.val = t.val * 2000 + p.val; omega
  | ⟨1, _⟩ => show win2_3.index t (1 : Fin 2) * 128 + 1 * l.val = l.val; omega

/-- Window 4's block at any point is the whole of its array. -/
theorem read_4 (c : Dev nD) (t : Fin cfg2.N) (l k : Fin 128) : iblk2 V c 4 t (ix2 l k) = V c main_arg11 (ix2 l k) := by
  obtain ⟨e0, e1⟩ := idx_4 t
  show V c main_arg11 (((cfg2.win 4).blk t).view.emb (ix2 l k)) = _
  refine congrArg (V c main_arg11) (funext fun a => Fin.ext ?_)
  match a with
  | ⟨0, _⟩ => show win2_4.index t (0 : Fin 2) * 128 + 1 * l.val = l.val; omega
  | ⟨1, _⟩ => show win2_4.index t (1 : Fin 2) * 128 + 1 * k.val = k.val; omega

/-- Window 5's block at any point is the one row of its array. -/
theorem read_5 (c : Dev nD) (t : Fin cfg2.N) (k : Fin 128) :
    iblk2 V c 5 t (ix2 (0 : Fin 1) k) = V c main_v49 (ix2 (0 : Fin 1) k) := by
  obtain ⟨e0, e1⟩ := idx_5 t
  show V c main_v49 (((cfg2.win 5).blk t).view.emb (ix2 (0 : Fin 1) k)) = _
  refine congrArg (V c main_v49) (funext fun a => Fin.ext ?_)
  match a with
  | ⟨0, _⟩ => show win2_5.index t (0 : Fin 2) * 1 + 1 * 0 = 0; omega
  | ⟨1, _⟩ => show win2_5.index t (1 : Fin 2) * 128 + 1 * k.val = k.val; omega

/-- Window 6's block at any point is the whole of its array. -/
theorem read_6 (c : Dev nD) (t : Fin cfg2.N) (l k : Fin 128) : iblk2 V c 6 t (ix2 l k) = V c main_arg13 (ix2 l k) := by
  obtain ⟨e0, e1⟩ := idx_6 t
  show V c main_arg13 (((cfg2.win 6).blk t).view.emb (ix2 l k)) = _
  refine congrArg (V c main_arg13) (funext fun a => Fin.ext ?_)
  match a with
  | ⟨0, _⟩ => show win2_6.index t (0 : Fin 2) * 128 + 1 * l.val = l.val; omega
  | ⟨1, _⟩ => show win2_6.index t (1 : Fin 2) * 128 + 1 * k.val = k.val; omega

/-- Window 7's block at any point is the one row of its array. -/
theorem read_7 (c : Dev nD) (t : Fin cfg2.N) (k : Fin 128) :
    iblk2 V c 7 t (ix2 (0 : Fin 1) k) = V c main_v50 (ix2 (0 : Fin 1) k) := by
  obtain ⟨e0, e1⟩ := idx_7 t
  show V c main_v50 (((cfg2.win 7).blk t).view.emb (ix2 (0 : Fin 1) k)) = _
  refine congrArg (V c main_v50) (funext fun a => Fin.ext ?_)
  match a with
  | ⟨0, _⟩ => show win2_7.index t (0 : Fin 2) * 1 + 1 * 0 = 0; omega
  | ⟨1, _⟩ => show win2_7.index t (1 : Fin 2) * 128 + 1 * k.val = k.val; omega

/-- Window 8's block at any point is the whole of its array. -/
theorem read_8 (c : Dev nD) (t : Fin cfg2.N) (l k : Fin 128) : iblk2 V c 8 t (ix2 l k) = V c main_v46 (ix2 l k) := by
  obtain ⟨e0, e1⟩ := idx_8 t
  show V c main_v46 (((cfg2.win 8).blk t).view.emb (ix2 l k)) = _
  refine congrArg (V c main_v46) (funext fun a => Fin.ext ?_)
  match a with
  | ⟨0, _⟩ => show win2_8.index t (0 : Fin 2) * 128 + 1 * l.val = l.val; omega
  | ⟨1, _⟩ => show win2_8.index t (1 : Fin 2) * 128 + 1 * k.val = k.val; omega

/-- Window 9's block at any point is the whole of its array. -/
theorem read_9 (c : Dev nD) (t : Fin cfg2.N) (l k : Fin 128) : iblk2 V c 9 t (ix2 l k) = V c main_v47 (ix2 l k) := by
  obtain ⟨e0, e1⟩ := idx_9 t
  show V c main_v47 (((cfg2.win 9).blk t).view.emb (ix2 l k)) = _
  refine congrArg (V c main_v47) (funext fun a => Fin.ext ?_)
  match a with
  | ⟨0, _⟩ => show win2_9.index t (0 : Fin 2) * 128 + 1 * l.val = l.val; omega
  | ⟨1, _⟩ => show win2_9.index t (1 : Fin 2) * 128 + 1 * k.val = k.val; omega

/-- Window 10's block at any point is the whole of its array. -/
theorem read_10 (c : Dev nD) (t : Fin cfg2.N) (l k : Fin 128) : iblk2 V c 10 t (ix2 l k) = V c main_v48 (ix2 l k) := by
  obtain ⟨e0, e1⟩ := idx_10 t
  show V c main_v48 (((cfg2.win 10).blk t).view.emb (ix2 l k)) = _
  refine congrArg (V c main_v48) (funext fun a => Fin.ext ?_)
  match a with
  | ⟨0, _⟩ => show win2_10.index t (0 : Fin 2) * 128 + 1 * l.val = l.val; omega
  | ⟨1, _⟩ => show win2_10.index t (1 : Fin 2) * 128 + 1 * k.val = k.val; omega

/-- Window 11's block at any point is the one row of its array. -/
theorem read_11 (c : Dev nD) (t : Fin cfg2.N) (k : Fin 128) :
    iblk2 V c 11 t (ix2 (0 : Fin 1) k) = V c main_v51 (ix2 (0 : Fin 1) k) := by
  obtain ⟨e0, e1⟩ := idx_11 t
  show V c main_v51 (((cfg2.win 11).blk t).view.emb (ix2 (0 : Fin 1) k)) = _
  refine congrArg (V c main_v51) (funext fun a => Fin.ext ?_)
  match a with
  | ⟨0, _⟩ => show win2_11.index t (0 : Fin 2) * 1 + 1 * 0 = 0; omega
  | ⟨1, _⟩ => show win2_11.index t (1 : Fin 2) * 128 + 1 * k.val = k.val; omega

/-- What point `t` writes back is block `t` of `G`. -/
theorem flushed_eq (c : Dev nD) (t : Fin cfg2.N) :
    (dat2 (F := Ideal) V q c).flushed 12 t = ((cfg2.win 12).blk t).view.read (Elt Ideal) (G V c) := by
  show (cfg2.win 12).cut (grid2.coords t) ((dat2 (F := Ideal) V q c).after 12 t) = _
  rw [after2_12]
  unfold out2
  rw [View.canon_unit_zero hz]
  simp only [View.ld_unit_zero (S := S2000x128) hz, View.ld_unit_zero (S := S128x128) hz, View.ld_unit_zero (S := S1x128) hz]
  obtain ⟨e12_0, e12_1⟩ := idx_12 t
  have hN : t.val < 25 := by
    have h1 : t.val < grid2.N := t.isLt
    have h2 : grid2.N = 25 := N_2
    omega
  funext j
  have hj0 : (j 0).val < 2000 := (j 0).isLt
  have hj1 : (j 1).val < 128 := (j 1).isLt
  have hP : t.val * 2000 + (j 0).val < 50000 := by omega
  show k2_pay1 (F := Ideal) (k2_pay2 (iblk2 V c 2 t)) (k2_pay3 (iblk2 V c 3 t))
      (k2_pay4 (iblk2 V c 0 t) (iblk2 V c 1 t) (iblk2 V c 4 t) (iblk2 V c 5 t) (iblk2 V c 6 t) (iblk2 V c 7 t))
      (k2_pay5 (iblk2 V c 8 t)) (iblk2 V c 9 t) (iblk2 V c 10 t) (iblk2 V c 11 t)
      ((cfg2.win 12).xinj (grid2.coords t) j) = G V c (((cfg2.win 12).blk t).view.emb j)
  have ej : (cfg2.win 12).xinj (grid2.coords t) j = ix2 (⟨(j 0).val, hj0⟩ : Fin 2000) (⟨(j 1).val, hj1⟩ : Fin 128) :=
    funext fun a => Fin.ext (by match a with | ⟨0, _⟩ => rfl | ⟨1, _⟩ => rfl)
  have eJ : ((cfg2.win 12).blk t).view.emb j = ix2 (⟨t.val * 2000 + (j 0).val, hP⟩ : Fin 50000) (⟨(j 1).val, hj1⟩ : Fin 128) :=
    funext fun a => Fin.ext (by
      match a with
      | ⟨0, _⟩ => show win2_12.index t (0 : Fin 2) * 2000 + 1 * (j 0).val = t.val * 2000 + (j 0).val; omega
      | ⟨1, _⟩ => show win2_12.index t (1 : Fin 2) * 128 + 1 * (j 1).val = (j 1).val; omega)
  rw [ej, eJ]
  unfold G
  rw [jk3_ix2]
  exact block_eq _ _ _ _ _ _ _ _ _ _ _ _ _ _ _ _ _ _ _ _ _ _ _ _ _ _ _
    (fun l => read_0 V c t _ l hP) (fun l => read_1 V c t _ l hP) (fun l => read_2 V c t _ l hP) (fun l => read_3 V c t _ l hP)
    (fun l k => read_4 V c t l k) (fun k => read_5 V c t k) (fun l k => read_6 V c t l k) (fun k => read_7 V c t k)
    (fun l k => read_8 V c t l k) (fun l k => read_9 V c t l k) (fun l k => read_10 V c t l k) (fun k => read_11 V c t k)

/-- An index of the array is in point `t`'s block iff each coordinate is in the block's range on its axis. -/
theorem mem_blk (t : Fin cfg2.N) (i : S50000x128.Idx) :
    i ∈ ((cfg2.win 12).blk t).view.set ↔ ∀ a : Fin 2, win2_12.index t a * S2000x128.size a ≤ (i a).val
      ∧ (i a).val < win2_12.index t a * S2000x128.size a + S2000x128.size a := by
  show i ∈ ((View.whole main_v52).slice (win2_12.rect t)).set ↔ _
  rw [View.set_slice_whole, Rect.mem_set_unit]
  exact Iff.rfl

/-- Every row of the array is in the block of the point that its number divided by 2000 names. -/
theorem cover (i : S50000x128.Idx) :
    ∃ t : Fin cfg2.N, (cfg2.win 12).flush t = true ∧ i ∈ ((cfg2.win 12).blk t).view.set := by
  have hi0 : (i 0).val < 50000 := (i 0).isLt
  have hi1 : (i 1).val < 128 := (i 1).isLt
  have hN : grid2.N = 25 := N_2
  have ht : (i 0).val / 2000 < cfg2.N := by show (i 0).val / 2000 < grid2.N; omega
  obtain ⟨e120, e121⟩ := idx_12 ⟨(i 0).val / 2000, ht⟩
  refine ⟨⟨(i 0).val / 2000, ht⟩, flush2_12 _, ?_⟩
  rw [mem_blk]
  intro a
  match a with
  | ⟨0, _⟩ =>
    show win2_12.index ⟨(i 0).val / 2000, ht⟩ (0 : Fin 2) * 2000 ≤ (i 0).val
      ∧ (i 0).val < win2_12.index ⟨(i 0).val / 2000, ht⟩ (0 : Fin 2) * 2000 + 2000
    rw [e120]; show (i 0).val / 2000 * 2000 ≤ (i 0).val ∧ (i 0).val < (i 0).val / 2000 * 2000 + 2000; omega
  | ⟨1, _⟩ =>
    show win2_12.index ⟨(i 0).val / 2000, ht⟩ (1 : Fin 2) * 128 ≤ (i 1).val
      ∧ (i 1).val < win2_12.index ⟨(i 0).val / 2000, ht⟩ (1 : Fin 2) * 128 + 128
    rw [e121]; omega

/-- THE OUTPUT ARRAY of the region, after its 25 points. -/
theorem final (c : Dev nD) : (dat2 (F := Ideal) V q c).arrAt 12 cfg2.N = G V c :=
  (dat2 (F := Ideal) V q c).arrAt_eq_of_cover 12 (G V c) (fun t _ => flushed_eq V q c t) (cover)

end Array

/-! ## The host operations that feed the regions, read at an index

The bias vectors reach the regions re-cast as one-row arrays, and the read-out matrix as its three slices of 128
rows. Read back, a re-cast vector's row is the vector, and the three-slice read-out is the specification's read-out
over the whole matrix. -/

/-- The row of a vector re-cast as a one-row array is the vector. -/
theorem rowVec_shapeCast (b : FVec Ideal S128 .f32) (h : S128.ShapeCasts S1x128) : rowVec (shapeCast S1x128 b h) = b := by
  funext i
  obtain ⟨k, rfl⟩ : ∃ k : Fin 128, i = ix1 k := ⟨i 0, eq_ix1 i⟩
  rw [rowVec_ix1]
  exact shapeCast_a_1a_apply b h 0 k

/-- Row `k` of the slice of rows `0 … 127` is row `k` of the matrix. -/
theorem slice_blk0 (Wc : FVec Ideal S384x128 .f32) (h : S384x128.Slices ![0, 0] S128x128) (k q : Fin 128) :
    extractStridedSlice S128x128 ![0, 0] Wc h (ix2 k q) = Wc (ix2 (Cert.GineSpec.blk0 k) q) :=
  extractStridedSlice_apply ![0, 0] Wc h (ix2 k q) (ix2 (Cert.GineSpec.blk0 k) q) (fun a => by
    match a with
    | ⟨0, _⟩ => show k.val = 0 + k.val; omega
    | ⟨1, _⟩ => show q.val = 0 + q.val; omega)

/-- Row `k` of the slice of rows `128 … 255` is row `128 + k` of the matrix. -/
theorem slice_blk1 (Wc : FVec Ideal S384x128 .f32) (h : S384x128.Slices ![128, 0] S128x128) (k q : Fin 128) :
    extractStridedSlice S128x128 ![128, 0] Wc h (ix2 k q) = Wc (ix2 (Cert.GineSpec.blk1 k) q) :=
  extractStridedSlice_apply ![128, 0] Wc h (ix2 k q) (ix2 (Cert.GineSpec.blk1 k) q) (fun a => by
    match a with
    | ⟨0, _⟩ => show 128 + k.val = 128 + k.val; rfl
    | ⟨1, _⟩ => show q.val = 0 + q.val; omega)

/-- Row `k` of the slice of rows `256 … 383` is row `256 + k` of the matrix. -/
theorem slice_blk2 (Wc : FVec Ideal S384x128 .f32) (h : S384x128.Slices ![256, 0] S128x128) (k q : Fin 128) :
    extractStridedSlice S128x128 ![256, 0] Wc h (ix2 k q) = Wc (ix2 (Cert.GineSpec.blk2 k) q) :=
  extractStridedSlice_apply ![256, 0] Wc h (ix2 k q) (ix2 (Cert.GineSpec.blk2 k) q) (fun a => by
    match a with
    | ⟨0, _⟩ => show 256 + k.val = 256 + k.val; rfl
    | ⟨1, _⟩ => show q.val = 0 + q.val; omega)

/-- The read-out over three matrices that are the three blocks of 128 rows of one matrix is the specification's
    read-out over that matrix. -/
theorem jk3_eq_jk (x0 x1 x2 : FVec Ideal S50000x128 .f32) (Wc : FVec Ideal S384x128 .f32)
    (Wc0 Wc1 Wc2 : FVec Ideal S128x128 .f32) (bc : FVec Ideal Cert.GineSpec.S128 .f32)
    (h0 : ∀ k q : Fin 128, Wc0 (ix2 k q) = Wc (ix2 (Cert.GineSpec.blk0 k) q))
    (h1 : ∀ k q : Fin 128, Wc1 (ix2 k q) = Wc (ix2 (Cert.GineSpec.blk1 k) q))
    (h2 : ∀ k q : Fin 128, Wc2 (ix2 k q) = Wc (ix2 (Cert.GineSpec.blk2 k) q)) :
    jk3 x0 x1 x2 Wc0 Wc1 Wc2 bc = Cert.GineSpec.jk x0 x1 x2 Wc bc := by
  funext i
  obtain ⟨p, q, rfl⟩ : ∃ (p : Fin 50000) (q : Fin 128), i = ix2 p q := ⟨i 0, i 1, eq_ix2 i⟩
  rw [jk3_ix2, Cert.GineSpec.jk_ix2]
  unfold jk3At Cert.GineSpec.jkAt
  simp only [h0, h1, h2]

/-- The read-out over the three slices of the read-out matrix and the re-cast bias, as the third region finds them,
    is the specification's read-out. -/
theorem jk3_slices (x0 x1 x2 : FVec Ideal S50000x128 .f32) (Wc : FVec Ideal S384x128 .f32) (bc : FVec Ideal S128 .f32)
    (h0 : S384x128.Slices ![0, 0] S128x128) (h1 : S384x128.Slices ![128, 0] S128x128)
    (h2 : S384x128.Slices ![256, 0] S128x128) (hb : S128.ShapeCasts S1x128) :
    jk3 x0 x1 x2 (extractStridedSlice S128x128 ![0, 0] Wc h0) (extractStridedSlice S128x128 ![128, 0] Wc h1)
        (extractStridedSlice S128x128 ![256, 0] Wc h2) (rowVec (shapeCast S1x128 bc hb))
      = Cert.GineSpec.jk x0 x1 x2 Wc bc := by
  rw [rowVec_shapeCast]
  exact jk3_eq_jk x0 x1 x2 Wc _ _ _ bc (slice_blk0 Wc h0) (slice_blk1 Wc h1) (slice_blk2 Wc h2)

end Cert.KernelIdeal.Val2

end
-- ==== Proof.IdealValueOut.lean ====
/-
  The three regions chained are the specification.

  Each region's output array is the specification's perceptron (regions 1 and 2) or read-out (region 3) of the arrays
  it finds; the biases reach it re-cast as one-row arrays and the read-out matrix as its three slices. Substituting
  each region's result into the next — the aggregation being the same whole-array term on both sides — and reading
  the re-cast and sliced operands back gives `Cert.GineSpec.out` of the seventeen arguments.
-/
import proofs.«113067_j58007828300389_2_alg».proof.Proof.IdealValue2

noncomputable section

namespace Cert.KernelIdeal.ValOut

open Cert.KernelIdeal Idealize.ShloMosaic Idealize.ShloMosaic.ValueIdx
open Cert.GineSpec (agg mlp layer jk out)
open Cert.KernelIdeal.Val0 (rowVec)
open Cert.KernelIdeal.Val2 (jk3 rowVec_shapeCast jk3_slices)

/-- With `y0` the first region's result and `y1` the second's (each the perceptron of the previous features, their
    aggregation, and that layer's weights and re-cast biases), the third region's result is the specification. -/
theorem chain_eq_out (x : FVec Ideal S50000x128 .f32) (ei : IVec S2x600000 32) (ea : FVec Ideal S600000x128 .f32)
    (W1_0 : FVec Ideal S128x128 .f32) (b1_0 : FVec Ideal S128 .f32) (W2_0 : FVec Ideal S128x128 .f32) (b2_0 : FVec Ideal S128 .f32)
    (W1_1 : FVec Ideal S128x128 .f32) (b1_1 : FVec Ideal S128 .f32) (W2_1 : FVec Ideal S128x128 .f32) (b2_1 : FVec Ideal S128 .f32)
    (W1_2 : FVec Ideal S128x128 .f32) (b1_2 : FVec Ideal S128 .f32) (W2_2 : FVec Ideal S128x128 .f32) (b2_2 : FVec Ideal S128 .f32)
    (Wc : FVec Ideal S384x128 .f32) (bc : FVec Ideal S128 .f32)
    (hb : S128.ShapeCasts S1x128) (h0 : S384x128.Slices ![0, 0] S128x128) (h1 : S384x128.Slices ![128, 0] S128x128)
    (h2 : S384x128.Slices ![256, 0] S128x128)
    (y0 y1 : FVec Ideal S50000x128 .f32)
    (hy0 : y0 = mlp x (agg x ei ea) W1_0 (rowVec (shapeCast S1x128 b1_0 hb)) W2_0 (rowVec (shapeCast S1x128 b2_0 hb)))
    (hy1 : y1 = mlp y0 (agg y0 ei ea) W1_1 (rowVec (shapeCast S1x128 b1_1 hb)) W2_1 (rowVec (shapeCast S1x128 b2_1 hb))) :
    jk3 y0 y1 (mlp y1 (agg y1 ei ea) W1_2 (rowVec (shapeCast S1x128 b1_2 hb)) W2_2 (rowVec (shapeCast S1x128 b2_2 hb)))
        (extractStridedSlice S128x128 ![0, 0] Wc h0) (extractStridedSlice S128x128 ![128, 0] Wc h1)
        (extractStridedSlice S128x128 ![256, 0] Wc h2) (rowVec (shapeCast S1x128 bc hb))
      = out x ei ea W1_0 b1_0 W2_0 b2_0 W1_1 b1_1 W2_1 b2_1 W1_2 b1_2 W2_2 b2_2 Wc bc := by
  rw [jk3_slices]
  simp only [rowVec_shapeCast] at hy0 hy1 ⊢
  subst hy0
  subst hy1
  rfl

end Cert.KernelIdeal.ValOut

end
-- ==== Proof.IdealOut.lean ====
/-
  The kernel's final result is the specification's output: each region's result is the specification's perceptron (or final
  layer) of what the region finds, what it finds is launch arrays, earlier results and their edge aggregations, and the chain
  of the three is the specification's three layers followed by its final layer.
-/
import proofs.«113067_j58007828300389_2_alg».proof.Proof.IdealEntry
import proofs.«113067_j58007828300389_2_alg».proof.Proof.IdealValue1
import proofs.«113067_j58007828300389_2_alg».proof.Proof.IdealValueOut

set_option maxRecDepth 16384

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ)

/-! ## The kernel's result as the specification's function of the launch arrays

Each region's result is a perceptron (the last one followed by the three-block final layer) of what its windows hold on
entry; on entry they hold launch arrays, earlier results and the edge aggregation of the layer's input. Chained, the three
results are the specification's three layers and its final layer. -/

set_option maxHeartbeats 2000000 in
/-- The first layer's result. -/
theorem x0_eq (c : Dev nD) : o4 m c = Cert.GineSpec.mlp (m ((c : Thread nD τ).loc main_arg0)) (Cert.GineSpec.agg (m ((c : Thread nD τ).loc main_arg0)) (m ((c : Thread nD τ).loc main_arg1)) (m ((c : Thread nD τ).loc main_arg2))) (m ((c : Thread nD τ).loc main_arg3))
    (Val0.rowVec (shapeCast S1x128 (m ((c : Thread nD τ).loc main_arg4)) shapeCasts_S128_S1x128)) (m ((c : Thread nD τ).loc main_arg5)) (Val0.rowVec (shapeCast S1x128 (m ((c : Thread nD τ).loc main_arg6)) shapeCasts_S128_S1x128)) := by
  have h := Val0.final (ent0 m) q0 c
  unfold Val0.G at h
  dsimp only [ent0] at h
  rw [arg0_at3, agg_at3, arg3_at3, b1row_at3, arg5_at3, b2row_at3] at h
  exact h

set_option maxHeartbeats 2000000 in
/-- The second layer's result, from the first. -/
theorem x1_eq (c : Dev nD) : o8 m c = Cert.GineSpec.mlp (o4 m c) (Cert.GineSpec.agg (o4 m c) (m ((c : Thread nD τ).loc main_arg1)) (m ((c : Thread nD τ).loc main_arg2))) (m ((c : Thread nD τ).loc main_arg7))
    (Val0.rowVec (shapeCast S1x128 (m ((c : Thread nD τ).loc main_arg8)) shapeCasts_S128_S1x128)) (m ((c : Thread nD τ).loc main_arg9)) (Val0.rowVec (shapeCast S1x128 (m ((c : Thread nD τ).loc main_arg10)) shapeCasts_S128_S1x128)) := by
  have h := Val1.final (ent1 m) q1 c
  unfold Val1.G at h
  dsimp only [ent1] at h
  rw [x0_at7, agg_at7, arg7_at7, b1row_at7, arg9_at7, b2row_at7] at h
  exact h

set_option maxHeartbeats 2000000 in
/-- The final result buffer holds the specification's output of the seventeen launch arrays. -/
theorem out_eq (c : Dev nD) : o12 m c = Cert.GineSpec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  have h := Val2.final (ent2 m) q2 c
  unfold Val2.G at h
  dsimp only [ent2] at h
  rw [x0_at11, x1_at11, agg_at11, arg11_at11, v49_at11, arg13_at11, v50_at11, v46_at11, v47_at11, v48_at11, v51_at11] at h
  exact h.trans (ValOut.chain_eq_out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
    shapeCasts_S128_S1x128 slices_S384x128_S128x128_0_0 slices_S384x128_S128x128_128_0 slices_S384x128_S128x128_256_0
    (o4 m c) (o8 m c) (x0_eq m c) (x1_eq m c))

end Cert.KernelIdeal.Whole

end
-- ==== Proof.RefImports.lean ====
import proofs.«113067_j58007828300389_2_alg».proof.Proof.Gen.ReferenceIdeal.Read

/-! The reference's run and its stages read at an index are imported here; the bridge to the kernel's value builds on them. -/
-- ==== Proof.RefIsSpec.lean ====
/-
  The reference program computes the specification.

  The reference is a straight line of host operations. Its result, as the generated stage `val_main_v78` of the
  seventeen arguments, is shown equal to `Cert.GineSpec.out` of the same arguments:

  * the gather / relu / scatter-add stretch of every layer is, after unfolding names, the very term `agg`;
    it is matched as a whole and never read at an index;
  * the dense part of a layer is read at an index `(p, q)`: each `dot_general` is a sum of 128 products, each
    bias a row broadcast down the node axis, each relu a `max` with the splatted zero, which is the real 0;
  * the second and third layers are the first layer's term at other arguments, the node features replaced by
    the previous layer's result, so the index-by-index work is done once;
  * the read-out contracts the concatenation `[x₀ | x₁ | x₂]` (384 columns) with `Wc`: column `k`, `128 + k`,
    `256 + k` of the concatenation is column `k` of `x₀`, `x₁`, `x₂`, and the sum of 384 terms regroups into the
    specification's three sums of 128.
-/
import proofs.«113067_j58007828300389_2_alg».proof.Proof.RefImports
import proofs.«113067_j58007828300389_2_alg».proof.Proof.GineSpec

noncomputable section

open scoped BigOperators

namespace Cert.ReferenceIdeal.RefSpec

open Cert.ReferenceIdeal Cert.ReferenceIdeal.Gen Cert.ReferenceIdeal.Read Idealize.ShloMosaic Idealize.ShloMosaic.ValueIdx
open Cert.GineSpec (agg mlp mlpAt mlp_ix2 layer jk jkAt jk_ix2 out blk0 blk1 blk2 sum384_eq_jkAt)

/-! ## One layer -/

/-- The first layer's stage is `layer` of its seven arguments. The aggregation stage is `agg` by unfolding; the
    rest is read at an index. -/
theorem layer0_eq (x0 : (⟨S50000x128, .f32⟩ : BufTy).Contents (Elt Ideal)) (x1 : (⟨S2x600000, .i32⟩ : BufTy).Contents (Elt Ideal)) (x2 : (⟨S600000x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v26 (F := Ideal) x0 x1 x2 x3 x4 x5 x6 = layer x0 x1 x2 x3 x4 x5 x6 := by
  funext i
  obtain ⟨p, q, rfl⟩ : ∃ (p : Fin 50000) (q : Fin 128), i = ix2 p q := ⟨i 0, i 1, eq_ix2 i⟩
  have e15 : val_main_v15 (F := Ideal) x0 x1 x2 = agg x0 x1 x2 := rfl
  have i22l : ∀ k : Fin 128, lidx_main_v22 (ix2 p q) k = ix2 p k := fun k =>
    funext fun a => Fin.ext (by match a with | ⟨0, _⟩ => rfl | ⟨1, _⟩ => rfl)
  have i22r : ∀ k : Fin 128, ridx_main_v22 (ix2 p q) k = ix2 k q := fun k =>
    funext fun a => Fin.ext (by match a with | ⟨0, _⟩ => rfl | ⟨1, _⟩ => rfl)
  have i17l : ∀ k l : Fin 128, lidx_main_v17 (ix2 p k) l = ix2 p l := fun k l =>
    funext fun a => Fin.ext (by match a with | ⟨0, _⟩ => rfl | ⟨1, _⟩ => rfl)
  have i17r : ∀ k l : Fin 128, ridx_main_v17 (ix2 p k) l = ix2 l k := fun k l =>
    funext fun a => Fin.ext (by match a with | ⟨0, _⟩ => rfl | ⟨1, _⟩ => rfl)
  have i19 : ∀ k : Fin 128, idx_main_v18 (idx_main_v19 (ix2 p k)) = ix1 k := fun k =>
    funext fun a => Fin.ext (by match a with | ⟨0, _⟩ => rfl)
  have i24 : idx_main_v23 (idx_main_v24 (ix2 p q)) = ix1 q :=
    funext fun a => Fin.ext (by match a with | ⟨0, _⟩ => rfl)
  rw [val_main_v26_apply, val_main_v25_apply, val_main_v22_apply, val_main_v24_apply, val_main_v23_apply,
    val_main_call2_v0_apply, val_main_call2_cst_apply]
  simp only [i22l, i22r, val_main_v21_apply, val_main_v20_apply, val_main_v17_apply, val_main_v19_apply,
    val_main_v18_apply, val_main_call1_v0_apply, val_main_call1_cst_apply, i17l, i17r, i19, i24,
    val_main_v16_apply, e15, Ideal.addf_def, Ideal.maximumf_def, Ideal.ofBits_def, Ideal.ofBits_zero_f32]
  rfl

/-- The second layer's stage is the first layer's at the first layer's result and the second layer's weights. -/
theorem layer1_eq (x0 : (⟨S50000x128, .f32⟩ : BufTy).Contents (Elt Ideal)) (x1 : (⟨S2x600000, .i32⟩ : BufTy).Contents (Elt Ideal)) (x2 : (⟨S600000x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v49 (F := Ideal) x0 x1 x2 x3 x4 x5 x6 x7 x8 x9 x10
      = layer (layer x0 x1 x2 x3 x4 x5 x6) x1 x2 x7 x8 x9 x10 := by
  have e : val_main_v49 (F := Ideal) x0 x1 x2 x3 x4 x5 x6 x7 x8 x9 x10
      = val_main_v26 (F := Ideal) (val_main_v26 (F := Ideal) x0 x1 x2 x3 x4 x5 x6) x1 x2 x7 x8 x9 x10 := rfl
  rw [e, layer0_eq, layer0_eq]

/-- The third layer's stage likewise. -/
theorem layer2_eq (x0 : (⟨S50000x128, .f32⟩ : BufTy).Contents (Elt Ideal)) (x1 : (⟨S2x600000, .i32⟩ : BufTy).Contents (Elt Ideal)) (x2 : (⟨S600000x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) :
    val_main_v72 (F := Ideal) x0 x1 x2 x3 x4 x5 x6 x7 x8 x9 x10 x11 x12 x13 x14
      = layer (layer (layer x0 x1 x2 x3 x4 x5 x6) x1 x2 x7 x8 x9 x10) x1 x2 x11 x12 x13 x14 := by
  have e : val_main_v72 (F := Ideal) x0 x1 x2 x3 x4 x5 x6 x7 x8 x9 x10 x11 x12 x13 x14
      = val_main_v26 (F := Ideal) (val_main_v49 (F := Ideal) x0 x1 x2 x3 x4 x5 x6 x7 x8 x9 x10) x1 x2 x11 x12 x13 x14 := rfl
  rw [e, layer0_eq, layer1_eq]

/-! ## The concatenation at an index -/

section Cat
variable (y0 y1 y2 : (⟨S50000x128, .f32⟩ : BufTy).Contents (Elt Ideal))
  (h : Shape.Concatenates [S50000x128, S50000x128, S50000x128] S50000x384 1) (p : Fin 50000) (q k : Fin 128)

/-- Column `k` of the concatenation is column `k` of the first piece. -/
theorem cat_blk0 :
    concatenate S50000x384 1 [⟨S50000x128, y0⟩, ⟨S50000x128, y1⟩, ⟨S50000x128, y2⟩] h (lidx_main_v74 (ix2 p q) (blk0 k))
      = y0 (ix2 p k) :=
  concatenate_apply_piece (t := S50000x384) 1 [⟨S50000x128, y0⟩, ⟨S50000x128, y1⟩, ⟨S50000x128, y2⟩] h (lidx_main_v74 (ix2 p q) (blk0 k)) 0 (by show 0 < 3; omega) S50000x128 y0 rfl rfl 0 rfl (ix2 p k)
    (fun b hb => by match b, hb with | ⟨0, _⟩, _ => rfl | ⟨1, _⟩, hb => exact absurd rfl hb)
    (by show 0 + k.val = k.val; omega)

/-- Column `128 + k` of the concatenation is column `k` of the second piece. -/
theorem cat_blk1 :
    concatenate S50000x384 1 [⟨S50000x128, y0⟩, ⟨S50000x128, y1⟩, ⟨S50000x128, y2⟩] h (lidx_main_v74 (ix2 p q) (blk1 k))
      = y1 (ix2 p k) :=
  concatenate_apply_piece (t := S50000x384) 1 [⟨S50000x128, y0⟩, ⟨S50000x128, y1⟩, ⟨S50000x128, y2⟩] h (lidx_main_v74 (ix2 p q) (blk1 k)) 1 (by show 1 < 3; omega) S50000x128 y1 rfl rfl 128 rfl (ix2 p k)
    (fun b hb => by match b, hb with | ⟨0, _⟩, _ => rfl | ⟨1, _⟩, hb => exact absurd rfl hb)
    rfl

/-- Column `256 + k` of the concatenation is column `k` of the third piece. -/
theorem cat_blk2 :
    concatenate S50000x384 1 [⟨S50000x128, y0⟩, ⟨S50000x128, y1⟩, ⟨S50000x128, y2⟩] h (lidx_main_v74 (ix2 p q) (blk2 k))
      = y2 (ix2 p k) :=
  concatenate_apply_piece (t := S50000x384) 1 [⟨S50000x128, y0⟩, ⟨S50000x128, y1⟩, ⟨S50000x128, y2⟩] h (lidx_main_v74 (ix2 p q) (blk2 k)) 2 (by show 2 < 3; omega) S50000x128 y2 rfl rfl 256 rfl (ix2 p k)
    (fun b hb => by match b, hb with | ⟨0, _⟩, _ => rfl | ⟨1, _⟩, hb => exact absurd rfl hb)
    rfl

end Cat

/-! ## The network -/

/-- The reference's result stage is the specification of its seventeen arguments. -/
theorem stage_eq_out (x0 : (⟨S50000x128, .f32⟩ : BufTy).Contents (Elt Ideal)) (x1 : (⟨S2x600000, .i32⟩ : BufTy).Contents (Elt Ideal)) (x2 : (⟨S600000x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S384x128, .f32⟩ : BufTy).Contents (Elt Ideal)) (x16 : (⟨S128, .f32⟩ : BufTy).Contents (Elt Ideal)) :
    val_main_v78 (F := Ideal) x0 x1 x2 x3 x4 x5 x6 x7 x8 x9 x10 x11 x12 x13 x14 x15 x16 = out x0 x1 x2 x3 x4 x5 x6 x7 x8 x9 x10 x11 x12 x13 x14 x15 x16 := by
  funext i
  obtain ⟨p, q, rfl⟩ : ∃ (p : Fin 50000) (q : Fin 128), i = ix2 p q := ⟨i 0, i 1, eq_ix2 i⟩
  have i74r : ∀ k : Fin 384, ridx_main_v74 (ix2 p q) k = ix2 k q := fun k =>
    funext fun a => Fin.ext (by match a with | ⟨0, _⟩ => rfl | ⟨1, _⟩ => rfl)
  have i76 : idx_main_v75 (idx_main_v76 (ix2 p q)) = ix1 q :=
    funext fun a => Fin.ext (by match a with | ⟨0, _⟩ => rfl)
  rw [val_main_v78_apply, val_main_v77_apply, val_main_v74_apply, val_main_v76_apply, val_main_v75_apply,
    val_main_call9_v0_apply, val_main_call9_cst_apply]
  simp only [i74r, i76, Ideal.addf_def, Ideal.maximumf_def, Ideal.ofBits_def, Ideal.ofBits_zero_f32]
  unfold out
  rw [jk_ix2]
  refine sum384_eq_jkAt _ _ _ x15 x16 p q
    (fun k => val_main_v73 (F := Ideal) x0 x1 x2 x3 x4 x5 x6 x7 x8 x9 x10 x11 x12 x13 x14 (lidx_main_v74 (ix2 p q) k)) ?_ ?_ ?_
  · intro k
    unfold val_main_v73
    rw [cat_blk0, layer0_eq]
  · intro k
    unfold val_main_v73
    rw [cat_blk1, layer1_eq]
  · intro k
    unfold val_main_v73
    rw [cat_blk2, layer2_eq]

/-- The reference run's result term is the specification of the argument arrays as the run found them. -/
theorem result_eq_out (m : (ℓ : Loc nD τ sig) → Buf (Elt Ideal) ℓ) (c : Dev nD) :
    Cert.ReferenceIdeal.Value.res_main_v78 (F := Ideal) m c
      = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) :=
  (val_main_v78_eq (F := Ideal) m c).trans (stage_eq_out _ _ _ _ _ _ _ _ _ _ _ _ _ _ _ _ _)

end Cert.ReferenceIdeal.RefSpec

end
-- ==== Proof.lean ====
/- A three-layer edge-conditioned graph network on 50000 nodes and 600000 edges, against its plain reference.

   Each layer gathers the source node's features along every edge, adds the edge's features, clamps at zero and sums the
   messages into the destination nodes (the edge aggregation), then applies a two-layer perceptron with clamping to the
   node's own features plus its aggregate. The kernel leaves the aggregation to host operations — the same gather,
   elementwise operations and scatter-sum the reference runs — and computes the perceptron in a kernel region, block of
   rows by block of rows; its third region fuses the third perceptron with the final linear layer over the concatenation of
   the three layers' results, computed as three products with the three 128-row blocks of the final weight matrix. At the
   ideal instance a change of float format is the identity, so the two programs differ only in how that 384-term sum is
   grouped, and a sum of extended reals may be regrouped freely: no finiteness of the inputs is used.

   The frames of the two kernel programs come from one run theorem per program (the three regions entered from and left at
   the buffer contents the items before them leave; the buffer two windows of the last region read is held half and half);
   the reference's frame is its run with the result dropped; the kernel is its own idealization (no rewrite was applied);
   and the equal results are both the specification's output of the seventeen launch arrays. -/
import proofs.«113067_j58007828300389_2_alg».proof.Defs
import proofs.«113067_j58007828300389_2_alg».proof.Proof.Gen.Kernel
import proofs.«113067_j58007828300389_2_alg».proof.Proof.Gen.KernelIdeal
import proofs.«113067_j58007828300389_2_alg».proof.Proof.Gen.ReferenceIdeal
import proofs.«113067_j58007828300389_2_alg».proof.Proof.Gen.Pre_finite_inputs
import proofs.«113067_j58007828300389_2_alg».proof.Proof.BitsRun
import proofs.«113067_j58007828300389_2_alg».proof.Proof.IdealRun
import proofs.«113067_j58007828300389_2_alg».proof.Proof.IdealOut
import proofs.«113067_j58007828300389_2_alg».proof.Proof.RefIsSpec
import Idealize.ShloMosaic.Adequacy
import Idealize.ShloMosaic.Init

noncomputable section

namespace Cert.Proof

open Idealize.ShloMosaic Idealize.SL.Sem

/-- The word-level kernel runs to the end, faults nowhere and leaves its argument arrays as launched. -/
theorem frame_kernel : Cert.frame_Kernel := fun m ρ _ => Cert.Kernel.Whole.frame m ρ

/-- So does its idealization. -/
theorem frame_kernelIdeal : Cert.frame_KernelIdeal := fun m ρ _ => Cert.KernelIdeal.Whole.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No rewrite was applied in idealizing the kernel. -/
theorem preserves : Cert.preserves_Kernel_KernelIdeal := trivial

/-- From memories agreeing on the seventeen argument arrays both programs end with the specification's output of those
    arrays in their result buffers. -/
theorem algebraic : Cert.algebraic_KernelIdeal_ReferenceIdeal := by
  intro m ρ m' ρ' _ hagree
  refine ⟨fun c => Cert.KernelIdeal.Whole.o12 m c, Cert.KernelIdeal.Whole.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16⟩ := hagree c
  rw [Cert.ReferenceIdeal.RefSpec.result_eq_out m' c, h0, h1, h2, h3, h4, h5, h6, h7, h8, h9, h10, h11, h12, h13, h14, h15, h16]
  exact (Cert.KernelIdeal.Whole.out_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
